-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x272 : Shape := ⟨2, ![65536, 272]⟩
abbrev S65536x420 : Shape := ⟨2, ![65536, 420]⟩
abbrev S65536x4 : Shape := ⟨2, ![65536, 4]⟩
abbrev S600x20 : Shape := ⟨2, ![600, 20]⟩
abbrev S600x200 : Shape := ⟨2, ![600, 200]⟩
abbrev S600 : Shape := ⟨1, ![600]⟩
abbrev S384x320 : Shape := ⟨2, ![384, 320]⟩
abbrev S384x128 : Shape := ⟨2, ![384, 128]⟩
abbrev S384 : Shape := ⟨1, ![384]⟩
abbrev S8x128 : Shape := ⟨2, ![8, 128]⟩
abbrev S8 : Shape := ⟨1, ![8]⟩
abbrev S64x200 : Shape := ⟨2, ![64, 200]⟩
abbrev S_ : Shape := ⟨0, ![]⟩

class Facts : Prop where
  bcast_S_S65536x272 : S_.BroadcastsInDim S65536x272 (![] : Fin 0 → Fin S65536x272.rank)
  reducesTo_S65536x272_S_d0_1 : S65536x272.ReducesTo [0, 1] S_
  h_S_ : 0 < S_.numel
  bcast_S_S65536x420 : S_.BroadcastsInDim S65536x420 (![] : Fin 0 → Fin S65536x420.rank)
  reducesTo_S65536x420_S_d0_1 : S65536x420.ReducesTo [0, 1] S_
  bcast_S_S65536x4 : S_.BroadcastsInDim S65536x4 (![] : Fin 0 → Fin S65536x4.rank)
  reducesTo_S65536x4_S_d0_1 : S65536x4.ReducesTo [0, 1] S_
  bcast_S_S600x20 : S_.BroadcastsInDim S600x20 (![] : Fin 0 → Fin S600x20.rank)
  reducesTo_S600x20_S_d0_1 : S600x20.ReducesTo [0, 1] S_
  bcast_S_S600x200 : S_.BroadcastsInDim S600x200 (![] : Fin 0 → Fin S600x200.rank)
  reducesTo_S600x200_S_d0_1 : S600x200.ReducesTo [0, 1] S_
  bcast_S_S600 : S_.BroadcastsInDim S600 (![] : Fin 0 → Fin S600.rank)
  reducesTo_S600_S_d0 : S600.ReducesTo [0] S_
  bcast_S_S384x320 : S_.BroadcastsInDim S384x320 (![] : Fin 0 → Fin S384x320.rank)
  reducesTo_S384x320_S_d0_1 : S384x320.ReducesTo [0, 1] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_
  bcast_S_S8x128 : S_.BroadcastsInDim S8x128 (![] : Fin 0 → Fin S8x128.rank)
  reducesTo_S8x128_S_d0_1 : S8x128.ReducesTo [0, 1] S_
  bcast_S_S8 : S_.BroadcastsInDim S8 (![] : Fin 0 → Fin S8.rank)
  reducesTo_S8_S_d0 : S8.ReducesTo [0] S_
  bcast_S_S64x200 : S_.BroadcastsInDim S64x200 (![] : Fin 0 → Fin S64x200.rank)
  reducesTo_S64x200_S_d0_1 : S64x200.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S8x128 .f32) (main_arg12 : FVec F S8 .f32) (main_arg13 : FVec F S64x200 .f32) (main_v48 : IVec S_ 1) (main_v49 : FVec F S384 .f32) (main_v50 : FVec F S384 .f32) : IVec S_ 1 :=
  let main_v51 : IVec S384 1 := cmpf .olt main_v49 main_v50
  let main_c_19 : IVec S_ 1 := constantI S_ 1 1#1
  let main_v52 : IVec S_ 1 := (fun x v => Host.reduce IntOp.andi x v reducesTo_S384_S_d0 h_S_) main_v51 main_c_19
  let main_v53 : IVec S_ 1 := andi main_v48 main_v52
  let main_v54 : FVec F S8x128 .f32 := Host.absf main_arg11
  let main_cst_20 : FVec F S_ .f32 := constant S_ .f32 0x7F800000#32
  let main_v55 : FVec F S8x128 .f32 := broadcastInDim S8x128 ![] bcast_S_S8x128 main_cst_20
  let main_v56 : IVec S8x128 1 := cmpf .olt main_v54 main_v55
  let main_c_21 : IVec S_ 1 := constantI S_ 1 1#1
  let main_v57 : IVec S_ 1 := (fun x v => Host.reduce IntOp.andi x v reducesTo_S8x128_S_d0_1 h_S_) main_v56 main_c_21
  let main_v58 : IVec S_ 1 := andi main_v53 main_v57
  let main_v59 : FVec F S8 .f32 := Host.absf main_arg12
  let main_cst_22 : FVec F S_ .f32 := constant S_ .f32 0x7F800000#32
  let main_v60 : FVec F S8 .f32 := broadcastInDim S8 ![] bcast_S_S8 main_cst_22
  let main_v61 : IVec S8 1 := cmpf .olt main_v59 main_v60
  let main_c_23 : IVec S_ 1 := constantI S_ 1 1#1
  let main_v62 : IVec S_ 1 := (fun x v => Host.reduce IntOp.andi x v reducesTo_S8_S_d0 h_S_) main_v61 main_c_23
  let main_v63 : IVec S_ 1 := andi main_v58 main_v62
  let main_v64 : FVec F S64x200 .f32 := Host.absf main_arg13
  let main_cst_24 : FVec F S_ .f32 := constant S_ .f32 0x7F800000#32
  let main_v65 : FVec F S64x200 .f32 := broadcastInDim S64x200 ![] bcast_S_S64x200 main_cst_24
  let main_v66 : IVec S64x200 1 := cmpf .olt main_v64 main_v65
  let main_c_25 : IVec S_ 1 := constantI S_ 1 1#1
  let main_v67 : IVec S_ 1 := (fun x v => Host.reduce IntOp.andi x v reducesTo_S64x200_S_d0_1 h_S_) main_v66 main_c_25
  fn_part4 (F := F) main_v63 main_v67

def fn_part2 {F : FTy → Type} [FloatOps F] (main_arg7 : FVec F S384x320 .f32) (main_arg8 : FVec F S384x128 .f32) (main_arg9 : FVec F S384 .f32) (main_arg10 : FVec F S384 .f32) (main_arg11 : FVec F S8x128 .f32) (main_arg12 : FVec F S8 .f32) (main_arg13 : FVec F S64x200 .f32) (main_v33 : IVec S_ 1) : IVec S_ 1 :=
  let main_v34 : FVec F S384x320 .f32 := Host.absf main_arg7
  let main_cst_12 : FVec F S_ .f32 := constant S_ .f32 0x7F800000#32
  let main_v35 : FVec F S384x320 .f32 := broadcastInDim S384x320 ![] bcast_S_S384x320 main_cst_12
  let main_v36 : IVec S384x320 1 := cmpf .olt main_v34 main_v35
  let main_c_13 : IVec S_ 1 := constantI S_ 1 1#1
  let main_v37 : IVec S_ 1 := (fun x v => Host.reduce IntOp.andi x v reducesTo_S384x320_S_d0_1 h_S_) main_v36 main_c_13
  let main_v38 : IVec S_ 1 := andi main_v33 main_v37
  let main_v39 : FVec F S384x128 .f32 := Host.absf main_arg8
  let main_cst_14 : FVec F S_ .f32 := constant S_ .f32 0x7F800000#32
  let main_v40 : FVec F S384x128 .f32 := broadcastInDim S384x128 ![] bcast_S_S384x128 main_cst_14
  let main_v41 : IVec S384x128 1 := cmpf .olt main_v39 main_v40
  let main_c_15 : IVec S_ 1 := constantI S_ 1 1#1
  let main_v42 : IVec S_ 1 := (fun x v => Host.reduce IntOp.andi x v reducesTo_S384x128_S_d0_1 h_S_) main_v41 main_c_15
  let main_v43 : IVec S_ 1 := andi main_v38 main_v42
  let main_v44 : FVec F S384 .f32 := Host.absf main_arg9
  let main_cst_16 : FVec F S_ .f32 := constant S_ .f32 0x7F800000#32
  let main_v45 : FVec F S384 .f32 := broadcastInDim S384 ![] bcast_S_S384 main_cst_16
  let main_v46 : IVec S384 1 := cmpf .olt main_v44 main_v45
  let main_c_17 : IVec S_ 1 := constantI S_ 1 1#1
  let main_v47 : IVec S_ 1 := (fun x v => Host.reduce IntOp.andi x v reducesTo_S384_S_d0 h_S_) main_v46 main_c_17
  let main_v48 : IVec S_ 1 := andi main_v43 main_v47
  let main_v49 : FVec F S384 .f32 := Host.absf main_arg10
  let main_cst_18 : FVec F S_ .f32 := constant S_ .f32 0x7F800000#32
  let main_v50 : FVec F S384 .f32 := broadcastInDim S384 ![] bcast_S_S384 main_cst_18
  fn_part3 (F := F) main_arg11 main_arg12 main_arg13 main_v48 main_v49 main_v50

def fn_part1 {F : FTy → Type} [FloatOps F] (main_arg4 : FVec F S600x200 .f32) (main_arg5 : FVec F S600 .f32) (main_arg6 : FVec F S600 .f32) (main_arg7 : FVec F S384x320 .f32) (main_arg8 : FVec F S384x128 .f32) (main_arg9 : FVec F S384 .f32) (main_arg10 : FVec F S384 .f32) (main_arg11 : FVec F S8x128 .f32) (main_arg12 : FVec F S8 .f32) (main_arg13 : FVec F S64x200 .f32) (main_v13 : IVec S_ 1) (main_v16 : IVec S600x20 1) : IVec S_ 1 :=
  let main_c_5 : IVec S_ 1 := constantI S_ 1 1#1
  let main_v17 : IVec S_ 1 := (fun x v => Host.reduce IntOp.andi x v reducesTo_S600x20_S_d0_1 h_S_) main_v16 main_c_5
  let main_v18 : IVec S_ 1 := andi main_v13 main_v17
  let main_v19 : FVec F S600x200 .f32 := Host.absf main_arg4
  let main_cst_6 : FVec F S_ .f32 := constant S_ .f32 0x7F800000#32
  let main_v20 : FVec F S600x200 .f32 := broadcastInDim S600x200 ![] bcast_S_S600x200 main_cst_6
  let main_v21 : IVec S600x200 1 := cmpf .olt main_v19 main_v20
  let main_c_7 : IVec S_ 1 := constantI S_ 1 1#1
  let main_v22 : IVec S_ 1 := (fun x v => Host.reduce IntOp.andi x v reducesTo_S600x200_S_d0_1 h_S_) main_v21 main_c_7
  let main_v23 : IVec S_ 1 := andi main_v18 main_v22
  let main_v24 : FVec F S600 .f32 := Host.absf main_arg5
  let main_cst_8 : FVec F S_ .f32 := constant S_ .f32 0x7F800000#32
  let main_v25 : FVec F S600 .f32 := broadcastInDim S600 ![] bcast_S_S600 main_cst_8
  let main_v26 : IVec S600 1 := cmpf .olt main_v24 main_v25
  let main_c_9 : IVec S_ 1 := constantI S_ 1 1#1
  let main_v27 : IVec S_ 1 := (fun x v => Host.reduce IntOp.andi x v reducesTo_S600_S_d0 h_S_) main_v26 main_c_9
  let main_v28 : IVec S_ 1 := andi main_v23 main_v27
  let main_v29 : FVec F S600 .f32 := Host.absf main_arg6
  let main_cst_10 : FVec F S_ .f32 := constant S_ .f32 0x7F800000#32
  let main_v30 : FVec F S600 .f32 := broadcastInDim S600 ![] bcast_S_S600 main_cst_10
  let main_v31 : IVec S600 1 := cmpf .olt main_v29 main_v30
  let main_c_11 : IVec S_ 1 := constantI S_ 1 1#1
  let main_v32 : IVec S_ 1 := (fun x v => Host.reduce IntOp.andi x v reducesTo_S600_S_d0 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S65536x272 .f32) (main_arg1 : FVec F S65536x420 .f32) (main_arg2 : FVec F S65536x4 .f32) (main_arg3 : FVec F S600x20 .f32) (main_arg4 : FVec F S600x200 .f32) (main_arg5 : FVec F S600 .f32) (main_arg6 : FVec F S600 .f32) (main_arg7 : FVec F S384x320 .f32) (main_arg8 : FVec F S384x128 .f32) (main_arg9 : FVec F S384 .f32) (main_arg10 : FVec F S384 .f32) (main_arg11 : FVec F S8x128 .f32) (main_arg12 : FVec F S8 .f32) (main_arg13 : FVec F S64x200 .f32) : IVec S_ 1 :=
  let main_v0 : FVec F S65536x272 .f32 := Host.absf main_arg0
  let main_cst : FVec F S_ .f32 := constant S_ .f32 0x7F800000#32
  let main_v1 : FVec F S65536x272 .f32 := broadcastInDim S65536x272 ![] bcast_S_S65536x272 main_cst
  let main_v2 : IVec S65536x272 1 := cmpf .olt main_v0 main_v1
  let main_c : IVec S_ 1 := constantI S_ 1 1#1
  let main_v3 : IVec S_ 1 := (fun x v => Host.reduce IntOp.andi x v reducesTo_S65536x272_S_d0_1 h_S_) main_v2 main_c
  let main_v4 : FVec F S65536x420 .f32 := Host.absf main_arg1
  let main_cst_0 : FVec F S_ .f32 := constant S_ .f32 0x7F800000#32
  let main_v5 : FVec F S65536x420 .f32 := broadcastInDim S65536x420 ![] bcast_S_S65536x420 main_cst_0
  let main_v6 : IVec S65536x420 1 := cmpf .olt main_v4 main_v5
  let main_c_1 : IVec S_ 1 := constantI S_ 1 1#1
  let main_v7 : IVec S_ 1 := (fun x v => Host.reduce IntOp.andi x v reducesTo_S65536x420_S_d0_1 h_S_) main_v6 main_c_1
  let main_v8 : IVec S_ 1 := andi main_v3 main_v7
  let main_v9 : FVec F S65536x4 .f32 := Host.absf main_arg2
  let main_cst_2 : FVec F S_ .f32 := constant S_ .f32 0x7F800000#32
  let main_v10 : FVec F S65536x4 .f32 := broadcastInDim S65536x4 ![] bcast_S_S65536x4 main_cst_2
  let main_v11 : IVec S65536x4 1 := cmpf .olt main_v9 main_v10
  let main_c_3 : IVec S_ 1 := constantI S_ 1 1#1
  let main_v12 : IVec S_ 1 := (fun x v => Host.reduce IntOp.andi x v reducesTo_S65536x4_S_d0_1 h_S_) main_v11 main_c_3
  let main_v13 : IVec S_ 1 := andi main_v8 main_v12
  let main_v14 : FVec F S600x20 .f32 := Host.absf main_arg3
  let main_cst_4 : FVec F S_ .f32 := constant S_ .f32 0x7F800000#32
  let main_v15 : FVec F S600x20 .f32 := broadcastInDim S600x20 ![] bcast_S_S600x20 main_cst_4
  let main_v16 : IVec S600x20 1 := cmpf .olt main_v14 main_v15
  fn_part1 (F := F) main_arg4 main_arg5 main_arg6 main_arg7 main_arg8 main_arg9 main_arg10 main_arg11 main_arg12 main_arg13 main_v13 main_v16
-- ==== Kernel.lean ====
abbrev S65536x272 : Shape := ⟨2, ![65536, 272]⟩
abbrev S65536x420 : Shape := ⟨2, ![65536, 420]⟩
abbrev S65536x4 : Shape := ⟨2, ![65536, 4]⟩
abbrev S600x20 : Shape := ⟨2, ![600, 20]⟩
abbrev S600x200 : Shape := ⟨2, ![600, 200]⟩
abbrev S600 : Shape := ⟨1, ![600]⟩
abbrev S384x320 : Shape := ⟨2, ![384, 320]⟩
abbrev S384x128 : Shape := ⟨2, ![384, 128]⟩
abbrev S384 : Shape := ⟨1, ![384]⟩
abbrev S8x128 : Shape := ⟨2, ![8, 128]⟩
abbrev S8 : Shape := ⟨1, ![8]⟩
abbrev S64x200 : Shape := ⟨2, ![64, 200]⟩
abbrev S20x600 : Shape := ⟨2, ![20, 600]⟩
abbrev S20x200 : Shape := ⟨2, ![20, 200]⟩
abbrev S_ : Shape := ⟨0, ![]⟩
abbrev S20x256 : Shape := ⟨2, ![20, 256]⟩
abbrev S20x768 : Shape := ⟨2, ![20, 768]⟩
abbrev S200x600 : Shape := ⟨2, ![200, 600]⟩
abbrev S200x200 : Shape := ⟨2, ![200, 200]⟩
abbrev S200x256 : Shape := ⟨2, ![200, 256]⟩
abbrev S200x768 : Shape := ⟨2, ![200, 768]⟩
abbrev S200 : Shape := ⟨1, ![200]⟩
abbrev S256 : Shape := ⟨1, ![256]⟩
abbrev S768 : Shape := ⟨1, ![768]⟩
abbrev S1x768 : Shape := ⟨2, ![1, 768]⟩
abbrev S320x384 : Shape := ⟨2, ![320, 384]⟩
abbrev S128x384 : Shape := ⟨2, ![128, 384]⟩
abbrev S1x384 : Shape := ⟨2, ![1, 384]⟩
abbrev S128x8 : Shape := ⟨2, ![128, 8]⟩
abbrev S1x8 : Shape := ⟨2, ![1, 8]⟩
abbrev S64 : Shape := ⟨1, ![64]⟩
abbrev S64x1 : Shape := ⟨2, ![64, 1]⟩
abbrev S200x64 : Shape := ⟨2, ![200, 64]⟩
abbrev S1024x272 : Shape := ⟨2, ![1024, 272]⟩
abbrev S1024x420 : Shape := ⟨2, ![1024, 420]⟩
abbrev S1024x4 : Shape := ⟨2, ![1024, 4]⟩
abbrev S1024x200 : Shape := ⟨2, ![1024, 200]⟩
abbrev S1024x128 : Shape := ⟨2, ![1024, 128]⟩
abbrev S1024x64 : Shape := ⟨2, ![1024, 64]⟩
abbrev S1024x256 : Shape := ⟨2, ![1024, 256]⟩
abbrev S1024x16 : Shape := ⟨2, ![1024, 16]⟩
abbrev S1024x320 : Shape := ⟨2, ![1024, 320]⟩
abbrev S1024x384 : Shape := ⟨2, ![1024, 384]⟩
abbrev S1024x8 : Shape := ⟨2, ![1024, 8]⟩
abbrev S1024x20 : Shape := ⟨2, ![1024, 20]⟩
abbrev S1024x768 : Shape := ⟨2, ![1024, 768]⟩

abbrev nBuf : Space → Nat
  | .hbm => 94
  | .vmem => 19
  | .smem => 0
  | _ => 0

abbrev bufTy : (tb : Table) → Fin (tcTables nBuf tb) → BufTy
  | .hbm, ⟨0, _⟩ => ⟨S65536x272, .f32⟩
  | .hbm, ⟨1, _⟩ => ⟨S65536x420, .f32⟩
  | .hbm, ⟨2, _⟩ => ⟨S65536x4, .f32⟩
  | .hbm, ⟨3, _⟩ => ⟨S600x20, .f32⟩
  | .hbm, ⟨4, _⟩ => ⟨S600x200, .f32⟩
  | .hbm, ⟨5, _⟩ => ⟨S600, .f32⟩
  | .hbm, ⟨6, _⟩ => ⟨S600, .f32⟩
  | .hbm, ⟨7, _⟩ => ⟨S384x320, .f32⟩
  | .hbm, ⟨8, _⟩ => ⟨S384x128, .f32⟩
  | .hbm, ⟨9, _⟩ => ⟨S384, .f32⟩
  | .hbm, ⟨10, _⟩ => ⟨S384, .f32⟩
  | .hbm, ⟨11, _⟩ => ⟨S8x128, .f32⟩
  | .hbm, ⟨12, _⟩ => ⟨S8, .f32⟩
  | .hbm, ⟨13, _⟩ => ⟨S64x200, .f32⟩
  | .hbm, ⟨14, _⟩ => ⟨S20x600, .f32⟩
  | .hbm, ⟨15, _⟩ => ⟨S20x200, .f32⟩
  | .hbm, ⟨16, _⟩ => ⟨S20x200, .f32⟩
  | .hbm, ⟨17, _⟩ => ⟨S20x200, .f32⟩
  | .hbm, ⟨18, _⟩ => ⟨S_, .i32⟩
  | .hbm, ⟨19, _⟩ => ⟨S_, .f32⟩
  | .hbm, ⟨20, _⟩ => ⟨S20x256, .f32⟩
  | .hbm, ⟨21, _⟩ => ⟨S_, .i32⟩
  | .hbm, ⟨22, _⟩ => ⟨S_, .f32⟩
  | .hbm, ⟨23, _⟩ => ⟨S20x256, .f32⟩
  | .hbm, ⟨24, _⟩ => ⟨S_, .i32⟩
  | .hbm, ⟨25, _⟩ => ⟨S_, .f32⟩
  | .hbm, ⟨26, _⟩ => ⟨S20x256, .f32⟩
  | .hbm, ⟨27, _⟩ => ⟨S20x768, .f32⟩
  | .hbm, ⟨28, _⟩ => ⟨S20x768, .bf16⟩
  | .hbm, ⟨29, _⟩ => ⟨S200x600, .f32⟩
  | .hbm, ⟨30, _⟩ => ⟨S200x200, .f32⟩
  | .hbm, ⟨31, _⟩ => ⟨S200x200, .f32⟩
  | .hbm, ⟨32, _⟩ => ⟨S200x200, .f32⟩
  | .hbm, ⟨33, _⟩ => ⟨S_, .i32⟩
  | .hbm, ⟨34, _⟩ => ⟨S_, .f32⟩
  | .hbm, ⟨35, _⟩ => ⟨S200x256, .f32⟩
  | .hbm, ⟨36, _⟩ => ⟨S_, .i32⟩
  | .hbm, ⟨37, _⟩ => ⟨S_, .f32⟩
  | .hbm, ⟨38, _⟩ => ⟨S200x256, .f32⟩
  | .hbm, ⟨39, _⟩ => ⟨S_, .i32⟩
  | .hbm, ⟨40, _⟩ => ⟨S_, .f32⟩
  | .hbm, ⟨41, _⟩ => ⟨S200x256, .f32⟩
  | .hbm, ⟨42, _⟩ => ⟨S200x768, .f32⟩
  | .hbm, ⟨43, _⟩ => ⟨S200x768, .bf16⟩
  | .hbm, ⟨44, _⟩ => ⟨S200, .f32⟩
  | .hbm, ⟨45, _⟩ => ⟨S200, .f32⟩
  | .hbm, ⟨46, _⟩ => ⟨S200, .f32⟩
  | .hbm, ⟨47, _⟩ => ⟨S_, .i32⟩
  | .hbm, ⟨48, _⟩ => ⟨S_, .f32⟩
  | .hbm, ⟨49, _⟩ => ⟨S256, .f32⟩
  | .hbm, ⟨50, _⟩ => ⟨S_, .i32⟩
  | .hbm, ⟨51, _⟩ => ⟨S_, .f32⟩
  | .hbm, ⟨52, _⟩ => ⟨S256, .f32⟩
  | .hbm, ⟨53, _⟩ => ⟨S_, .i32⟩
  | .hbm, ⟨54, _⟩ => ⟨S_, .f32⟩
  | .hbm, ⟨55, _⟩ => ⟨S256, .f32⟩
  | .hbm, ⟨56, _⟩ => ⟨S768, .f32⟩
  | .hbm, ⟨57, _⟩ => ⟨S1x768, .f32⟩
  | .hbm, ⟨58, _⟩ => ⟨S200, .f32⟩
  | .hbm, ⟨59, _⟩ => ⟨S200, .f32⟩
  | .hbm, ⟨60, _⟩ => ⟨S200, .f32⟩
  | .hbm, ⟨61, _⟩ => ⟨S_, .i32⟩
  | .hbm, ⟨62, _⟩ => ⟨S_, .f32⟩
  | .hbm, ⟨63, _⟩ => ⟨S256, .f32⟩
  | .hbm, ⟨64, _⟩ => ⟨S_, .i32⟩
  | .hbm, ⟨65, _⟩ => ⟨S_, .f32⟩
  | .hbm, ⟨66, _⟩ => ⟨S256, .f32⟩
  | .hbm, ⟨67, _⟩ => ⟨S_, .i32⟩
  | .hbm, ⟨68, _⟩ => ⟨S_, .f32⟩
  | .hbm, ⟨69, _⟩ => ⟨S256, .f32⟩
  | .hbm, ⟨70, _⟩ => ⟨S768, .f32⟩
  | .hbm, ⟨71, _⟩ => ⟨S1x768, .f32⟩
  | .hbm, ⟨72, _⟩ => ⟨S320x384, .f32⟩
  | .hbm, ⟨73, _⟩ => ⟨S320x384, .bf16⟩
  | .hbm, ⟨74, _⟩ => ⟨S128x384, .f32⟩
  | .hbm, ⟨75, _⟩ => ⟨S128x384, .bf16⟩
  | .hbm, ⟨76, _⟩ => ⟨S1x384, .f32⟩
  | .hbm, ⟨77, _⟩ => ⟨S1x384, .f32⟩
  | .hbm, ⟨78, _⟩ => ⟨S128x8, .f32⟩
  | .hbm, ⟨79, _⟩ => ⟨S128x8, .bf16⟩
  | .hbm, ⟨80, _⟩ => ⟨S1x8, .f32⟩
  | .hbm, ⟨81, _⟩ => ⟨S64x200, .f32⟩
  | .hbm, ⟨82, _⟩ => ⟨S_, .f32⟩
  | .hbm, ⟨83, _⟩ => ⟨S64, .f32⟩
  | .hbm, ⟨84, _⟩ => ⟨S64x1, .f32⟩
  | .hbm, ⟨85, _⟩ => ⟨S64x1, .f32⟩
  | .hbm, ⟨86, _⟩ => ⟨S_, .f32⟩
  | .hbm, ⟨87, _⟩ => ⟨S64x1, .f32⟩
  | .hbm, ⟨88, _⟩ => ⟨S64x1, .f32⟩
  | .hbm, ⟨89, _⟩ => ⟨S64x200, .f32⟩
  | .hbm, ⟨90, _⟩ => ⟨S64x200, .f32⟩
  | .hbm, ⟨91, _⟩ => ⟨S200x64, .f32⟩
  | .hbm, ⟨92, _⟩ => ⟨S200x64, .bf16⟩
  | .hbm, ⟨93, _⟩ => ⟨S65536x420, .f32⟩
  | .local _ .vmem, ⟨0, _⟩ => ⟨S1024x272, .f32⟩
  | .local _ .vmem, ⟨1, _⟩ => ⟨S1024x272, .f32⟩
  | .local _ .vmem, ⟨2, _⟩ => ⟨S1024x420, .f32⟩
  | .local _ .vmem, ⟨3, _⟩ => ⟨S1024x420, .f32⟩
  | .local _ .vmem, ⟨4, _⟩ => ⟨S1024x4, .f32⟩
  | .local _ .vmem, ⟨5, _⟩ => ⟨S1024x4, .f32⟩
  | .local _ .vmem, ⟨6, _⟩ => ⟨S20x768, .bf16⟩
  | .local _ .vmem, ⟨7, _⟩ => ⟨S200x768, .bf16⟩
  | .local _ .vmem, ⟨8, _⟩ => ⟨S1x768, .f32⟩
  | .local _ .vmem, ⟨9, _⟩ => ⟨S1x768, .f32⟩
  | .local _ .vmem, ⟨10, _⟩ => ⟨S320x384, .bf16⟩
  | .local _ .vmem, ⟨11, _⟩ => ⟨S128x384, .bf16⟩
  | .local _ .vmem, ⟨12, _⟩ => ⟨S1x384, .f32⟩
  | .local _ .vmem, ⟨13, _⟩ => ⟨S1x384, .f32⟩
  | .local _ .vmem, ⟨14, _⟩ => ⟨S128x8, .bf16⟩
  | .local _ .vmem, ⟨15, _⟩ => ⟨S1x8, .f32⟩
  | .local _ .vmem, ⟨16, _⟩ => ⟨S200x64, .bf16⟩
  | .local _ .vmem, ⟨17, _⟩ => ⟨S1024x420, .f32⟩
  | .local _ .vmem, ⟨18, _⟩ => ⟨S1024x420, .f32⟩
  | _, _ => ⟨S65536x272, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_call0_v0 : Ref sig .tc := ⟨.hbm, 19, rfl⟩
abbrev main_v4 : Ref sig .tc := ⟨.hbm, 20, rfl⟩
abbrev main_c_0 : Ref sig .tc := ⟨.hbm, 21, rfl⟩
abbrev main_call1_v0 : Ref sig .tc := ⟨.hbm, 22, rfl⟩
abbrev main_v5 : Ref sig .tc := ⟨.hbm, 23, rfl⟩
abbrev main_c_1 : Ref sig .tc := ⟨.hbm, 24, rfl⟩
abbrev main_call2_v0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_c_2 : Ref sig .tc := ⟨.hbm, 33, rfl⟩
abbrev main_call3_v0 : Ref sig .tc := ⟨.hbm, 34, rfl⟩
abbrev main_v13 : Ref sig .tc := ⟨.hbm, 35, rfl⟩
abbrev main_c_3 : Ref sig .tc := ⟨.hbm, 36, rfl⟩
abbrev main_call4_v0 : Ref sig .tc := ⟨.hbm, 37, rfl⟩
abbrev main_v14 : Ref sig .tc := ⟨.hbm, 38, rfl⟩
abbrev main_c_4 : Ref sig .tc := ⟨.hbm, 39, rfl⟩
abbrev main_call5_v0 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_c_5 : Ref sig .tc := ⟨.hbm, 47, rfl⟩
abbrev main_call6_v0 : Ref sig .tc := ⟨.hbm, 48, rfl⟩
abbrev main_v21 : Ref sig .tc := ⟨.hbm, 49, rfl⟩
abbrev main_c_6 : Ref sig .tc := ⟨.hbm, 50, rfl⟩
abbrev main_call7_v0 : Ref sig .tc := ⟨.hbm, 51, rfl⟩
abbrev main_v22 : Ref sig .tc := ⟨.hbm, 52, rfl⟩
abbrev main_c_7 : Ref sig .tc := ⟨.hbm, 53, rfl⟩
abbrev main_call8_v0 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_c_8 : Ref sig .tc := ⟨.hbm, 61, rfl⟩
abbrev main_call9_v0 : Ref sig .tc := ⟨.hbm, 62, rfl⟩
abbrev main_v29 : Ref sig .tc := ⟨.hbm, 63, rfl⟩
abbrev main_c_9 : Ref sig .tc := ⟨.hbm, 64, rfl⟩
abbrev main_call10_v0 : Ref sig .tc := ⟨.hbm, 65, rfl⟩
abbrev main_v30 : Ref sig .tc := ⟨.hbm, 66, rfl⟩
abbrev main_c_10 : Ref sig .tc := ⟨.hbm, 67, rfl⟩
abbrev main_call11_v0 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_cst : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_cst_11 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x272 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x420 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S20x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S200x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S320x384 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x384 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x8 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S200x64 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1024x420 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  transposes_S600x20_S20x600_1_0 : S600x20.Transposes [1, 0] S20x600
  slices_S20x600_S20x200_0_0 : S20x600.Slices ![0, 0] S20x200
  slices_S20x600_S20x200_0_200 : S20x600.Slices ![0, 200] S20x200
  slices_S20x600_S20x200_0_400 : S20x600.Slices ![0, 400] S20x200
  pads_S20x200_S20x256_000_0560 : S20x200.Pads (![0, 0] : Fin 2 → Nat) ![0, 56] ![0, 0] S20x256
  h_S_ : 0 < S_.numel
  concatenates_S20x256_S20x256_S20x256_S20x768_d1 : Shape.Concatenates [S20x256, S20x256, S20x256] S20x768 1
  bitsLt_bf16_f32 : FTy.bits .bf16 < FTy.bits .f32
  transposes_S600x200_S200x600_1_0 : S600x200.Transposes [1, 0] S200x600
  slices_S200x600_S200x200_0_0 : S200x600.Slices ![0, 0] S200x200
  slices_S200x600_S200x200_0_200 : S200x600.Slices ![0, 200] S200x200
  slices_S200x600_S200x200_0_400 : S200x600.Slices ![0, 400] S200x200
  pads_S200x200_S200x256_000_0560 : S200x200.Pads (![0, 0] : Fin 2 → Nat) ![0, 56] ![0, 0] S200x256
  concatenates_S200x256_S200x256_S200x256_S200x768_d1 : Shape.Concatenates [S200x256, S200x256, S200x256] S200x768 1
  slices_S600_S200_0 : S600.Slices ![0] S200
  slices_S600_S200_200 : S600.Slices ![200] S200
  slices_S600_S200_400 : S600.Slices ![400] S200
  pads_S200_S256_0560 : S200.Pads (![0] : Fin 1 → Nat) ![56] ![0] S256
  concatenates_S256_S256_S256_S768_d0 : Shape.Concatenates [S256, S256, S256] S768 0
  bcast_S768_S1x768_1 : S768.BroadcastsInDim S1x768 (![1] : Fin 1 → Fin S1x768.rank)
  transposes_S384x320_S320x384_1_0 : S384x320.Transposes [1, 0] S320x384
  transposes_S384x128_S128x384_1_0 : S384x128.Transposes [1, 0] S128x384
  bcast_S384_S1x384_1 : S384.BroadcastsInDim S1x384 (![1] : Fin 1 → Fin S1x384.rank)
  transposes_S8x128_S128x8_1_0 : S8x128.Transposes [1, 0] S128x8
  bcast_S8_S1x8_1 : S8.BroadcastsInDim S1x8 (![1] : Fin 1 → Fin S1x8.rank)
  reducesTo_S64x200_S64_d1 : S64x200.ReducesTo [1] S64
  bcast_S64_S64x1_0 : S64.BroadcastsInDim S64x1 (![0] : Fin 1 → Fin S64x1.rank)
  bcast_S_S64x1 : S_.BroadcastsInDim S64x1 (![] : Fin 0 → Fin S64x1.rank)
  bcast_S64x1_S64x200_0_1 : S64x1.BroadcastsInDim S64x200 (![0, 1] : Fin 2 → Fin S64x200.rank)
  transposes_S64x200_S200x64_1_0 : S64x200.Transposes [1, 0] S200x64
  inb_S1024x420_S1024x420_0_0 : ∀ a, (![0, 0] : Fin 2 → Nat) a + S1024x420.size a ≤ S1024x420.size a
  h_S1024x420 : 0 < S1024x420.numel
  slices_S1024x420_o0_0_S1024x200 : S1024x420.Slices ![0, 0] S1024x200
  slices_S1024x420_o0_200_S1024x128 : S1024x420.Slices ![0, 200] S1024x128
  slices_S1024x420_o0_356_S1024x64 : S1024x420.Slices ![0, 356] S1024x64
  inb_S1024x272_S1024x272_0_0 : ∀ a, (![0, 0] : Fin 2 → Nat) a + S1024x272.size a ≤ S1024x272.size a
  h_S1024x272 : 0 < S1024x272.numel
  slices_S1024x272_o0_0_S1024x256 : S1024x272.Slices ![0, 0] S1024x256
  slices_S1024x272_o0_256_S1024x16 : S1024x272.Slices ![0, 256] S1024x16
  concatenates_S1024x256_S1024x64_S1024x320_d1 : Shape.Concatenates [S1024x256, S1024x64] S1024x320 1
  inb_S320x384_S320x384_0_0 : ∀ a, (![0, 0] : Fin 2 → Nat) a + S320x384.size a ≤ S320x384.size a
  h_S320x384 : 0 < S320x384.numel
  shapeCasts_S320x384_S320x384 : S320x384.ShapeCasts S320x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S1024x384 : S1x384.Broadcasts S1024x384
  inb_S128x384_S128x384_0_0 : ∀ a, (![0, 0] : Fin 2 → Nat) a + S128x384.size a ≤ S128x384.size a
  h_S128x384 : 0 < S128x384.numel
  shapeCasts_S128x384_S128x384 : S128x384.ShapeCasts S128x384
  slices_S1024x384_o0_0_S1024x128 : S1024x384.Slices ![0, 0] S1024x128
  slices_S1024x384_o0_128_S1024x128 : S1024x384.Slices ![0, 128] S1024x128
  slices_S1024x384_o0_256_S1024x128 : S1024x384.Slices ![0, 256] S1024x128
  inb_S128x8_S128x8_0_0 : ∀ a, (![0, 0] : Fin 2 → Nat) a + S128x8.size a ≤ S128x8.size a
  h_S128x8 : 0 < S128x8.numel
  shapeCasts_S128x8_S128x8 : S128x8.ShapeCasts S128x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S1024x8 : S1x8.Broadcasts S1024x8
  slices_S1024x8_o0_0_S1024x4 : S1024x8.Slices ![0, 0] S1024x4
  slices_S1024x8_o0_4_S1024x4 : S1024x8.Slices ![0, 4] S1024x4
  inb_S1024x4_S1024x4_0_0 : ∀ a, (![0, 0] : Fin 2 → Nat) a + S1024x4.size a ≤ S1024x4.size a
  h_S1024x4 : 0 < S1024x4.numel
  concatenates_S1024x4_S1024x16_S1024x20_d1 : Shape.Concatenates [S1024x4, S1024x16] S1024x20 1
  inb_S20x768_S20x768_0_0 : ∀ a, (![0, 0] : Fin 2 → Nat) a + S20x768.size a ≤ S20x768.size a
  h_S20x768 : 0 < S20x768.numel
  shapeCasts_S20x768_S20x768 : S20x768.ShapeCasts S20x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1024x768 : S1x768.Broadcasts S1024x768
  inb_S200x768_S200x768_0_0 : ∀ a, (![0, 0] : Fin 2 → Nat) a + S200x768.size a ≤ S200x768.size a
  h_S200x768 : 0 < S200x768.numel
  shapeCasts_S200x768_S200x768 : S200x768.ShapeCasts S200x768
  slices_S1024x768_o0_0_S1024x200 : S1024x768.Slices ![0, 0] S1024x200
  slices_S1024x768_o0_256_S1024x200 : S1024x768.Slices ![0, 256] S1024x200
  slices_S1024x768_o0_512_S1024x200 : S1024x768.Slices ![0, 512] S1024x200
  inb_S200x64_S200x64_0_0 : ∀ a, (![0, 0] : Fin 2 → Nat) a + S200x64.size a ≤ S200x64.size a
  h_S200x64 : 0 < S200x64.numel
  shapeCasts_S200x64_S200x64 : S200x64.ShapeCasts S200x64
  inb_S1024x420_S1024x200_0_0 : ∀ a, (![0, 0] : Fin 2 → Nat) a + S1024x200.size a ≤ S1024x420.size a
  h_S1024x200 : 0 < S1024x200.numel
  inb_S1024x420_S1024x128_0_200 : ∀ a, (![0, 200] : Fin 2 → Nat) a + S1024x128.size a ≤ S1024x420.size a
  h_S1024x128 : 0 < S1024x128.numel
  inb_S1024x420_S1024x4_0_328 : ∀ a, (![0, 328] : Fin 2 → Nat) a + S1024x4.size a ≤ S1024x420.size a
  inb_S1024x420_S1024x4_0_332 : ∀ a, (![0, 332] : Fin 2 → Nat) a + S1024x4.size a ≤ S1024x420.size a
  inb_S1024x420_S1024x20_0_336 : ∀ a, (![0, 336] : Fin 2 → Nat) a + S1024x20.size a ≤ S1024x420.size a
  h_S1024x20 : 0 < S1024x20.numel
  inb_S1024x420_S1024x64_0_356 : ∀ a, (![0, 356] : Fin 2 → Nat) a + S1024x64.size a ≤ S1024x420.size a
  h_S1024x64 : 0 < S1024x64.numel
  dot_S1024x320_S320x384_S1024x384_1_0_0_1_n_n_wf : DotDims.WF S1024x320 S320x384 S1024x384 [1] [0] [0] [1] [] []
  dot_S1024x128_S128x384_S1024x384_1_0_0_1_n_n_wf : DotDims.WF S1024x128 S128x384 S1024x384 [1] [0] [0] [1] [] []
  dot_S1024x128_S128x8_S1024x8_1_0_0_1_n_n_wf : DotDims.WF S1024x128 S128x8 S1024x8 [1] [0] [0] [1] [] []
  dot_S1024x20_S20x768_S1024x768_1_0_0_1_n_n_wf : DotDims.WF S1024x20 S20x768 S1024x768 [1] [0] [0] [1] [] []
  dot_S1024x200_S200x768_S1024x768_1_0_0_1_n_n_wf : DotDims.WF S1024x200 S200x768 S1024x768 [1] [0] [0] [1] [] []
  dot_S1024x200_S200x64_S1024x64_1_0_0_1_n_n_wf : DotDims.WF S1024x200 S200x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x272.size a ≤ S65536x272.size a
  hwx0_0 : ∀ i : grid0.Coords, EltTy.bits .f32 = 32 ∨ (Rect.block (s := S65536x272) S1024x272.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x420.size a ≤ S65536x420.size a
  hwx0_1 : ∀ i : grid0.Coords, EltTy.bits .f32 = 32 ∨ (Rect.block (s := S65536x420) S1024x420.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x4.size a ≤ S65536x4.size a
  hwx0_2 : ∀ i : grid0.Coords, EltTy.bits .f32 = 32 ∨ (Rect.block (s := S65536x4) S1024x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S20x768.size a ≤ S20x768.size a
  hwx0_3 : ∀ i : grid0.Coords, EltTy.bits .bf16 = 32 ∨ (Rect.block (s := S20x768) S20x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S200x768.size a ≤ S200x768.size a
  hwx0_4 : ∀ i : grid0.Coords, EltTy.bits .bf16 = 32 ∨ (Rect.block (s := S200x768) S200x768.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x768.size a ≤ S1x768.size a
  hwx0_5 : ∀ i : grid0.Coords, EltTy.bits .f32 = 32 ∨ (Rect.block (s := S1x768) S1x768.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x768.size a ≤ S1x768.size a
  hwx0_6 : ∀ i : grid0.Coords, EltTy.bits .f32 = 32 ∨ (Rect.block (s := S1x768) S1x768.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S320x384.size a ≤ S320x384.size a
  hwx0_7 : ∀ i : grid0.Coords, EltTy.bits .bf16 = 32 ∨ (Rect.block (s := S320x384) S320x384.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x384.size a ≤ S128x384.size a
  hwx0_8 : ∀ i : grid0.Coords, EltTy.bits .bf16 = 32 ∨ (Rect.block (s := S128x384) S128x384.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x384.size a ≤ S1x384.size a
  hwx0_9 : ∀ i : grid0.Coords, EltTy.bits .f32 = 32 ∨ (Rect.block (s := S1x384) S1x384.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x384.size a ≤ S1x384.size a
  hwx0_10 : ∀ i : grid0.Coords, EltTy.bits .f32 = 32 ∨ (Rect.block (s := S1x384) S1x384.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x8.size a ≤ S128x8.size a
  hwx0_11 : ∀ i : grid0.Coords, EltTy.bits .bf16 = 32 ∨ (Rect.block (s := S128x8) S128x8.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x8.size a ≤ S1x8.size a
  hwx0_12 : ∀ i : grid0.Coords, EltTy.bits .f32 = 32 ∨ (Rect.block (s := S1x8) S1x8.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S200x64.size a ≤ S200x64.size a
  hwx0_13 : ∀ i : grid0.Coords, EltTy.bits .bf16 = 32 ∨ (Rect.block (s := S200x64) S200x64.size (cc0_transform_13 i) (hinb0_13 i)).WholeWords (EltTy.packing .bf16)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1024x420.size a ≤ S65536x420.size a
  hwx0_14 : ∀ i : grid0.Coords, EltTy.bits .f32 = 32 ∨ (Rect.block (s := S65536x420) S1024x420.size (cc0_transform_14 i) (hinb0_14 i)).WholeWords (EltTy.packing .f32)

variable [Facts₀]

def dot_S1024x320_S320x384_S1024x384_1_0_0_1_n_n : DotDims S1024x320 S320x384 S1024x384 where
  lhsContracting := [1]
  rhsContracting := [0]
  lhsNonContracting := [0]
  rhsNonContracting := [1]
  lhsBatch := []
  rhsBatch := []
  wf := dot_S1024x320_S320x384_S1024x384_1_0_0_1_n_n_wf
def dot_S1024x128_S128x384_S1024x384_1_0_0_1_n_n : DotDims S1024x128 S128x384 S1024x384 where
  lhsContracting := [1]
  rhsContracting := [0]
  lhsNonContracting := [0]
  rhsNonContracting := [1]
  lhsBatch := []
  rhsBatch := []
  wf := dot_S1024x128_S128x384_S1024x384_1_0_0_1_n_n_wf
def dot_S1024x128_S128x8_S1024x8_1_0_0_1_n_n : DotDims S1024x128 S128x8 S1024x8 where
  lhsContracting := [1]
  rhsContracting := [0]
  lhsNonContracting := [0]
  rhsNonContracting := [1]
  lhsBatch := []
  rhsBatch := []
  wf := dot_S1024x128_S128x8_S1024x8_1_0_0_1_n_n_wf
def dot_S1024x20_S20x768_S1024x768_1_0_0_1_n_n : DotDims S1024x20 S20x768 S1024x768 where
  lhsContracting := [1]
  rhsContracting := [0]
  lhsNonContracting := [0]
  rhsNonContracting := [1]
  lhsBatch := []
  rhsBatch := []
  wf := dot_S1024x20_S20x768_S1024x768_1_0_0_1_n_n_wf
def dot_S1024x200_S200x768_S1024x768_1_0_0_1_n_n : DotDims S1024x200 S200x768 S1024x768 where
  lhsContracting := [1]
  rhsContracting := [0]
  lhsNonContracting := [0]
  rhsNonContracting := [1]
  lhsBatch := []
  rhsBatch := []
  wf := dot_S1024x200_S200x768_S1024x768_1_0_0_1_n_n_wf
def dot_S1024x200_S200x64_S1024x64_1_0_0_1_n_n : DotDims S1024x200 S200x64 S1024x64 where
  lhsContracting := [1]
  rhsContracting := [0]
  lhsNonContracting := [0]
  rhsNonContracting := [1]
  lhsBatch := []
  rhsBatch := []
  wf := dot_S1024x200_S200x64_S1024x64_1_0_0_1_n_n_wf

abbrev win0_0 : Pipeline.Window sig grid0 :=
  Pipeline.Window.ofSpec (Memref.whole main_arg0) S1024x272.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x420.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S20x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S200x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S1x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v33) S1x768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v35) S320x384.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v37) S128x384.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v38) S1x384.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v39) S1x384.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v41) S128x8.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v42) S1x8.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v52) S200x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v53) S1024x420.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S65536x272 : Shape := ⟨2, ![65536, 272]⟩
abbrev S65536x420 : Shape := ⟨2, ![65536, 420]⟩
abbrev S65536x4 : Shape := ⟨2, ![65536, 4]⟩
abbrev S600x20 : Shape := ⟨2, ![600, 20]⟩
abbrev S600x200 : Shape := ⟨2, ![600, 200]⟩
abbrev S600 : Shape := ⟨1, ![600]⟩
abbrev S384x320 : Shape := ⟨2, ![384, 320]⟩
abbrev S384x128 : Shape := ⟨2, ![384, 128]⟩
abbrev S384 : Shape := ⟨1, ![384]⟩
abbrev S8x128 : Shape := ⟨2, ![8, 128]⟩
abbrev S8 : Shape := ⟨1, ![8]⟩
abbrev S64x200 : Shape := ⟨2, ![64, 200]⟩
abbrev S65536x200 : Shape := ⟨2, ![65536, 200]⟩
abbrev S65536x128 : Shape := ⟨2, ![65536, 128]⟩
abbrev S65536x64 : Shape := ⟨2, ![65536, 64]⟩
abbrev S65536x256 : Shape := ⟨2, ![65536, 256]⟩
abbrev S65536x16 : Shape := ⟨2, ![65536, 16]⟩
abbrev S65536x320 : Shape := ⟨2, ![65536, 320]⟩
abbrev S320x384 : Shape := ⟨2, ![320, 384]⟩
abbrev S65536x384 : Shape := ⟨2, ![65536, 384]⟩
abbrev S1x384 : Shape := ⟨2, ![1, 384]⟩
abbrev S128x384 : Shape := ⟨2, ![128, 384]⟩
abbrev S_ : Shape := ⟨0, ![]⟩
abbrev S128x8 : Shape := ⟨2, ![128, 8]⟩
abbrev S65536x8 : Shape := ⟨2, ![65536, 8]⟩
abbrev S1x8 : Shape := ⟨2, ![1, 8]⟩
abbrev S65536x20 : Shape := ⟨2, ![65536, 20]⟩
abbrev S20x600 : Shape := ⟨2, ![20, 600]⟩
abbrev S65536x600 : Shape := ⟨2, ![65536, 600]⟩
abbrev S1x600 : Shape := ⟨2, ![1, 600]⟩
abbrev S200x600 : Shape := ⟨2, ![200, 600]⟩
abbrev S64 : Shape := ⟨1, ![64]⟩
abbrev S64x1 : Shape := ⟨2, ![64, 1]⟩
abbrev S200x64 : Shape := ⟨2, ![200, 64]⟩

abbrev nBuf : Space → Nat
  | .hbm => 149
  | .vmem => 0
  | .smem => 0
  | _ => 0

abbrev hbmTy0_0 (i : Nat) : BufTy := match i % 128 with
  | 0 => ⟨S65536x272, .f32⟩
  | 1 => ⟨S65536x420, .f32⟩
  | 2 => ⟨S65536x4, .f32⟩
  | 3 => ⟨S600x20, .f32⟩
  | 4 => ⟨S600x200, .f32⟩
  | 5 => ⟨S600, .f32⟩
  | 6 => ⟨S600, .f32⟩
  | 7 => ⟨S384x320, .f32⟩
  | 8 => ⟨S384x128, .f32⟩
  | 9 => ⟨S384, .f32⟩
  | 10 => ⟨S384, .f32⟩
  | 11 => ⟨S8x128, .f32⟩
  | 12 => ⟨S8, .f32⟩
  | 13 => ⟨S64x200, .f32⟩
  | 14 => ⟨S65536x200, .f32⟩
  | 15 => ⟨S65536x128, .f32⟩
  | 16 => ⟨S65536x64, .f32⟩
  | 17 => ⟨S65536x256, .f32⟩
  | 18 => ⟨S65536x16, .f32⟩
  | 19 => ⟨S65536x320, .f32⟩
  | 20 => ⟨S320x384, .f32⟩
  | 21 => ⟨S65536x384, .f32⟩
  | 22 => ⟨S1x384, .f32⟩
  | 23 => ⟨S65536x384, .f32⟩
  | 24 => ⟨S65536x384, .f32⟩
  | 25 => ⟨S128x384, .f32⟩
  | 26 => ⟨S65536x384, .f32⟩
  | 27 => ⟨S1x384, .f32⟩
  | 28 => ⟨S65536x384, .f32⟩
  | 29 => ⟨S65536x384, .f32⟩
  | 30 => ⟨S65536x128, .f32⟩
  | 31 => ⟨S65536x128, .f32⟩
  | 32 => ⟨S65536x128, .f32⟩
  | 33 => ⟨S65536x128, .f32⟩
  | 34 => ⟨S65536x128, .f32⟩
  | 35 => ⟨S65536x128, .f32⟩
  | 36 => ⟨S65536x128, .f32⟩
  | 37 => ⟨S65536x128, .f32⟩
  | 38 => ⟨S65536x128, .f32⟩
  | 39 => ⟨S_, .f32⟩
  | 40 => ⟨S65536x128, .f32⟩
  | 41 => ⟨S65536x128, .f32⟩
  | 42 => ⟨S_, .f32⟩
  | 43 => ⟨S65536x128, .f32⟩
  | 44 => ⟨S65536x128, .f32⟩
  | 45 => ⟨S65536x128, .f32⟩
  | 46 => ⟨S65536x128, .f32⟩
  | 47 => ⟨S65536x128, .f32⟩
  | 48 => ⟨S_, .f32⟩
  | 49 => ⟨S65536x128, .f32⟩
  | 50 => ⟨S65536x128, .f32⟩
  | 51 => ⟨S_, .f32⟩
  | 52 => ⟨S65536x128, .f32⟩
  | 53 => ⟨S65536x128, .f32⟩
  | 54 => ⟨S65536x128, .f32⟩
  | 55 => ⟨S65536x128, .f32⟩
  | 56 => ⟨S65536x128, .f32⟩
  | 57 => ⟨S_, .f32⟩
  | 58 => ⟨S65536x128, .f32⟩
  | 59 => ⟨S65536x128, .f32⟩
  | 60 => ⟨S65536x128, .f32⟩
  | 61 => ⟨S65536x128, .f32⟩
  | 62 => ⟨S65536x128, .f32⟩
  | 63 => ⟨S_, .f32⟩
  | 64 => ⟨S_, .f32⟩
  | 65 => ⟨S_, .f32⟩
  | 66 => ⟨S65536x128, .f32⟩
  | 67 => ⟨S65536x128, .f32⟩
  | 68 => ⟨S_, .f32⟩
  | 69 => ⟨S65536x128, .f32⟩
  | 70 => ⟨S65536x128, .f32⟩
  | 71 => ⟨S128x8, .f32⟩
  | 72 => ⟨S65536x8, .f32⟩
  | 73 => ⟨S1x8, .f32⟩
  | 74 => ⟨S65536x8, .f32⟩
  | 75 => ⟨S65536x8, .f32⟩
  | 76 => ⟨S65536x4, .f32⟩
  | 77 => ⟨S65536x4, .f32⟩
  | 78 => ⟨S_, .f32⟩
  | 79 => ⟨S65536x4, .f32⟩
  | 80 => ⟨S65536x4, .f32⟩
  | 81 => ⟨S65536x4, .f32⟩
  | 82 => ⟨S65536x4, .f32⟩
  | 83 => ⟨S65536x4, .f32⟩
  | 84 => ⟨S65536x20, .f32⟩
  | 85 => ⟨S20x600, .f32⟩
  | 86 => ⟨S65536x600, .f32⟩
  | 87 => ⟨S1x600, .f32⟩
  | 88 => ⟨S65536x600, .f32⟩
  | 89 => ⟨S65536x600, .f32⟩
  | 90 => ⟨S200x600, .f32⟩
  | 91 => ⟨S65536x600, .f32⟩
  | 92 => ⟨S1x600, .f32⟩
  | 93 => ⟨S65536x600, .f32⟩
  | 94 => ⟨S65536x600, .f32⟩
  | 95 => ⟨S65536x200, .f32⟩
  | 96 => ⟨S65536x200, .f32⟩
  | 97 => ⟨S65536x200, .f32⟩
  | 98 => ⟨S65536x200, .f32⟩
  | 99 => ⟨S65536x200, .f32⟩
  | 100 => ⟨S65536x200, .f32⟩
  | 101 => ⟨S65536x200, .f32⟩
  | 102 => ⟨S65536x200, .f32⟩
  | 103 => ⟨S65536x200, .f32⟩
  | 104 => ⟨S_, .f32⟩
  | 105 => ⟨S65536x200, .f32⟩
  | 106 => ⟨S65536x200, .f32⟩
  | 107 => ⟨S_, .f32⟩
  | 108 => ⟨S65536x200, .f32⟩
  | 109 => ⟨S65536x200, .f32⟩
  | 110 => ⟨S65536x200, .f32⟩
  | 111 => ⟨S65536x200, .f32⟩
  | 112 => ⟨S65536x200, .f32⟩
  | 113 => ⟨S_, .f32⟩
  | 114 => ⟨S65536x200, .f32⟩
  | 115 => ⟨S65536x200, .f32⟩
  | 116 => ⟨S_, .f32⟩
  | 117 => ⟨S65536x200, .f32⟩
  | 118 => ⟨S65536x200, .f32⟩
  | 119 => ⟨S65536x200, .f32⟩
  | 120 => ⟨S65536x200, .f32⟩
  | 121 => ⟨S65536x200, .f32⟩
  | 122 => ⟨S_, .f32⟩
  | 123 => ⟨S65536x200, .f32⟩
  | 124 => ⟨S65536x200, .f32⟩
  | 125 => ⟨S65536x200, .f32⟩
  | 126 => ⟨S65536x200, .f32⟩
  | 127 => ⟨S65536x200, .f32⟩
  | _ => ⟨S65536x272, .f32⟩

abbrev hbmTy0_1 (i : Nat) : BufTy := match i % 128 with
  | 0 => ⟨S_, .f32⟩
  | 1 => ⟨S_, .f32⟩
  | 2 => ⟨S_, .f32⟩
  | 3 => ⟨S65536x200, .f32⟩
  | 4 => ⟨S65536x200, .f32⟩
  | 5 => ⟨S_, .f32⟩
  | 6 => ⟨S65536x200, .f32⟩
  | 7 => ⟨S65536x200, .f32⟩
  | 8 => ⟨S64x200, .f32⟩
  | 9 => ⟨S_, .f32⟩
  | 10 => ⟨S64, .f32⟩
  | 11 => ⟨S64x1, .f32⟩
  | 12 => ⟨S64x1, .f32⟩
  | 13 => ⟨S_, .f32⟩
  | 14 => ⟨S64x1, .f32⟩
  | 15 => ⟨S64x1, .f32⟩
  | 16 => ⟨S64x200, .f32⟩
  | 17 => ⟨S64x200, .f32⟩
  | 18 => ⟨S200x64, .f32⟩
  | 19 => ⟨S65536x64, .f32⟩
  | 20 => ⟨S65536x420, .f32⟩
  | _ => ⟨S65536x272, .f32⟩

abbrev hbmTy (i : Nat) : BufTy := match i / 128 with
  | 0 => hbmTy0_0 i
  | 1 => hbmTy0_1 i
  | _ => ⟨S65536x272, .f32⟩

abbrev bufTy : (tb : Table) → Fin (tcTables nBuf tb) → BufTy
  | .hbm, ⟨i, _⟩ => hbmTy i
  | _, _ => ⟨S65536x272, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst : Ref sig .tc := ⟨.hbm, 39, rfl⟩
abbrev main_v25 : Ref sig .tc := ⟨.hbm, 40, rfl⟩
abbrev main_v26 : Ref sig .tc := ⟨.hbm, 41, rfl⟩
abbrev main_cst_0 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_1 : Ref sig .tc := ⟨.hbm, 48, rfl⟩
abbrev main_v32 : Ref sig .tc := ⟨.hbm, 49, rfl⟩
abbrev main_v33 : Ref sig .tc := ⟨.hbm, 50, rfl⟩
abbrev main_cst_2 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_3 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_4 : Ref sig .tc := ⟨.hbm, 63, rfl⟩
abbrev main_cst_5 : Ref sig .tc := ⟨.hbm, 64, rfl⟩
abbrev main_call0_v0 : Ref sig .tc := ⟨.hbm, 65, rfl⟩
abbrev main_call0_v1 : Ref sig .tc := ⟨.hbm, 66, rfl⟩
abbrev main_call0_v2 : Ref sig .tc := ⟨.hbm, 67, rfl⟩
abbrev main_call0_v3 : Ref sig .tc := ⟨.hbm, 68, rfl⟩
abbrev main_call0_v4 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_6 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_7 : Ref sig .tc := ⟨.hbm, 104, rfl⟩
abbrev main_v77 : Ref sig .tc := ⟨.hbm, 105, rfl⟩
abbrev main_v78 : Ref sig .tc := ⟨.hbm, 106, rfl⟩
abbrev main_cst_8 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_9 : Ref sig .tc := ⟨.hbm, 113, rfl⟩
abbrev main_v84 : Ref sig .tc := ⟨.hbm, 114, rfl⟩
abbrev main_v85 : Ref sig .tc := ⟨.hbm, 115, rfl⟩
abbrev main_cst_10 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_cst_11 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_cst_12 : Ref sig .tc := ⟨.hbm, 128, rfl⟩
abbrev main_cst_13 : Ref sig .tc := ⟨.hbm, 129, rfl⟩
abbrev main_call1_v0 : Ref sig .tc := ⟨.hbm, 130, rfl⟩
abbrev main_call1_v1 : Ref sig .tc := ⟨.hbm, 131, rfl⟩
abbrev main_call1_v2 : Ref sig .tc := ⟨.hbm, 132, rfl⟩
abbrev main_call1_v3 : Ref sig .tc := ⟨.hbm, 133, rfl⟩
abbrev main_call1_v4 : Ref sig .tc := ⟨.hbm, 134, rfl⟩
abbrev main_v96 : Ref sig .tc := ⟨.hbm, 135, rfl⟩
abbrev main_call2_v0 : Ref sig .tc := ⟨.hbm, 136, rfl⟩
abbrev main_call2_cst : Ref sig .tc := ⟨.hbm, 137, rfl⟩
abbrev main_call2_v1 : Ref sig .tc := ⟨.hbm, 138, rfl⟩
abbrev main_call2_v2 : Ref sig .tc := ⟨.hbm, 139, rfl⟩
abbrev main_v97 : Ref sig .tc := ⟨.hbm, 140, rfl⟩
abbrev main_cst_14 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩

abbrev nD : Nat := 1
abbrev τ : Topo := Topo.v7x

variable {F : FTy → Type} [FloatOps F]

class Facts₀ : Prop where
  slices_S65536x420_S65536x200_0_0 : S65536x420.Slices ![0, 0] S65536x200
  slices_S65536x420_S65536x128_0_200 : S65536x420.Slices ![0, 200] S65536x128
  slices_S65536x420_S65536x64_0_356 : S65536x420.Slices ![0, 356] S65536x64
  slices_S65536x272_S65536x256_0_0 : S65536x272.Slices ![0, 0] S65536x256
  slices_S65536x272_S65536x16_0_256 : S65536x272.Slices ![0, 256] S65536x16
  concatenates_S65536x256_S65536x64_S65536x320_d1 : Shape.Concatenates [S65536x256, S65536x64] S65536x320 1
  transposes_S384x320_S320x384_1_0 : S384x320.Transposes [1, 0] S320x384
  bcast_S384_S1x384_1 : S384.BroadcastsInDim S1x384 (![1] : Fin 1 → Fin S1x384.rank)
  bcast_S1x384_S65536x384_0_1 : S1x384.BroadcastsInDim S65536x384 (![0, 1] : Fin 2 → Fin S65536x384.rank)
  transposes_S384x128_S128x384_1_0 : S384x128.Transposes [1, 0] S128x384
  slices_S65536x384_S65536x128_0_0 : S65536x384.Slices ![0, 0] S65536x128
  slices_S65536x384_S65536x128_0_128 : S65536x384.Slices ![0, 128] S65536x128
  slices_S65536x384_S65536x128_0_256 : S65536x384.Slices ![0, 256] S65536x128
  bcast_S_S65536x128 : S_.BroadcastsInDim S65536x128 (![] : Fin 0 → Fin S65536x128.rank)
  transposes_S8x128_S128x8_1_0 : S8x128.Transposes [1, 0] S128x8
  bcast_S8_S1x8_1 : S8.BroadcastsInDim S1x8 (![1] : Fin 1 → Fin S1x8.rank)
  bcast_S1x8_S65536x8_0_1 : S1x8.BroadcastsInDim S65536x8 (![0, 1] : Fin 2 → Fin S65536x8.rank)
  slices_S65536x8_S65536x4_0_0 : S65536x8.Slices ![0, 0] S65536x4
  slices_S65536x8_S65536x4_0_4 : S65536x8.Slices ![0, 4] S65536x4
  bcast_S_S65536x4 : S_.BroadcastsInDim S65536x4 (![] : Fin 0 → Fin S65536x4.rank)
  concatenates_S65536x4_S65536x16_S65536x20_d1 : Shape.Concatenates [S65536x4, S65536x16] S65536x20 1
  transposes_S600x20_S20x600_1_0 : S600x20.Transposes [1, 0] S20x600
  bcast_S600_S1x600_1 : S600.BroadcastsInDim S1x600 (![1] : Fin 1 → Fin S1x600.rank)
  bcast_S1x600_S65536x600_0_1 : S1x600.BroadcastsInDim S65536x600 (![0, 1] : Fin 2 → Fin S65536x600.rank)
  transposes_S600x200_S200x600_1_0 : S600x200.Transposes [1, 0] S200x600
  slices_S65536x600_S65536x200_0_0 : S65536x600.Slices ![0, 0] S65536x200
  slices_S65536x600_S65536x200_0_200 : S65536x600.Slices ![0, 200] S65536x200
  slices_S65536x600_S65536x200_0_400 : S65536x600.Slices ![0, 400] S65536x200
  bcast_S_S65536x200 : S_.BroadcastsInDim S65536x200 (![] : Fin 0 → Fin S65536x200.rank)
  reducesTo_S64x200_S64_d1 : S64x200.ReducesTo [1] S64
  h_S_ : 0 < S_.numel
  bcast_S64_S64x1_0 : S64.BroadcastsInDim S64x1 (![0] : Fin 1 → Fin S64x1.rank)
  bcast_S_S64x1 : S_.BroadcastsInDim S64x1 (![] : Fin 0 → Fin S64x1.rank)
  bcast_S64x1_S64x200_0_1 : S64x1.BroadcastsInDim S64x200 (![0, 1] : Fin 2 → Fin S64x200.rank)
  transposes_S64x200_S200x64_1_0 : S64x200.Transposes [1, 0] S200x64
  concatenates_S65536x200_S65536x128_S65536x4_S65536x4_S65536x20_S65536x64_S65536x420_d1 : Shape.Concatenates [S65536x200, S65536x128, S65536x4, S65536x4, S65536x20, S65536x64] S65536x420 1
  dot_S65536x320_S320x384_S65536x384_1_0_0_1_n_n_wf : DotDims.WF S65536x320 S320x384 S65536x384 [1] [0] [0] [1] [] []
  dot_S65536x128_S128x384_S65536x384_1_0_0_1_n_n_wf : DotDims.WF S65536x128 S128x384 S65536x384 [1] [0] [0] [1] [] []
  dot_S65536x128_S128x8_S65536x8_1_0_0_1_n_n_wf : DotDims.WF S65536x128 S128x8 S65536x8 [1] [0] [0] [1] [] []
  dot_S65536x20_S20x600_S65536x600_1_0_0_1_n_n_wf : DotDims.WF S65536x20 S20x600 S65536x600 [1] [0] [0] [1] [] []
  dot_S65536x200_S200x600_S65536x600_1_0_0_1_n_n_wf : DotDims.WF S65536x200 S200x600 S65536x600 [1] [0] [0] [1] [] []
  dot_S65536x200_S200x64_S65536x64_1_0_0_1_n_n_wf : DotDims.WF S65536x200 S200x64 S65536x64 [1] [0] [0] [1] [] []

variable [Facts₀]

def dot_S65536x320_S320x384_S65536x384_1_0_0_1_n_n : DotDims S65536x320 S320x384 S65536x384 where
  lhsContracting := [1]
  rhsContracting := [0]
  lhsNonContracting := [0]
  rhsNonContracting := [1]
  lhsBatch := []
  rhsBatch := []
  wf := dot_S65536x320_S320x384_S65536x384_1_0_0_1_n_n_wf
def dot_S65536x128_S128x384_S65536x384_1_0_0_1_n_n : DotDims S65536x128 S128x384 S65536x384 where
  lhsContracting := [1]
  rhsContracting := [0]
  lhsNonContracting := [0]
  rhsNonContracting := [1]
  lhsBatch := []
  rhsBatch := []
  wf := dot_S65536x128_S128x384_S65536x384_1_0_0_1_n_n_wf
def dot_S65536x128_S128x8_S65536x8_1_0_0_1_n_n : DotDims S65536x128 S128x8 S65536x8 where
  lhsContracting := [1]
  rhsContracting := [0]
  lhsNonContracting := [0]
  rhsNonContracting := [1]
  lhsBatch := []
  rhsBatch := []
  wf := dot_S65536x128_S128x8_S65536x8_1_0_0_1_n_n_wf
def dot_S65536x20_S20x600_S65536x600_1_0_0_1_n_n : DotDims S65536x20 S20x600 S65536x600 where
  lhsContracting := [1]
  rhsContracting := [0]
  lhsNonContracting := [0]
  rhsNonContracting := [1]
  lhsBatch := []
  rhsBatch := []
  wf := dot_S65536x20_S20x600_S65536x600_1_0_0_1_n_n_wf
def dot_S65536x200_S200x600_S65536x600_1_0_0_1_n_n : DotDims S65536x200 S200x600 S65536x600 where
  lhsContracting := [1]
  rhsContracting := [0]
  lhsNonContracting := [0]
  rhsNonContracting := [1]
  lhsBatch := []
  rhsBatch := []
  wf := dot_S65536x200_S200x600_S65536x600_1_0_0_1_n_n_wf
def dot_S65536x200_S200x64_S65536x64_1_0_0_1_n_n : DotDims S65536x200 S200x64 S65536x64 where
  lhsContracting := [1]
  rhsContracting := [0]
  lhsNonContracting := [0]
  rhsNonContracting := [1]
  lhsBatch := []
  rhsBatch := []
  wf := dot_S65536x200_S200x64_S65536x64_1_0_0_1_n_n_wf

class Facts : Prop extends Facts₀ where

variable [Facts]
-- ==== Proof.CellFrameK.lean ====
/-
  The frame of the decoder-cell program, at any float instance.

  @main is a prologue of host operations (the weights transposed, cut into their three gates, each gate padded with
  zero columns from 200 to 256 and the three joined again, the biases likewise, the factor matrix's rows divided by
  their norms), then ONE launch over 64 grid points. At grid point t the body is handed rows 1024·t … 1024·t + 1023
  of x, h0 and eps and the eleven prepared weight arrays whole, and fills its 1024 × 420 output block by six stores
  into the column bands [0,200), [200,328), [328,332), [332,336), [336,356), [356,420), which together cover it.

  Here: what the launch finds in every buffer (the prologue's fold), that the prologue writes none of the fourteen
  arguments, what a covering list of six stores leaves in the output block as a function of the fourteen input
  blocks, the body's triple, the per-point proof data (inputs keep their blocks; the output block is that function
  of them), the run of @main, and from it the frame: the program terminates, faults nowhere and leaves its
  arguments as they were.
-/
import proofs.«141967_j3573412790665_2_alg».proof.Proof.Gen.Kernel.Launch
import proofs.«141967_j3573412790665_2_alg».proof.Proof.Gen.Kernel.Points
import proofs.«141967_j3573412790665_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Cell

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The prologue -/

/-- The host operations before the launch, stretch by stretch, in program order. -/
abbrev prologue : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24]

/-- What core `c`'s buffers hold when the launch begins: the prologue folded over the initial memory. -/
abbrev V (c : Dev nD) (b : Ref sig .tc) : Buf (Elt F) ((c : Thread nD τ).loc b) :=
  StableHlo.after (List.flatten (prologue (F := F))) (fun b => m (c, b)) b

theorem prologue_sub : (prologue (F := F)).Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub⟩

theorem prologue_fresh : (prologue (F := F)).Forall fun ops => ops.Forall fun op => op.fresh = ∅ := by
  simp only [List.Forall]; repeat' constructor

/-- @main is the prologue followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main prologue prologue_sub prologue_fresh (fun c => (main_chain c).trans rfl)

/-- Every prologue operation writes its own result buffer, and none of those is an argument. -/
local macro "kept_arg" : tactic => `(tactic| (
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append,
    List.nil_append, List.Forall, StableHlo.nullary_writes, StableHlo.unary_writes, StableHlo.binary_writes,
    StableHlo.nary_writes, Finset.mem_singleton]
  repeat' apply And.intro
  all_goals exact StableHlo.devRef_ne_of_ne (by decide)))

theorem V_arg0 (c : Dev nD) : V m c main_arg0 = m ((c : Thread nD τ).loc main_arg0) :=
  StableHlo.after_of_forall_not_mem (b := Proc.devRef .tc main_arg0) _ _ (List.forall_iff_forall_mem.mp (by kept_arg))
theorem V_arg1 (c : Dev nD) : V m c main_arg1 = m ((c : Thread nD τ).loc main_arg1) :=
  StableHlo.after_of_forall_not_mem (b := Proc.devRef .tc main_arg1) _ _ (List.forall_iff_forall_mem.mp (by kept_arg))
theorem V_arg2 (c : Dev nD) : V m c main_arg2 = m ((c : Thread nD τ).loc main_arg2) :=
  StableHlo.after_of_forall_not_mem (b := Proc.devRef .tc main_arg2) _ _ (List.forall_iff_forall_mem.mp (by kept_arg))
theorem V_arg3 (c : Dev nD) : V m c main_arg3 = m ((c : Thread nD τ).loc main_arg3) :=
  StableHlo.after_of_forall_not_mem (b := Proc.devRef .tc main_arg3) _ _ (List.forall_iff_forall_mem.mp (by kept_arg))
theorem V_arg4 (c : Dev nD) : V m c main_arg4 = m ((c : Thread nD τ).loc main_arg4) :=
  StableHlo.after_of_forall_not_mem (b := Proc.devRef .tc main_arg4) _ _ (List.forall_iff_forall_mem.mp (by kept_arg))
theorem V_arg5 (c : Dev nD) : V m c main_arg5 = m ((c : Thread nD τ).loc main_arg5) :=
  StableHlo.after_of_forall_not_mem (b := Proc.devRef .tc main_arg5) _ _ (List.forall_iff_forall_mem.mp (by kept_arg))
theorem V_arg6 (c : Dev nD) : V m c main_arg6 = m ((c : Thread nD τ).loc main_arg6) :=
  StableHlo.after_of_forall_not_mem (b := Proc.devRef .tc main_arg6) _ _ (List.forall_iff_forall_mem.mp (by kept_arg))
theorem V_arg7 (c : Dev nD) : V m c main_arg7 = m ((c : Thread nD τ).loc main_arg7) :=
  StableHlo.after_of_forall_not_mem (b := Proc.devRef .tc main_arg7) _ _ (List.forall_iff_forall_mem.mp (by kept_arg))
theorem V_arg8 (c : Dev nD) : V m c main_arg8 = m ((c : Thread nD τ).loc main_arg8) :=
  StableHlo.after_of_forall_not_mem (b := Proc.devRef .tc main_arg8) _ _ (List.forall_iff_forall_mem.mp (by kept_arg))
theorem V_arg9 (c : Dev nD) : V m c main_arg9 = m ((c : Thread nD τ).loc main_arg9) :=
  StableHlo.after_of_forall_not_mem (b := Proc.devRef .tc main_arg9) _ _ (List.forall_iff_forall_mem.mp (by kept_arg))
theorem V_arg10 (c : Dev nD) : V m c main_arg10 = m ((c : Thread nD τ).loc main_arg10) :=
  StableHlo.after_of_forall_not_mem (b := Proc.devRef .tc main_arg10) _ _ (List.forall_iff_forall_mem.mp (by kept_arg))
theorem V_arg11 (c : Dev nD) : V m c main_arg11 = m ((c : Thread nD τ).loc main_arg11) :=
  StableHlo.after_of_forall_not_mem (b := Proc.devRef .tc main_arg11) _ _ (List.forall_iff_forall_mem.mp (by kept_arg))
theorem V_arg12 (c : Dev nD) : V m c main_arg12 = m ((c : Thread nD τ).loc main_arg12) :=
  StableHlo.after_of_forall_not_mem (b := Proc.devRef .tc main_arg12) _ _ (List.forall_iff_forall_mem.mp (by kept_arg))
theorem V_arg13 (c : Dev nD) : V m c main_arg13 = m ((c : Thread nD τ).loc main_arg13) :=
  StableHlo.after_of_forall_not_mem (b := Proc.devRef .tc main_arg13) _ _ (List.forall_iff_forall_mem.mp (by kept_arg))

/-! ## The blocks -/

/-- Window `w`'s block at grid point `t`, read off the array the launch finds. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's buffer holds its block at every point, whether the pipeline fetched it there or the block index stood still. -/
theorem found0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's buffer holds its block at every point, whether the pipeline fetched it there or the block index stood still. -/
theorem found1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's buffer holds its block at every point, whether the pipeline fetched it there or the block index stood still. -/
theorem found2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's buffer holds its block at every point, whether the pipeline fetched it there or the block index stood still. -/
theorem found3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's buffer holds its block at every point, whether the pipeline fetched it there or the block index stood still. -/
theorem found4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's buffer holds its block at every point, whether the pipeline fetched it there or the block index stood still. -/
theorem found5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's buffer holds its block at every point, whether the pipeline fetched it there or the block index stood still. -/
theorem found6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's buffer holds its block at every point, whether the pipeline fetched it there or the block index stood still. -/
theorem found7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's buffer holds its block at every point, whether the pipeline fetched it there or the block index stood still. -/
theorem found8 {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's buffer holds its block at every point, whether the pipeline fetched it there or the block index stood still. -/
theorem found9 {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's buffer holds its block at every point, whether the pipeline fetched it there or the block index stood still. -/
theorem found10 {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's buffer holds its block at every point, whether the pipeline fetched it there or the block index stood still. -/
theorem found11 {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's buffer holds its block at every point, whether the pipeline fetched it there or the block index stood still. -/
theorem found12 {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's buffer holds its block at every point, whether the pipeline fetched it there or the block index stood still. -/
theorem found13 {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

/-! ## The frame from a run -/

/-- A run that ends with every staged array at what the proof data computes and every other buffer as the launch
    found it leaves the fourteen arguments unchanged: x, h0 and eps are staged inputs (an input's array is never
    written), the weights are staged by no window, and the prologue wrote none of them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).1 0).trans (((dats 0 c).arrAt_in 0 rfl _).trans ((hA c 0).trans (V_arg0 m c))),
      ((h c).1 1).trans (((dats 0 c).arrAt_in 1 rfl _).trans ((hA c 1).trans (V_arg1 m c))),
      ((h c).1 2).trans (((dats 0 c).arrAt_in 2 rfl _).trans ((hA c 2).trans (V_arg2 m c))),
      ((h c).2 main_arg3 (Pipeline.mem_restRefs_of main_arg3 (by decide) (by decide))).trans (V_arg3 m c),
      ((h c).2 main_arg4 (Pipeline.mem_restRefs_of main_arg4 (by decide) (by decide))).trans (V_arg4 m c),
      ((h c).2 main_arg5 (Pipeline.mem_restRefs_of main_arg5 (by decide) (by decide))).trans (V_arg5 m c),
      ((h c).2 main_arg6 (Pipeline.mem_restRefs_of main_arg6 (by decide) (by decide))).trans (V_arg6 m c),
      ((h c).2 main_arg7 (Pipeline.mem_restRefs_of main_arg7 (by decide) (by decide))).trans (V_arg7 m c),
      ((h c).2 main_arg8 (Pipeline.mem_restRefs_of main_arg8 (by decide) (by decide))).trans (V_arg8 m c),
      ((h c).2 main_arg9 (Pipeline.mem_restRefs_of main_arg9 (by decide) (by decide))).trans (V_arg9 m c),
      ((h c).2 main_arg10 (Pipeline.mem_restRefs_of main_arg10 (by decide) (by decide))).trans (V_arg10 m c),
      ((h c).2 main_arg11 (Pipeline.mem_restRefs_of main_arg11 (by decide) (by decide))).trans (V_arg11 m c),
      ((h c).2 main_arg12 (Pipeline.mem_restRefs_of main_arg12 (by decide) (by decide))).trans (V_arg12 m c),
      ((h c).2 main_arg13 (Pipeline.mem_restRefs_of main_arg13 (by decide) (by decide))).trans (V_arg13 m c)⟩) h

/-! ## The body's rectangles -/

abbrev whole0 : Rect S1024x272 := Rect.unit (s := S1024x272) ![0, 0] S1024x272.size inb_S1024x272_S1024x272_0_0
abbrev whole1 : Rect S1024x420 := Rect.unit (s := S1024x420) ![0, 0] S1024x420.size inb_S1024x420_S1024x420_0_0
abbrev whole2 : Rect S1024x4 := Rect.unit (s := S1024x4) ![0, 0] S1024x4.size inb_S1024x4_S1024x4_0_0
abbrev whole3 : Rect S20x768 := Rect.unit (s := S20x768) ![0, 0] S20x768.size inb_S20x768_S20x768_0_0
abbrev whole4 : Rect S200x768 := Rect.unit (s := S200x768) ![0, 0] S200x768.size inb_S200x768_S200x768_0_0
abbrev whole5 : Rect S1x768 := Rect.unit (s := S1x768) ![0, 0] S1x768.size inb_S1x768_S1x768_0_0
abbrev whole6 : Rect S1x768 := Rect.unit (s := S1x768) ![0, 0] S1x768.size inb_S1x768_S1x768_0_0
abbrev whole7 : Rect S320x384 := Rect.unit (s := S320x384) ![0, 0] S320x384.size inb_S320x384_S320x384_0_0
abbrev whole8 : Rect S128x384 := Rect.unit (s := S128x384) ![0, 0] S128x384.size inb_S128x384_S128x384_0_0
abbrev whole9 : Rect S1x384 := Rect.unit (s := S1x384) ![0, 0] S1x384.size inb_S1x384_S1x384_0_0
abbrev whole10 : Rect S1x384 := Rect.unit (s := S1x384) ![0, 0] S1x384.size inb_S1x384_S1x384_0_0
abbrev whole11 : Rect S128x8 := Rect.unit (s := S128x8) ![0, 0] S128x8.size inb_S128x8_S128x8_0_0
abbrev whole12 : Rect S1x8 := Rect.unit (s := S1x8) ![0, 0] S1x8.size inb_S1x8_S1x8_0_0
abbrev whole13 : Rect S200x64 := Rect.unit (s := S200x64) ![0, 0] S200x64.size inb_S200x64_S200x64_0_0
abbrev band0 : Rect S1024x420 := Rect.unit (s := S1024x420) ![0, 0] S1024x200.size inb_S1024x420_S1024x200_0_0
abbrev band200 : Rect S1024x420 := Rect.unit (s := S1024x420) ![0, 200] S1024x128.size inb_S1024x420_S1024x128_0_200
abbrev band328 : Rect S1024x420 := Rect.unit (s := S1024x420) ![0, 328] S1024x4.size inb_S1024x420_S1024x4_0_328
abbrev band332 : Rect S1024x420 := Rect.unit (s := S1024x420) ![0, 332] S1024x4.size inb_S1024x420_S1024x4_0_332
abbrev band336 : Rect S1024x420 := Rect.unit (s := S1024x420) ![0, 336] S1024x20.size inb_S1024x420_S1024x20_0_336
abbrev band356 : Rect S1024x420 := Rect.unit (s := S1024x420) ![0, 356] S1024x64.size inb_S1024x420_S1024x64_0_356

/-! ## What the body leaves in the output block -/

/-- The clip bounds −5 and 5 the body names once and uses for both cells. -/
abbrev lo : F .f32 := Scalar.ofBits .f32 0xC0A00000#32
abbrev hi : F .f32 := Scalar.ofBits .f32 0x40A00000#32

/-- The controller's state before clipping, of the h0, x and controller-weight blocks. -/
abbrev conRaw (x0 : Vec F S1024x272 .f32) (x1 : Vec F S1024x420 .f32) (x7 : Vec F S320x384 .bf16) (x8 : Vec F S128x384 .bf16)
    (x9 x10 : Vec F S1x384 .f32) : FVec F S1024x128 .f32 :=
  k0_pay5 (View.ld x1 whole1) (View.ld x0 whole0) (View.ld x7 whole7) (View.ld x9 whole9) (View.ld x8 whole8) (View.ld x10 whole10)

/-- The six stored values, each as the skeleton's payload of the loaded blocks, and the block they leave: the
    output buffer after six stores into column bands, last store first. -/
def cellBlock (x0 : Vec F S1024x272 .f32) (x1 : Vec F S1024x420 .f32) (x2 : Vec F S1024x4 .f32) (x3 : Vec F S20x768 .bf16)
    (x4 : Vec F S200x768 .bf16) (x5 x6 : Vec F S1x768 .f32) (x7 : Vec F S320x384 .bf16) (x8 : Vec F S128x384 .bf16)
    (x9 x10 : Vec F S1x384 .f32) (x11 : Vec F S128x8 .bf16) (x12 : Vec F S1x8 .f32) (x13 : Vec F S200x64 .bf16) : Vec F S1024x420 .f32 :=
  let v1 := k0_pay3 (View.ld x1 whole1)
  let v6 := k0_pay4 (View.ld x0 whole0)
  let v41 := conRaw x0 x1 x7 x8 x9 x10
  let v47 := View.ld x11 whole11
  let v50 := View.ld x12 whole12
  let v59 := View.ld x2 whole2
  let v65 := View.ld x3 whole3
  let v68 := View.ld x5 whole5
  let v72 := View.ld x4 whole4
  let v75 := View.ld x6 whole6
  let v78 := k0_pay12 v1 v72 v75
  let v79 := k0_pay13 v6 v41 lo hi v47 v50 v59 v65 v68
  let v80 := k0_pay14 v6 v41 lo hi v47 v50 v59 v65 v68
  let v81 := k0_pay15 v6 v41 lo hi v47 v50 v59 v65 v68
  let v82 := k0_pay16 v1 v72 v75
  let v83 := k0_pay17 v1 v72 v75
  View.canon [⟨band356, k0_pay2 v1 v78 v79 v80 v81 v82 v83 (View.ld x13 whole13)⟩,
    ⟨band336, k0_pay10 v6 v41 lo hi v47 v50 v59⟩,
    ⟨band332, k0_pay9 v41 lo hi v47 v50⟩,
    ⟨band328, k0_pay8 v41 lo hi v47 v50⟩,
    ⟨band200, k0_pay6 v41 lo hi⟩,
    ⟨band0, k0_pay1 v1 v78 v79 v80 v81 v82 v83⟩]

/-- The six bands cover the block: cut into 1024 × 4 strips (every band's offset and width is a multiple of 4)
    they are the 105 strips of the block, each exactly once. -/
theorem bands_cover (p0 : Vec F S1024x64 .f32) (p1 : Vec F S1024x20 .f32) (p2 p3 : Vec F S1024x4 .f32)
    (p4 : Vec F S1024x128 .f32) (p5 : Vec F S1024x200 .f32) (y : S1024x420.Idx) :
    ∃ pc ∈ ([⟨band356, p0⟩, ⟨band336, p1⟩, ⟨band332, p2⟩, ⟨band328, p3⟩, ⟨band200, p4⟩, ⟨band0, p5⟩] : List (View.Piece (Elt F) S1024x420 .f32)), y ∈ pc.1.set :=
  View.cover_of_tiledBy [⟨band356, p0⟩, ⟨band336, p1⟩, ⟨band332, p2⟩, ⟨band328, p3⟩, ⟨band200, p4⟩, ⟨band0, p5⟩] ![1024, 4] (by sl_kernel_rfl) y

/-! ## The body's triple -/

set_option maxHeartbeats 4000000 in
/-- The body on whole staging buffers, the fourteen inputs at read contents and the output at anything, returns
    with the inputs as they were and the output at `cellBlock` of them. -/
theorem sound_kernel (c : Dev nD) (E : Set ℕ) (i : grid0.Coords)
    (arg1 : Memref sig .tc .vmem S1024x272 .f32) (harg1 : arg1.IsWhole) (arg2 : Memref sig .tc .vmem S1024x420 .f32) (harg2 : arg2.IsWhole) (arg3 : Memref sig .tc .vmem S1024x4 .f32) (harg3 : arg3.IsWhole) (arg4 : Memref sig .tc .vmem S20x768 .bf16) (harg4 : arg4.IsWhole) (arg5 : Memref sig .tc .vmem S200x768 .bf16) (harg5 : arg5.IsWhole) (arg6 : Memref sig .tc .vmem S1x768 .f32) (harg6 : arg6.IsWhole) (arg7 : Memref sig .tc .vmem S1x768 .f32) (harg7 : arg7.IsWhole) (arg8 : Memref sig .tc .vmem S320x384 .bf16) (harg8 : arg8.IsWhole) (arg9 : Memref sig .tc .vmem S128x384 .bf16) (harg9 : arg9.IsWhole) (arg10 : Memref sig .tc .vmem S1x384 .f32) (harg10 : arg10.IsWhole) (arg11 : Memref sig .tc .vmem S1x384 .f32) (harg11 : arg11.IsWhole) (arg12 : Memref sig .tc .vmem S128x8 .bf16) (harg12 : arg12.IsWhole) (arg13 : Memref sig .tc .vmem S1x8 .f32) (harg13 : arg13.IsWhole) (arg14 : Memref sig .tc .vmem S200x64 .bf16) (harg14 : arg14.IsWhole) (arg15 : Memref sig .tc .vmem S1024x420 .f32) (harg15 : arg15.IsWhole)
    (x0 : Vec F S1024x272 .f32) (x1 : Vec F S1024x420 .f32) (x2 : Vec F S1024x4 .f32) (x3 : Vec F S20x768 .bf16) (x4 : Vec F S200x768 .bf16) (x5 : Vec F S1x768 .f32) (x6 : Vec F S1x768 .f32) (x7 : Vec F S320x384 .bf16) (x8 : Vec F S128x384 .bf16) (x9 : Vec F S1x384 .f32) (x10 : Vec F S1x384 .f32) (x11 : Vec F S128x8 .bf16) (x12 : Vec F S1x8 .f32) (x13 : Vec F S200x64 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (cellBlock x0 x1 x2 x3 x4 x5 x6 x7 x8 x9 x10 x11 x12 x13)) -∗ K ⟨⟩))
      ⊢ wp frame (wpE (defs₀ (F := F)) Variants.none c none) E (cc0__decoder_cell_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__decoder_cell_kernel_eq_skeleton]; unfold cc0__decoder_cell_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  iexists _; isplitr
  swap; · iexact H14
  ipureintro
  exact View.read_writes_eq_canon _ _ _ (bands_cover _ _ _ _ _ _)

/-! ## The proof data -/

/-- Per core: the arrays as the launch finds them; after the body at point `t` every input buffer still at its
    block and the output buffer at `cellBlock` of the fourteen input blocks; the body keeps no scratch and owes
    no signal. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => cellBlock (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = cellBlock (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]

theorem before0 (c : Dev nD) (t : Fin cfg0.N) (d) : (dats m 0 c).before 0 t d = iblk m c 0 t :=
  found0 m (dats m 0 c) (A_eq m c 0) (after0 m c) t d
theorem before1 (c : Dev nD) (t : Fin cfg0.N) (d) : (dats m 0 c).before 1 t d = iblk m c 1 t :=
  found1 m (dats m 0 c) (A_eq m c 1) (after1 m c) t d
theorem before2 (c : Dev nD) (t : Fin cfg0.N) (d) : (dats m 0 c).before 2 t d = iblk m c 2 t :=
  found2 m (dats m 0 c) (A_eq m c 2) (after2 m c) t d
theorem before3 (c : Dev nD) (t : Fin cfg0.N) (d) : (dats m 0 c).before 3 t d = iblk m c 3 t :=
  found3 m (dats m 0 c) (A_eq m c 3) (after3 m c) t d
theorem before4 (c : Dev nD) (t : Fin cfg0.N) (d) : (dats m 0 c).before 4 t d = iblk m c 4 t :=
  found4 m (dats m 0 c) (A_eq m c 4) (after4 m c) t d
theorem before5 (c : Dev nD) (t : Fin cfg0.N) (d) : (dats m 0 c).before 5 t d = iblk m c 5 t :=
  found5 m (dats m 0 c) (A_eq m c 5) (after5 m c) t d
theorem before6 (c : Dev nD) (t : Fin cfg0.N) (d) : (dats m 0 c).before 6 t d = iblk m c 6 t :=
  found6 m (dats m 0 c) (A_eq m c 6) (after6 m c) t d
theorem before7 (c : Dev nD) (t : Fin cfg0.N) (d) : (dats m 0 c).before 7 t d = iblk m c 7 t :=
  found7 m (dats m 0 c) (A_eq m c 7) (after7 m c) t d
theorem before8 (c : Dev nD) (t : Fin cfg0.N) (d) : (dats m 0 c).before 8 t d = iblk m c 8 t :=
  found8 m (dats m 0 c) (A_eq m c 8) (after8 m c) t d
theorem before9 (c : Dev nD) (t : Fin cfg0.N) (d) : (dats m 0 c).before 9 t d = iblk m c 9 t :=
  found9 m (dats m 0 c) (A_eq m c 9) (after9 m c) t d
theorem before10 (c : Dev nD) (t : Fin cfg0.N) (d) : (dats m 0 c).before 10 t d = iblk m c 10 t :=
  found10 m (dats m 0 c) (A_eq m c 10) (after10 m c) t d
theorem before11 (c : Dev nD) (t : Fin cfg0.N) (d) : (dats m 0 c).before 11 t d = iblk m c 11 t :=
  found11 m (dats m 0 c) (A_eq m c 11) (after11 m c) t d
theorem before12 (c : Dev nD) (t : Fin cfg0.N) (d) : (dats m 0 c).before 12 t d = iblk m c 12 t :=
  found12 m (dats m 0 c) (A_eq m c 12) (after12 m c) t d
theorem before13 (c : Dev nD) (t : Fin cfg0.N) (d) : (dats m 0 c).before 13 t d = iblk m c 13 t :=
  found13 m (dats m 0 c) (A_eq m c 13) (after13 m c) t d

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t))

set_option maxHeartbeats 1000000 in
/-- At any point the inputs' buffers hold their blocks, so the body's triple applies; the scoped rest and the
    signals pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel c Set.univ (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates without a fault, every staged array then at what the proof data
    computes (the output array block by block at `cellBlock`) and every other buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

end Cert.Kernel.Cell

end
-- ==== Proof.CellFrameI.lean ====
/-
  The frame of the decoder-cell program, at any float instance.

  @main is a prologue of host operations (the weights transposed, cut into their three gates, each gate padded with
  zero columns from 200 to 256 and the three joined again, the biases likewise, the factor matrix's rows divided by
  their norms), then ONE launch over 64 grid points. At grid point t the body is handed rows 1024·t … 1024·t + 1023
  of x, h0 and eps and the eleven prepared weight arrays whole, and fills its 1024 × 420 output block by six stores
  into the column bands [0,200), [200,328), [328,332), [332,336), [336,356), [356,420), which together cover it.

  Here: what the launch finds in every buffer (the prologue's fold), that the prologue writes none of the fourteen
  arguments, what a covering list of six stores leaves in the output block as a function of the fourteen input
  blocks, the body's triple, the per-point proof data (inputs keep their blocks; the output block is that function
  of them), the run of @main, and from it the frame: the program terminates, faults nowhere and leaves its
  arguments as they were.
-/
import proofs.«141967_j3573412790665_2_alg».proof.Proof.Gen.KernelIdeal.Launch
import proofs.«141967_j3573412790665_2_alg».proof.Proof.Gen.KernelIdeal.Points
import proofs.«141967_j3573412790665_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Cell

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The prologue -/

/-- The host operations before the launch, stretch by stretch, in program order. -/
abbrev prologue : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24]

/-- What core `c`'s buffers hold when the launch begins: the prologue folded over the initial memory. -/
abbrev V (c : Dev nD) (b : Ref sig .tc) : Buf (Elt F) ((c : Thread nD τ).loc b) :=
  StableHlo.after (List.flatten (prologue (F := F))) (fun b => m (c, b)) b

theorem prologue_sub : (prologue (F := F)).Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub⟩

theorem prologue_fresh : (prologue (F := F)).Forall fun ops => ops.Forall fun op => op.fresh = ∅ := by
  simp only [List.Forall]; repeat' constructor

/-- @main is the prologue followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main prologue prologue_sub prologue_fresh (fun c => (main_chain c).trans rfl)

/-- Every prologue operation writes its own result buffer, and none of those is an argument. -/
local macro "kept_arg" : tactic => `(tactic| (
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append,
    List.nil_append, List.Forall, StableHlo.nullary_writes, StableHlo.unary_writes, StableHlo.binary_writes,
    StableHlo.nary_writes, Finset.mem_singleton]
  repeat' apply And.intro
  all_goals exact StableHlo.devRef_ne_of_ne (by decide)))

theorem V_arg0 (c : Dev nD) : V m c main_arg0 = m ((c : Thread nD τ).loc main_arg0) :=
  StableHlo.after_of_forall_not_mem (b := Proc.devRef .tc main_arg0) _ _ (List.forall_iff_forall_mem.mp (by kept_arg))
theorem V_arg1 (c : Dev nD) : V m c main_arg1 = m ((c : Thread nD τ).loc main_arg1) :=
  StableHlo.after_of_forall_not_mem (b := Proc.devRef .tc main_arg1) _ _ (List.forall_iff_forall_mem.mp (by kept_arg))
theorem V_arg2 (c : Dev nD) : V m c main_arg2 = m ((c : Thread nD τ).loc main_arg2) :=
  StableHlo.after_of_forall_not_mem (b := Proc.devRef .tc main_arg2) _ _ (List.forall_iff_forall_mem.mp (by kept_arg))
theorem V_arg3 (c : Dev nD) : V m c main_arg3 = m ((c : Thread nD τ).loc main_arg3) :=
  StableHlo.after_of_forall_not_mem (b := Proc.devRef .tc main_arg3) _ _ (List.forall_iff_forall_mem.mp (by kept_arg))
theorem V_arg4 (c : Dev nD) : V m c main_arg4 = m ((c : Thread nD τ).loc main_arg4) :=
  StableHlo.after_of_forall_not_mem (b := Proc.devRef .tc main_arg4) _ _ (List.forall_iff_forall_mem.mp (by kept_arg))
theorem V_arg5 (c : Dev nD) : V m c main_arg5 = m ((c : Thread nD τ).loc main_arg5) :=
  StableHlo.after_of_forall_not_mem (b := Proc.devRef .tc main_arg5) _ _ (List.forall_iff_forall_mem.mp (by kept_arg))
theorem V_arg6 (c : Dev nD) : V m c main_arg6 = m ((c : Thread nD τ).loc main_arg6) :=
  StableHlo.after_of_forall_not_mem (b := Proc.devRef .tc main_arg6) _ _ (List.forall_iff_forall_mem.mp (by kept_arg))
theorem V_arg7 (c : Dev nD) : V m c main_arg7 = m ((c : Thread nD τ).loc main_arg7) :=
  StableHlo.after_of_forall_not_mem (b := Proc.devRef .tc main_arg7) _ _ (List.forall_iff_forall_mem.mp (by kept_arg))
theorem V_arg8 (c : Dev nD) : V m c main_arg8 = m ((c : Thread nD τ).loc main_arg8) :=
  StableHlo.after_of_forall_not_mem (b := Proc.devRef .tc main_arg8) _ _ (List.forall_iff_forall_mem.mp (by kept_arg))
theorem V_arg9 (c : Dev nD) : V m c main_arg9 = m ((c : Thread nD τ).loc main_arg9) :=
  StableHlo.after_of_forall_not_mem (b := Proc.devRef .tc main_arg9) _ _ (List.forall_iff_forall_mem.mp (by kept_arg))
theorem V_arg10 (c : Dev nD) : V m c main_arg10 = m ((c : Thread nD τ).loc main_arg10) :=
  StableHlo.after_of_forall_not_mem (b := Proc.devRef .tc main_arg10) _ _ (List.forall_iff_forall_mem.mp (by kept_arg))
theorem V_arg11 (c : Dev nD) : V m c main_arg11 = m ((c : Thread nD τ).loc main_arg11) :=
  StableHlo.after_of_forall_not_mem (b := Proc.devRef .tc main_arg11) _ _ (List.forall_iff_forall_mem.mp (by kept_arg))
theorem V_arg12 (c : Dev nD) : V m c main_arg12 = m ((c : Thread nD τ).loc main_arg12) :=
  StableHlo.after_of_forall_not_mem (b := Proc.devRef .tc main_arg12) _ _ (List.forall_iff_forall_mem.mp (by kept_arg))
theorem V_arg13 (c : Dev nD) : V m c main_arg13 = m ((c : Thread nD τ).loc main_arg13) :=
  StableHlo.after_of_forall_not_mem (b := Proc.devRef .tc main_arg13) _ _ (List.forall_iff_forall_mem.mp (by kept_arg))

/-! ## The blocks -/

/-- Window `w`'s block at grid point `t`, read off the array the launch finds. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's buffer holds its block at every point, whether the pipeline fetched it there or the block index stood still. -/
theorem found0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's buffer holds its block at every point, whether the pipeline fetched it there or the block index stood still. -/
theorem found1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's buffer holds its block at every point, whether the pipeline fetched it there or the block index stood still. -/
theorem found2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's buffer holds its block at every point, whether the pipeline fetched it there or the block index stood still. -/
theorem found3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's buffer holds its block at every point, whether the pipeline fetched it there or the block index stood still. -/
theorem found4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's buffer holds its block at every point, whether the pipeline fetched it there or the block index stood still. -/
theorem found5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's buffer holds its block at every point, whether the pipeline fetched it there or the block index stood still. -/
theorem found6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's buffer holds its block at every point, whether the pipeline fetched it there or the block index stood still. -/
theorem found7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's buffer holds its block at every point, whether the pipeline fetched it there or the block index stood still. -/
theorem found8 {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's buffer holds its block at every point, whether the pipeline fetched it there or the block index stood still. -/
theorem found9 {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's buffer holds its block at every point, whether the pipeline fetched it there or the block index stood still. -/
theorem found10 {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's buffer holds its block at every point, whether the pipeline fetched it there or the block index stood still. -/
theorem found11 {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's buffer holds its block at every point, whether the pipeline fetched it there or the block index stood still. -/
theorem found12 {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's buffer holds its block at every point, whether the pipeline fetched it there or the block index stood still. -/
theorem found13 {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

/-! ## The frame from a run -/

/-- A run that ends with every staged array at what the proof data computes and every other buffer as the launch
    found it leaves the fourteen arguments unchanged: x, h0 and eps are staged inputs (an input's array is never
    written), the weights are staged by no window, and the prologue wrote none of them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).1 0).trans (((dats 0 c).arrAt_in 0 rfl _).trans ((hA c 0).trans (V_arg0 m c))),
      ((h c).1 1).trans (((dats 0 c).arrAt_in 1 rfl _).trans ((hA c 1).trans (V_arg1 m c))),
      ((h c).1 2).trans (((dats 0 c).arrAt_in 2 rfl _).trans ((hA c 2).trans (V_arg2 m c))),
      ((h c).2 main_arg3 (Pipeline.mem_restRefs_of main_arg3 (by decide) (by decide))).trans (V_arg3 m c),
      ((h c).2 main_arg4 (Pipeline.mem_restRefs_of main_arg4 (by decide) (by decide))).trans (V_arg4 m c),
      ((h c).2 main_arg5 (Pipeline.mem_restRefs_of main_arg5 (by decide) (by decide))).trans (V_arg5 m c),
      ((h c).2 main_arg6 (Pipeline.mem_restRefs_of main_arg6 (by decide) (by decide))).trans (V_arg6 m c),
      ((h c).2 main_arg7 (Pipeline.mem_restRefs_of main_arg7 (by decide) (by decide))).trans (V_arg7 m c),
      ((h c).2 main_arg8 (Pipeline.mem_restRefs_of main_arg8 (by decide) (by decide))).trans (V_arg8 m c),
      ((h c).2 main_arg9 (Pipeline.mem_restRefs_of main_arg9 (by decide) (by decide))).trans (V_arg9 m c),
      ((h c).2 main_arg10 (Pipeline.mem_restRefs_of main_arg10 (by decide) (by decide))).trans (V_arg10 m c),
      ((h c).2 main_arg11 (Pipeline.mem_restRefs_of main_arg11 (by decide) (by decide))).trans (V_arg11 m c),
      ((h c).2 main_arg12 (Pipeline.mem_restRefs_of main_arg12 (by decide) (by decide))).trans (V_arg12 m c),
      ((h c).2 main_arg13 (Pipeline.mem_restRefs_of main_arg13 (by decide) (by decide))).trans (V_arg13 m c)⟩) h

/-! ## The body's rectangles -/

abbrev whole0 : Rect S1024x272 := Rect.unit (s := S1024x272) ![0, 0] S1024x272.size inb_S1024x272_S1024x272_0_0
abbrev whole1 : Rect S1024x420 := Rect.unit (s := S1024x420) ![0, 0] S1024x420.size inb_S1024x420_S1024x420_0_0
abbrev whole2 : Rect S1024x4 := Rect.unit (s := S1024x4) ![0, 0] S1024x4.size inb_S1024x4_S1024x4_0_0
abbrev whole3 : Rect S20x768 := Rect.unit (s := S20x768) ![0, 0] S20x768.size inb_S20x768_S20x768_0_0
abbrev whole4 : Rect S200x768 := Rect.unit (s := S200x768) ![0, 0] S200x768.size inb_S200x768_S200x768_0_0
abbrev whole5 : Rect S1x768 := Rect.unit (s := S1x768) ![0, 0] S1x768.size inb_S1x768_S1x768_0_0
abbrev whole6 : Rect S1x768 := Rect.unit (s := S1x768) ![0, 0] S1x768.size inb_S1x768_S1x768_0_0
abbrev whole7 : Rect S320x384 := Rect.unit (s := S320x384) ![0, 0] S320x384.size inb_S320x384_S320x384_0_0
abbrev whole8 : Rect S128x384 := Rect.unit (s := S128x384) ![0, 0] S128x384.size inb_S128x384_S128x384_0_0
abbrev whole9 : Rect S1x384 := Rect.unit (s := S1x384) ![0, 0] S1x384.size inb_S1x384_S1x384_0_0
abbrev whole10 : Rect S1x384 := Rect.unit (s := S1x384) ![0, 0] S1x384.size inb_S1x384_S1x384_0_0
abbrev whole11 : Rect S128x8 := Rect.unit (s := S128x8) ![0, 0] S128x8.size inb_S128x8_S128x8_0_0
abbrev whole12 : Rect S1x8 := Rect.unit (s := S1x8) ![0, 0] S1x8.size inb_S1x8_S1x8_0_0
abbrev whole13 : Rect S200x64 := Rect.unit (s := S200x64) ![0, 0] S200x64.size inb_S200x64_S200x64_0_0
abbrev band0 : Rect S1024x420 := Rect.unit (s := S1024x420) ![0, 0] S1024x200.size inb_S1024x420_S1024x200_0_0
abbrev band200 : Rect S1024x420 := Rect.unit (s := S1024x420) ![0, 200] S1024x128.size inb_S1024x420_S1024x128_0_200
abbrev band328 : Rect S1024x420 := Rect.unit (s := S1024x420) ![0, 328] S1024x4.size inb_S1024x420_S1024x4_0_328
abbrev band332 : Rect S1024x420 := Rect.unit (s := S1024x420) ![0, 332] S1024x4.size inb_S1024x420_S1024x4_0_332
abbrev band336 : Rect S1024x420 := Rect.unit (s := S1024x420) ![0, 336] S1024x20.size inb_S1024x420_S1024x20_0_336
abbrev band356 : Rect S1024x420 := Rect.unit (s := S1024x420) ![0, 356] S1024x64.size inb_S1024x420_S1024x64_0_356

/-! ## What the body leaves in the output block -/

/-- The clip bounds −5 and 5 the body names once and uses for both cells. -/
abbrev lo : F .f32 := Scalar.ofBits .f32 0xC0A00000#32
abbrev hi : F .f32 := Scalar.ofBits .f32 0x40A00000#32

/-- The controller's state before clipping, of the h0, x and controller-weight blocks. -/
abbrev conRaw (x0 : Vec F S1024x272 .f32) (x1 : Vec F S1024x420 .f32) (x7 : Vec F S320x384 .bf16) (x8 : Vec F S128x384 .bf16)
    (x9 x10 : Vec F S1x384 .f32) : FVec F S1024x128 .f32 :=
  k0_pay5 (View.ld x1 whole1) (View.ld x0 whole0) (View.ld x7 whole7) (View.ld x9 whole9) (View.ld x8 whole8) (View.ld x10 whole10)

/-- The six stored values, each as the skeleton's payload of the loaded blocks, and the block they leave: the
    output buffer after six stores into column bands, last store first. -/
def cellBlock (x0 : Vec F S1024x272 .f32) (x1 : Vec F S1024x420 .f32) (x2 : Vec F S1024x4 .f32) (x3 : Vec F S20x768 .bf16)
    (x4 : Vec F S200x768 .bf16) (x5 x6 : Vec F S1x768 .f32) (x7 : Vec F S320x384 .bf16) (x8 : Vec F S128x384 .bf16)
    (x9 x10 : Vec F S1x384 .f32) (x11 : Vec F S128x8 .bf16) (x12 : Vec F S1x8 .f32) (x13 : Vec F S200x64 .bf16) : Vec F S1024x420 .f32 :=
  let v1 := k0_pay3 (View.ld x1 whole1)
  let v6 := k0_pay4 (View.ld x0 whole0)
  let v41 := conRaw x0 x1 x7 x8 x9 x10
  let v47 := View.ld x11 whole11
  let v50 := View.ld x12 whole12
  let v59 := View.ld x2 whole2
  let v65 := View.ld x3 whole3
  let v68 := View.ld x5 whole5
  let v72 := View.ld x4 whole4
  let v75 := View.ld x6 whole6
  let v78 := k0_pay12 v1 v72 v75
  let v79 := k0_pay13 v6 v41 lo hi v47 v50 v59 v65 v68
  let v80 := k0_pay14 v6 v41 lo hi v47 v50 v59 v65 v68
  let v81 := k0_pay15 v6 v41 lo hi v47 v50 v59 v65 v68
  let v82 := k0_pay16 v1 v72 v75
  let v83 := k0_pay17 v1 v72 v75
  View.canon [⟨band356, k0_pay2 v1 v78 v79 v80 v81 v82 v83 (View.ld x13 whole13)⟩,
    ⟨band336, k0_pay10 v6 v41 lo hi v47 v50 v59⟩,
    ⟨band332, k0_pay9 v41 lo hi v47 v50⟩,
    ⟨band328, k0_pay8 v41 lo hi v47 v50⟩,
    ⟨band200, k0_pay6 v41 lo hi⟩,
    ⟨band0, k0_pay1 v1 v78 v79 v80 v81 v82 v83⟩]

/-- The six bands cover the block: cut into 1024 × 4 strips (every band's offset and width is a multiple of 4)
    they are the 105 strips of the block, each exactly once. -/
theorem bands_cover (p0 : Vec F S1024x64 .f32) (p1 : Vec F S1024x20 .f32) (p2 p3 : Vec F S1024x4 .f32)
    (p4 : Vec F S1024x128 .f32) (p5 : Vec F S1024x200 .f32) (y : S1024x420.Idx) :
    ∃ pc ∈ ([⟨band356, p0⟩, ⟨band336, p1⟩, ⟨band332, p2⟩, ⟨band328, p3⟩, ⟨band200, p4⟩, ⟨band0, p5⟩] : List (View.Piece (Elt F) S1024x420 .f32)), y ∈ pc.1.set :=
  View.cover_of_tiledBy [⟨band356, p0⟩, ⟨band336, p1⟩, ⟨band332, p2⟩, ⟨band328, p3⟩, ⟨band200, p4⟩, ⟨band0, p5⟩] ![1024, 4] (by sl_kernel_rfl) y

/-! ## The body's triple -/

set_option maxHeartbeats 4000000 in
/-- The body on whole staging buffers, the fourteen inputs at read contents and the output at anything, returns
    with the inputs as they were and the output at `cellBlock` of them. -/
theorem sound_kernel (c : Dev nD) (E : Set ℕ) (i : grid0.Coords)
    (arg1 : Memref sig .tc .vmem S1024x272 .f32) (harg1 : arg1.IsWhole) (arg2 : Memref sig .tc .vmem S1024x420 .f32) (harg2 : arg2.IsWhole) (arg3 : Memref sig .tc .vmem S1024x4 .f32) (harg3 : arg3.IsWhole) (arg4 : Memref sig .tc .vmem S20x768 .bf16) (harg4 : arg4.IsWhole) (arg5 : Memref sig .tc .vmem S200x768 .bf16) (harg5 : arg5.IsWhole) (arg6 : Memref sig .tc .vmem S1x768 .f32) (harg6 : arg6.IsWhole) (arg7 : Memref sig .tc .vmem S1x768 .f32) (harg7 : arg7.IsWhole) (arg8 : Memref sig .tc .vmem S320x384 .bf16) (harg8 : arg8.IsWhole) (arg9 : Memref sig .tc .vmem S128x384 .bf16) (harg9 : arg9.IsWhole) (arg10 : Memref sig .tc .vmem S1x384 .f32) (harg10 : arg10.IsWhole) (arg11 : Memref sig .tc .vmem S1x384 .f32) (harg11 : arg11.IsWhole) (arg12 : Memref sig .tc .vmem S128x8 .bf16) (harg12 : arg12.IsWhole) (arg13 : Memref sig .tc .vmem S1x8 .f32) (harg13 : arg13.IsWhole) (arg14 : Memref sig .tc .vmem S200x64 .bf16) (harg14 : arg14.IsWhole) (arg15 : Memref sig .tc .vmem S1024x420 .f32) (harg15 : arg15.IsWhole)
    (x0 : Vec F S1024x272 .f32) (x1 : Vec F S1024x420 .f32) (x2 : Vec F S1024x4 .f32) (x3 : Vec F S20x768 .bf16) (x4 : Vec F S200x768 .bf16) (x5 : Vec F S1x768 .f32) (x6 : Vec F S1x768 .f32) (x7 : Vec F S320x384 .bf16) (x8 : Vec F S128x384 .bf16) (x9 : Vec F S1x384 .f32) (x10 : Vec F S1x384 .f32) (x11 : Vec F S128x8 .bf16) (x12 : Vec F S1x8 .f32) (x13 : Vec F S200x64 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (cellBlock x0 x1 x2 x3 x4 x5 x6 x7 x8 x9 x10 x11 x12 x13)) -∗ K ⟨⟩))
      ⊢ wp frame (wpE (defs₀ (F := F)) Variants.none c none) E (cc0__decoder_cell_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__decoder_cell_kernel_eq_skeleton]; unfold cc0__decoder_cell_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  iexists _; isplitr
  swap; · iexact H14
  ipureintro
  exact View.read_writes_eq_canon _ _ _ (bands_cover _ _ _ _ _ _)

/-! ## The proof data -/

/-- Per core: the arrays as the launch finds them; after the body at point `t` every input buffer still at its
    block and the output buffer at `cellBlock` of the fourteen input blocks; the body keeps no scratch and owes
    no signal. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => cellBlock (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = cellBlock (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]

theorem before0 (c : Dev nD) (t : Fin cfg0.N) (d) : (dats m 0 c).before 0 t d = iblk m c 0 t :=
  found0 m (dats m 0 c) (A_eq m c 0) (after0 m c) t d
theorem before1 (c : Dev nD) (t : Fin cfg0.N) (d) : (dats m 0 c).before 1 t d = iblk m c 1 t :=
  found1 m (dats m 0 c) (A_eq m c 1) (after1 m c) t d
theorem before2 (c : Dev nD) (t : Fin cfg0.N) (d) : (dats m 0 c).before 2 t d = iblk m c 2 t :=
  found2 m (dats m 0 c) (A_eq m c 2) (after2 m c) t d
theorem before3 (c : Dev nD) (t : Fin cfg0.N) (d) : (dats m 0 c).before 3 t d = iblk m c 3 t :=
  found3 m (dats m 0 c) (A_eq m c 3) (after3 m c) t d
theorem before4 (c : Dev nD) (t : Fin cfg0.N) (d) : (dats m 0 c).before 4 t d = iblk m c 4 t :=
  found4 m (dats m 0 c) (A_eq m c 4) (after4 m c) t d
theorem before5 (c : Dev nD) (t : Fin cfg0.N) (d) : (dats m 0 c).before 5 t d = iblk m c 5 t :=
  found5 m (dats m 0 c) (A_eq m c 5) (after5 m c) t d
theorem before6 (c : Dev nD) (t : Fin cfg0.N) (d) : (dats m 0 c).before 6 t d = iblk m c 6 t :=
  found6 m (dats m 0 c) (A_eq m c 6) (after6 m c) t d
theorem before7 (c : Dev nD) (t : Fin cfg0.N) (d) : (dats m 0 c).before 7 t d = iblk m c 7 t :=
  found7 m (dats m 0 c) (A_eq m c 7) (after7 m c) t d
theorem before8 (c : Dev nD) (t : Fin cfg0.N) (d) : (dats m 0 c).before 8 t d = iblk m c 8 t :=
  found8 m (dats m 0 c) (A_eq m c 8) (after8 m c) t d
theorem before9 (c : Dev nD) (t : Fin cfg0.N) (d) : (dats m 0 c).before 9 t d = iblk m c 9 t :=
  found9 m (dats m 0 c) (A_eq m c 9) (after9 m c) t d
theorem before10 (c : Dev nD) (t : Fin cfg0.N) (d) : (dats m 0 c).before 10 t d = iblk m c 10 t :=
  found10 m (dats m 0 c) (A_eq m c 10) (after10 m c) t d
theorem before11 (c : Dev nD) (t : Fin cfg0.N) (d) : (dats m 0 c).before 11 t d = iblk m c 11 t :=
  found11 m (dats m 0 c) (A_eq m c 11) (after11 m c) t d
theorem before12 (c : Dev nD) (t : Fin cfg0.N) (d) : (dats m 0 c).before 12 t d = iblk m c 12 t :=
  found12 m (dats m 0 c) (A_eq m c 12) (after12 m c) t d
theorem before13 (c : Dev nD) (t : Fin cfg0.N) (d) : (dats m 0 c).before 13 t d = iblk m c 13 t :=
  found13 m (dats m 0 c) (A_eq m c 13) (after13 m c) t d

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t))

set_option maxHeartbeats 1000000 in
/-- At any point the inputs' buffers hold their blocks, so the body's triple applies; the scoped rest and the
    signals pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel c Set.univ (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates without a fault, every staged array then at what the proof data
    computes (the output array block by block at `cellBlock`) and every other buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

end Cert.KernelIdeal.Cell

end
-- ==== Proof.CellArray.lean ====
/-
  From blocks to arrays.

  Grid point t handles rows 1024·t … 1024·t + 1023. For x, h0, eps and the output the block's entry (p, q) is the
  array's entry (1024·t + p, q); the eleven prepared weight arrays are handed over whole at every point. The 64
  output blocks tile the 65536 × 420 result, so if what every point writes back is the restriction of one function
  G of the arguments to its rows, the result array ends as G.
-/
import proofs.«141967_j3573412790665_2_alg».proof.Proof.CellFrameI
import Idealize.ShloMosaic.Lib.Pipeline.Value
import Idealize.ShloMosaic.Lib.ValueIdx

set_option maxRecDepth 16384

noncomputable section

namespace Cert.KernelIdeal.CellArray

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Cell

variable {F : FTy → Type} [FloatOps F]
variable (m : (ℓ : Loc nD τ sig) → Buf (Elt F) ℓ) (ρ : Dev nD → PrngReg)

/-- The grid has 64 points. -/
theorem lt64 (t : Fin cfg0.N) : t.val < 64 := Nat.lt_of_lt_of_eq t.isLt N_0

/-- The array row of a block row. -/
def row (t : Fin cfg0.N) (p : Fin 1024) : Fin 65536 := ⟨1024 * t.val + p.val, by have := lt64 t; have := p.isLt; omega⟩

/-- The printed index maps, decided over the grid: the row-tiled windows sit at block (t, 0), the others at (0, 0). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_14.index t (0 : Fin 2) = t.val ∧ win0_14.index t (1 : Fin 2) = 0 :=
  (by decide +kernel : ∀ t : Fin grid0.N, _)

theorem index_whole : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0 :=
  (by decide +kernel : ∀ t : Fin grid0.N, _)

/-! ## Input blocks as entries of the arrays the launch finds -/

theorem blk0_apply (c : Dev nD) (t : Fin cfg0.N) (p : Fin 1024) (q : Fin 272) :
    iblk m c 0 t (ix2 p q) = V m c main_arg0 (ix2 (row t p) q) := by
  obtain ⟨e0, e1, -⟩ := index_facts t
  show V m c main_arg0 (((cfg0.win 0).blk t).view.emb (ix2 p q)) = _
  refine congrArg (V m c main_arg0) (funext fun a => Fin.ext ?_)
  match a with
  | ⟨0, _⟩ => show win0_0.index t (0 : Fin 2) * 1024 + 1 * p.val = 1024 * t.val + p.val; omega
  | ⟨1, _⟩ => show win0_0.index t (1 : Fin 2) * 272 + 1 * q.val = q.val; omega

theorem blk1_apply (c : Dev nD) (t : Fin cfg0.N) (p : Fin 1024) (q : Fin 420) :
    iblk m c 1 t (ix2 p q) = V m c main_arg1 (ix2 (row t p) q) := by
  obtain ⟨-, -, e0, e1, -⟩ := index_facts t
  show V m c main_arg1 (((cfg0.win 1).blk t).view.emb (ix2 p q)) = _
  refine congrArg (V m c main_arg1) (funext fun a => Fin.ext ?_)
  match a with
  | ⟨0, _⟩ => show win0_1.index t (0 : Fin 2) * 1024 + 1 * p.val = 1024 * t.val + p.val; omega
  | ⟨1, _⟩ => show win0_1.index t (1 : Fin 2) * 420 + 1 * q.val = q.val; omega

theorem blk2_apply (c : Dev nD) (t : Fin cfg0.N) (p : Fin 1024) (q : Fin 4) :
    iblk m c 2 t (ix2 p q) = V m c main_arg2 (ix2 (row t p) q) := by
  obtain ⟨-, -, -, -, e0, e1, -⟩ := index_facts t
  show V m c main_arg2 (((cfg0.win 2).blk t).view.emb (ix2 p q)) = _
  refine congrArg (V m c main_arg2) (funext fun a => Fin.ext ?_)
  match a with
  | ⟨0, _⟩ => show win0_2.index t (0 : Fin 2) * 1024 + 1 * p.val = 1024 * t.val + p.val; omega
  | ⟨1, _⟩ => show win0_2.index t (1 : Fin 2) * 4 + 1 * q.val = q.val; omega

theorem blk3_apply (c : Dev nD) (t : Fin cfg0.N) (x : Fin 20) (n : Fin 768) :
    iblk m c 3 t (ix2 x n) = V m c main_v8 (ix2 x n) := by
  obtain ⟨e0, e1, -⟩ := index_whole t
  show V m c main_v8 (((cfg0.win 3).blk t).view.emb (ix2 x n)) = _
  refine congrArg (V m c main_v8) (funext fun a => Fin.ext ?_)
  match a with
  | ⟨0, _⟩ => show win0_3.index t (0 : Fin 2) * 20 + 1 * x.val = x.val; omega
  | ⟨1, _⟩ => show win0_3.index t (1 : Fin 2) * 768 + 1 * n.val = n.val; omega

theorem blk4_apply (c : Dev nD) (t : Fin cfg0.N) (x : Fin 200) (n : Fin 768) :
    iblk m c 4 t (ix2 x n) = V m c main_v17 (ix2 x n) := by
  obtain ⟨-, -, e0, e1, -⟩ := index_whole t
  show V m c main_v17 (((cfg0.win 4).blk t).view.emb (ix2 x n)) = _
  refine congrArg (V m c main_v17) (funext fun a => Fin.ext ?_)
  match a with
  | ⟨0, _⟩ => show win0_4.index t (0 : Fin 2) * 200 + 1 * x.val = x.val; omega
  | ⟨1, _⟩ => show win0_4.index t (1 : Fin 2) * 768 + 1 * n.val = n.val; omega

theorem blk5_apply (c : Dev nD) (t : Fin cfg0.N) (x : Fin 1) (n : Fin 768) :
    iblk m c 5 t (ix2 x n) = V m c main_v25 (ix2 x n) := by
  obtain ⟨-, -, -, -, e0, e1, -⟩ := index_whole t
  show V m c main_v25 (((cfg0.win 5).blk t).view.emb (ix2 x n)) = _
  refine congrArg (V m c main_v25) (funext fun a => Fin.ext ?_)
  match a with
  | ⟨0, _⟩ => show win0_5.index t (0 : Fin 2) * 1 + 1 * x.val = x.val; omega
  | ⟨1, _⟩ => show win0_5.index t (1 : Fin 2) * 768 + 1 * n.val = n.val; omega

theorem blk6_apply (c : Dev nD) (t : Fin cfg0.N) (x : Fin 1) (n : Fin 768) :
    iblk m c 6 t (ix2 x n) = V m c main_v33 (ix2 x n) := by
  obtain ⟨-, -, -, -, -, -, e0, e1, -⟩ := index_whole t
  show V m c main_v33 (((cfg0.win 6).blk t).view.emb (ix2 x n)) = _
  refine congrArg (V m c main_v33) (funext fun a => Fin.ext ?_)
  match a with
  | ⟨0, _⟩ => show win0_6.index t (0 : Fin 2) * 1 + 1 * x.val = x.val; omega
  | ⟨1, _⟩ => show win0_6.index t (1 : Fin 2) * 768 + 1 * n.val = n.val; omega

theorem blk7_apply (c : Dev nD) (t : Fin cfg0.N) (x : Fin 320) (n : Fin 384) :
    iblk m c 7 t (ix2 x n) = V m c main_v35 (ix2 x n) := by
  obtain ⟨-, -, -, -, -, -, -, -, e0, e1, -⟩ := index_whole t
  show V m c main_v35 (((cfg0.win 7).blk t).view.emb (ix2 x n)) = _
  refine congrArg (V m c main_v35) (funext fun a => Fin.ext ?_)
  match a with
  | ⟨0, _⟩ => show win0_7.index t (0 : Fin 2) * 320 + 1 * x.val = x.val; omega
  | ⟨1, _⟩ => show win0_7.index t (1 : Fin 2) * 384 + 1 * n.val = n.val; omega

theorem blk8_apply (c : Dev nD) (t : Fin cfg0.N) (x : Fin 128) (n : Fin 384) :
    iblk m c 8 t (ix2 x n) = V m c main_v37 (ix2 x n) := by
  obtain ⟨-, -, -, -, -, -, -, -, -, -, e0, e1, -⟩ := index_whole t
  show V m c main_v37 (((cfg0.win 8).blk t).view.emb (ix2 x n)) = _
  refine congrArg (V m c main_v37) (funext fun a => Fin.ext ?_)
  match a with
  | ⟨0, _⟩ => show win0_8.index t (0 : Fin 2) * 128 + 1 * x.val = x.val; omega
  | ⟨1, _⟩ => show win0_8.index t (1 : Fin 2) * 384 + 1 * n.val = n.val; omega

theorem blk9_apply (c : Dev nD) (t : Fin cfg0.N) (x : Fin 1) (n : Fin 384) :
    iblk m c 9 t (ix2 x n) = V m c main_v38 (ix2 x n) := by
  obtain ⟨-, -, -, -, -, -, -, -, -, -, -, -, e0, e1, -⟩ := index_whole t
  show V m c main_v38 (((cfg0.win 9).blk t).view.emb (ix2 x n)) = _
  refine congrArg (V m c main_v38) (funext fun a => Fin.ext ?_)
  match a with
  | ⟨0, _⟩ => show win0_9.index t (0 : Fin 2) * 1 + 1 * x.val = x.val; omega
  | ⟨1, _⟩ => show win0_9.index t (1 : Fin 2) * 384 + 1 * n.val = n.val; omega

theorem blk10_apply (c : Dev nD) (t : Fin cfg0.N) (x : Fin 1) (n : Fin 384) :
    iblk m c 10 t (ix2 x n) = V m c main_v39 (ix2 x n) := by
  obtain ⟨-, -, -, -, -, -, -, -, -, -, -, -, -, -, e0, e1, -⟩ := index_whole t
  show V m c main_v39 (((cfg0.win 10).blk t).view.emb (ix2 x n)) = _
  refine congrArg (V m c main_v39) (funext fun a => Fin.ext ?_)
  match a with
  | ⟨0, _⟩ => show win0_10.index t (0 : Fin 2) * 1 + 1 * x.val = x.val; omega
  | ⟨1, _⟩ => show win0_10.index t (1 : Fin 2) * 384 + 1 * n.val = n.val; omega

theorem blk11_apply (c : Dev nD) (t : Fin cfg0.N) (x : Fin 128) (n : Fin 8) :
    iblk m c 11 t (ix2 x n) = V m c main_v41 (ix2 x n) := by
  obtain ⟨-, -, -, -, -, -, -, -, -, -, -, -, -, -, -, -, e0, e1, -⟩ := index_whole t
  show V m c main_v41 (((cfg0.win 11).blk t).view.emb (ix2 x n)) = _
  refine congrArg (V m c main_v41) (funext fun a => Fin.ext ?_)
  match a with
  | ⟨0, _⟩ => show win0_11.index t (0 : Fin 2) * 128 + 1 * x.val = x.val; omega
  | ⟨1, _⟩ => show win0_11.index t (1 : Fin 2) * 8 + 1 * n.val = n.val; omega

theorem blk12_apply (c : Dev nD) (t : Fin cfg0.N) (x : Fin 1) (n : Fin 8) :
    iblk m c 12 t (ix2 x n) = V m c main_v42 (ix2 x n) := by
  obtain ⟨-, -, -, -, -, -, -, -, -, -, -, -, -, -, -, -, -, -, e0, e1, -⟩ := index_whole t
  show V m c main_v42 (((cfg0.win 12).blk t).view.emb (ix2 x n)) = _
  refine congrArg (V m c main_v42) (funext fun a => Fin.ext ?_)
  match a with
  | ⟨0, _⟩ => show win0_12.index t (0 : Fin 2) * 1 + 1 * x.val = x.val; omega
  | ⟨1, _⟩ => show win0_12.index t (1 : Fin 2) * 8 + 1 * n.val = n.val; omega

theorem blk13_apply (c : Dev nD) (t : Fin cfg0.N) (x : Fin 200) (n : Fin 64) :
    iblk m c 13 t (ix2 x n) = V m c main_v52 (ix2 x n) := by
  obtain ⟨-, -, -, -, -, -, -, -, -, -, -, -, -, -, -, -, -, -, -, -, e0, e1⟩ := index_whole t
  show V m c main_v52 (((cfg0.win 13).blk t).view.emb (ix2 x n)) = _
  refine congrArg (V m c main_v52) (funext fun a => Fin.ext ?_)
  match a with
  | ⟨0, _⟩ => show win0_13.index t (0 : Fin 2) * 200 + 1 * x.val = x.val; omega
  | ⟨1, _⟩ => show win0_13.index t (1 : Fin 2) * 64 + 1 * n.val = n.val; omega

/-! ## The output blocks tile the result -/

theorem mem_out_blk (t : Fin cfg0.N) (i : S65536x420.Idx) :
    i ∈ ((cfg0.win 14).blk t).view.set ↔ ∀ a : Fin 2, win0_14.index t a * S1024x420.size a ≤ (i a).val ∧ (i a).val < win0_14.index t a * S1024x420.size a + S1024x420.size a := by
  show i ∈ ((View.whole main_v53).slice (win0_14.rect t)).set ↔ _
  rw [View.set_slice_whole, Rect.mem_set_unit]
  exact Iff.rfl

/-- Every entry of the result lies in the block of the point its row falls to. -/
theorem out_cover (i : S65536x420.Idx) :
    ∃ t : Fin cfg0.N, (cfg0.win 14).flush t = true ∧ i ∈ ((cfg0.win 14).blk t).view.set := by
  have hi0 : (i 0).val < 65536 := (i 0).isLt
  have hi1 : (i 1).val < 420 := (i 1).isLt
  have hN : (i 0).val / 1024 < cfg0.N := Nat.lt_of_lt_of_eq (show (i 0).val / 1024 < 64 by omega) N_0.symm
  refine ⟨⟨(i 0).val / 1024, hN⟩, flush0_14 _, ?_⟩
  rw [mem_out_blk]
  obtain ⟨-, -, -, -, -, -, e0, e1⟩ := index_facts ⟨(i 0).val / 1024, hN⟩
  intro a
  match a with
  | ⟨0, _⟩ =>
    show win0_14.index ⟨(i 0).val / 1024, hN⟩ (0 : Fin 2) * 1024 ≤ (i 0).val ∧ (i 0).val < win0_14.index ⟨(i 0).val / 1024, hN⟩ (0 : Fin 2) * 1024 + 1024
    rw [e0]; show (i 0).val / 1024 * 1024 ≤ (i 0).val ∧ (i 0).val < (i 0).val / 1024 * 1024 + 1024; omega
  | ⟨1, _⟩ =>
    show win0_14.index ⟨(i 0).val / 1024, hN⟩ (1 : Fin 2) * 420 ≤ (i 1).val ∧ (i 1).val < win0_14.index ⟨(i 0).val / 1024, hN⟩ (1 : Fin 2) * 420 + 420
    rw [e1]; omega

/-- An output block's entry (p, j) sits at the result's entry (1024·t + p, j). -/
theorem out_emb (t : Fin cfg0.N) (p : Fin 1024) (j : Fin 420) :
    ((cfg0.win 14).blk t).view.emb (ix2 p j) = ix2 (row t p) j := by
  obtain ⟨-, -, -, -, -, -, e0, e1⟩ := index_facts t
  refine funext fun a => Fin.ext ?_
  match a with
  | ⟨0, _⟩ => show win0_14.index t (0 : Fin 2) * 1024 + 1 * p.val = 1024 * t.val + p.val; omega
  | ⟨1, _⟩ => show win0_14.index t (1 : Fin 2) * 420 + 1 * j.val = j.val; omega

/-- If at every point the body's block is G restricted to the point's rows, the result array ends as G. -/
theorem result_eq (c : Dev nD) (G : S65536x420.Idx → Elt F .f32)
    (hG : ∀ (t : Fin cfg0.N) (p : Fin 1024) (j : Fin 420),
      cellBlock (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 p j) = G (ix2 (row t p) j)) :
    (dats m 0 c).arrAt 14 cfg0.N = G :=
  (dats m 0 c).arrAt_eq_of_cover 14 G (fun t _ => by
    show (cfg0.win 14).cut (grid0.coords t) ((dats m 0 c).after 14 t) = _
    rw [after14]
    funext y
    obtain ⟨p, j, rfl⟩ : ∃ (p : Fin 1024) (j : Fin 420), y = ix2 p j := ⟨y 0, y 1, eq_ix2 y⟩
    show cellBlock (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 p j) = G (((cfg0.win 14).blk t).view.emb (ix2 p j))
    rw [out_emb, hG]) out_cover

/-- The run, the result named: every weakly fair execution ends with the result array at `arrAt` and the
    arguments as they were. -/
theorem run_named : θ_run defs (onTc (τ := τ) (main (F := F))) ⟨m, fun _ => 0, ρ⟩ fun r => ∀ c : Dev nD,
      r.2.mem ((c.tc : Thread nD τ).loc main_v53) = (dats m 0 c).arrAt 14 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c).1 14,
      ((h c).1 0).trans (((dats m 0 c).arrAt_in 0 rfl _).trans ((A_eq m c 0).trans (V_arg0 m c))),
      ((h c).1 1).trans (((dats m 0 c).arrAt_in 1 rfl _).trans ((A_eq m c 1).trans (V_arg1 m c))),
      ((h c).1 2).trans (((dats m 0 c).arrAt_in 2 rfl _).trans ((A_eq m c 2).trans (V_arg2 m c))),
      ((h c).2 main_arg3 (Pipeline.mem_restRefs_of main_arg3 (by decide) (by decide))).trans (V_arg3 m c),
      ((h c).2 main_arg4 (Pipeline.mem_restRefs_of main_arg4 (by decide) (by decide))).trans (V_arg4 m c),
      ((h c).2 main_arg5 (Pipeline.mem_restRefs_of main_arg5 (by decide) (by decide))).trans (V_arg5 m c),
      ((h c).2 main_arg6 (Pipeline.mem_restRefs_of main_arg6 (by decide) (by decide))).trans (V_arg6 m c),
      ((h c).2 main_arg7 (Pipeline.mem_restRefs_of main_arg7 (by decide) (by decide))).trans (V_arg7 m c),
      ((h c).2 main_arg8 (Pipeline.mem_restRefs_of main_arg8 (by decide) (by decide))).trans (V_arg8 m c),
      ((h c).2 main_arg9 (Pipeline.mem_restRefs_of main_arg9 (by decide) (by decide))).trans (V_arg9 m c),
      ((h c).2 main_arg10 (Pipeline.mem_restRefs_of main_arg10 (by decide) (by decide))).trans (V_arg10 m c),
      ((h c).2 main_arg11 (Pipeline.mem_restRefs_of main_arg11 (by decide) (by decide))).trans (V_arg11 m c),
      ((h c).2 main_arg12 (Pipeline.mem_restRefs_of main_arg12 (by decide) (by decide))).trans (V_arg12 m c),
      ((h c).2 main_arg13 (Pipeline.mem_restRefs_of main_arg13 (by decide) (by decide))).trans (V_arg13 m c)⟩)
    (run_main m ρ)

end Cert.KernelIdeal.CellArray

end
-- ==== Proof.LibRowOps.lean ====
/-
  Two reductions of matrices read at an index, on the extended reals.

  * The sum of an `[a, b]` array along its second axis, read at entry `p`, is the sum over `k` of the array's
    entries `(p, k)`: the sum of row `p`.
  * The product of an `[m, k]` matrix with a `[k, n]` matrix, added into a zero accumulator, read at `(p, c)`, is the
    sum over `x` of the left matrix at `(p, x)` times the right matrix at `(x, c)`.  The dimension numbers enter only
    through the four facts that say which operand coordinate is the row, the column and the contracted one.
-/
import Idealize.ShloMosaic.Lib.Pipeline.Value
import Idealize.ShloMosaic.Lib.ValueIdx
import Idealize.ShloMosaic.PureOps.Ideal.Laws

noncomputable section

namespace Cert.LibRowOps

open Idealize.ShloMosaic Idealize.ShloMosaic.ValueIdx

/-- A sum along the second axis of an `[a, b]` array, read at entry `p`: the sum of row `p`. -/
theorem rowSum_apply {a b : ℕ} (src : FVec Ideal ⟨2, ![a, b]⟩ .f32)
    (h : (⟨2, ![a, b]⟩ : Shape).Reduces [(1 : Fin 2)] ⟨1, ![a]⟩) (hφ : FKind.Formats .f32)
    (hacc : (0x00000000#32 : BitVec 32) = FKind.add.neutral .f32 hφ) (p : Fin a) :
    multiReduction .add [(1 : Fin 2)] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun c => Fin.ext (by
      match c with
      | ⟨0, _⟩ => rfl
      | ⟨1, _⟩ => rfl)))

/-- A matrix product into a zero accumulator, read at `(p, c)`: the sum over the contracted coordinate `x` of the left
    operand at `(p, x)` times the right operand at `(x, c)`. -/
theorem matmul_zero_apply {m k n : ℕ} {φ₁ φ₂ : FTy}
    (d : DotDims ⟨2, ![m, k]⟩ ⟨2, ![k, n]⟩ ⟨2, ![m, n]⟩) (prec : Option ContractPrecision)
    (lhs : FVec Ideal ⟨2, ![m, k]⟩ φ₁) (rhs : FVec Ideal ⟨2, ![k, n]⟩ φ₂)
    (hr : d.contr.rank = 1) (hs : d.contr.size ⟨0, by omega⟩ = k)
    (hl0 : ∀ (j : (⟨2, ![m, n]⟩ : Shape).Idx) (q : d.contr.Idx), (d.lhsIdx j q 0).val = (j 0).val)
    (hl1 : ∀ (j : (⟨2, ![m, n]⟩ : Shape).Idx) (q : d.contr.Idx), (d.lhsIdx j q 1).val = (q ⟨0, by omega⟩).val)
    (hr0 : ∀ (j : (⟨2, ![m, n]⟩ : Shape).Idx) (q : d.contr.Idx), (d.rhsIdx j q 0).val = (q ⟨0, by omega⟩).val)
    (hr1 : ∀ (j : (⟨2, ![m, n]⟩ : Shape).Idx) (q : d.contr.Idx), (d.rhsIdx j q 1).val = (j 1).val)
    (p : Fin m) (c : Fin n) :
    FloatOps.matmul d prec lhs rhs (constant ⟨2, ![m, n]⟩ .f32 0x00000000#32) (ix2 p c)
      = ∑ x : Fin k, lhs (ix2 p x) * rhs (ix2 x c) := by
  rw [Ideal.matmul_constant_zero_apply, ← Equiv.sum_comp (contrEquiv1 d k hr hs).symm]
  refine Finset.sum_congr rfl fun x _ => ?_
  have hk := contrEquiv1_symm_val d k hr hs x
  have el : d.lhsIdx (ix2 p c) ((contrEquiv1 d k hr hs).symm x) = ix2 p x := funext fun a => Fin.ext (by
    match a with
    | ⟨0, _⟩ => exact hl0 _ _
    | ⟨1, _⟩ => exact (hl1 _ _).trans hk)
  have er : d.rhsIdx (ix2 p c) ((contrEquiv1 d k hr hs).symm x) = ix2 x c := funext fun a => Fin.ext (by
    match a with
    | ⟨0, _⟩ => exact (hr0 _ _).trans hk
    | ⟨1, _⟩ => exact hr1 _ _)
  rw [el, er]

end Cert.LibRowOps

end
-- ==== Proof.CellDots.lean ====
/-
  The body's six matrix products, read at an entry. Each multiplies a 1024-row block by a weight matrix into a
  zero accumulator, so at the exact instance entry (p, c) is the sum over the contracted coordinate x of
  left(p, x) · right(x, c): the left operand is contracted on its second axis, the right on its first, and no axis
  is a batch axis.
-/
import proofs.«141967_j3573412790665_2_alg».proof.Proof.Gen.KernelIdeal.Skeleton
import proofs.«141967_j3573412790665_2_alg».proof.Proof.LibRowOps

noncomputable section

namespace Cert.KernelIdeal.CellDots

open Idealize.ShloMosaic Idealize.ShloMosaic.ValueIdx Cert.KernelIdeal

/-- The 1024 × 320 by 320 × 384 product at entry (p, c). -/
theorem conIn (lhs : FVec Ideal S1024x320 .bf16) (rhs : FVec Ideal S320x384 .bf16) (p : Fin 1024) (c : Fin 384) :
    matmul dot_S1024x320_S320x384_S1024x384_1_0_0_1_n_n none lhs rhs (constant S1024x384 .f32 0x00000000#32) (ix2 p c)
      = ∑ x : Fin 320, lhs (ix2 p x) * rhs (ix2 x c) :=
  Cert.LibRowOps.matmul_zero_apply (m := 1024) (k := 320) (n := 384) dot_S1024x320_S320x384_S1024x384_1_0_0_1_n_n none lhs rhs rfl rfl
    (fun j q => by
      unfold DotDims.lhsIdx
      rw [dif_neg (show ¬(0 : Fin S1024x320.rank) ∈ dot_S1024x320_S320x384_S1024x384_1_0_0_1_n_n.lhsBatch by decide),
        dif_pos (show (0 : Fin S1024x320.rank) ∈ dot_S1024x320_S320x384_S1024x384_1_0_0_1_n_n.lhsNonContracting by decide)]
      rfl)
    (fun j q => dot_S1024x320_S320x384_S1024x384_1_0_0_1_n_n.lhsIdx_val_of_single rfl j q)
    (fun j q => dot_S1024x320_S320x384_S1024x384_1_0_0_1_n_n.rhsIdx_val_of_single rfl j q)
    (fun j q => by
      unfold DotDims.rhsIdx
      rw [dif_neg (show ¬(1 : Fin S320x384.rank) ∈ dot_S1024x320_S320x384_S1024x384_1_0_0_1_n_n.rhsBatch by decide),
        dif_pos (show (1 : Fin S320x384.rank) ∈ dot_S1024x320_S320x384_S1024x384_1_0_0_1_n_n.rhsNonContracting by decide)]
      rfl)
    p c

/-- The 1024 × 128 by 128 × 384 product at entry (p, c). -/
theorem conHid (lhs : FVec Ideal S1024x128 .bf16) (rhs : FVec Ideal S128x384 .bf16) (p : Fin 1024) (c : Fin 384) :
    matmul dot_S1024x128_S128x384_S1024x384_1_0_0_1_n_n none lhs rhs (constant S1024x384 .f32 0x00000000#32) (ix2 p c)
      = ∑ x : Fin 128, lhs (ix2 p x) * rhs (ix2 x c) :=
  Cert.LibRowOps.matmul_zero_apply (m := 1024) (k := 128) (n := 384) dot_S1024x128_S128x384_S1024x384_1_0_0_1_n_n none lhs rhs rfl rfl
    (fun j q => by
      unfold DotDims.lhsIdx
      rw [dif_neg (show ¬(0 : Fin S1024x128.rank) ∈ dot_S1024x128_S128x384_S1024x384_1_0_0_1_n_n.lhsBatch by decide),
        dif_pos (show (0 : Fin S1024x128.rank) ∈ dot_S1024x128_S128x384_S1024x384_1_0_0_1_n_n.lhsNonContracting by decide)]
      rfl)
    (fun j q => dot_S1024x128_S128x384_S1024x384_1_0_0_1_n_n.lhsIdx_val_of_single rfl j q)
    (fun j q => dot_S1024x128_S128x384_S1024x384_1_0_0_1_n_n.rhsIdx_val_of_single rfl j q)
    (fun j q => by
      unfold DotDims.rhsIdx
      rw [dif_neg (show ¬(1 : Fin S128x384.rank) ∈ dot_S1024x128_S128x384_S1024x384_1_0_0_1_n_n.rhsBatch by decide),
        dif_pos (show (1 : Fin S128x384.rank) ∈ dot_S1024x128_S128x384_S1024x384_1_0_0_1_n_n.rhsNonContracting by decide)]
      rfl)
    p c

/-- The 1024 × 128 by 128 × 8 product at entry (p, c). -/
theorem coOut (lhs : FVec Ideal S1024x128 .bf16) (rhs : FVec Ideal S128x8 .bf16) (p : Fin 1024) (c : Fin 8) :
    matmul dot_S1024x128_S128x8_S1024x8_1_0_0_1_n_n none lhs rhs (constant S1024x8 .f32 0x00000000#32) (ix2 p c)
      = ∑ x : Fin 128, lhs (ix2 p x) * rhs (ix2 x c) :=
  Cert.LibRowOps.matmul_zero_apply (m := 1024) (k := 128) (n := 8) dot_S1024x128_S128x8_S1024x8_1_0_0_1_n_n none lhs rhs rfl rfl
    (fun j q => by
      unfold DotDims.lhsIdx
      rw [dif_neg (show ¬(0 : Fin S1024x128.rank) ∈ dot_S1024x128_S128x8_S1024x8_1_0_0_1_n_n.lhsBatch by decide),
        dif_pos (show (0 : Fin S1024x128.rank) ∈ dot_S1024x128_S128x8_S1024x8_1_0_0_1_n_n.lhsNonContracting by decide)]
      rfl)
    (fun j q => dot_S1024x128_S128x8_S1024x8_1_0_0_1_n_n.lhsIdx_val_of_single rfl j q)
    (fun j q => dot_S1024x128_S128x8_S1024x8_1_0_0_1_n_n.rhsIdx_val_of_single rfl j q)
    (fun j q => by
      unfold DotDims.rhsIdx
      rw [dif_neg (show ¬(1 : Fin S128x8.rank) ∈ dot_S1024x128_S128x8_S1024x8_1_0_0_1_n_n.rhsBatch by decide),
        dif_pos (show (1 : Fin S128x8.rank) ∈ dot_S1024x128_S128x8_S1024x8_1_0_0_1_n_n.rhsNonContracting by decide)]
      rfl)
    p c

/-- The 1024 × 20 by 20 × 768 product at entry (p, c). -/
theorem genIn (lhs : FVec Ideal S1024x20 .bf16) (rhs : FVec Ideal S20x768 .bf16) (p : Fin 1024) (c : Fin 768) :
    matmul dot_S1024x20_S20x768_S1024x768_1_0_0_1_n_n none lhs rhs (constant S1024x768 .f32 0x00000000#32) (ix2 p c)
      = ∑ x : Fin 20, lhs (ix2 p x) * rhs (ix2 x c) :=
  Cert.LibRowOps.matmul_zero_apply (m := 1024) (k := 20) (n := 768) dot_S1024x20_S20x768_S1024x768_1_0_0_1_n_n none lhs rhs rfl rfl
    (fun j q => by
      unfold DotDims.lhsIdx
      rw [dif_neg (show ¬(0 : Fin S1024x20.rank) ∈ dot_S1024x20_S20x768_S1024x768_1_0_0_1_n_n.lhsBatch by decide),
        dif_pos (show (0 : Fin S1024x20.rank) ∈ dot_S1024x20_S20x768_S1024x768_1_0_0_1_n_n.lhsNonContracting by decide)]
      rfl)
    (fun j q => dot_S1024x20_S20x768_S1024x768_1_0_0_1_n_n.lhsIdx_val_of_single rfl j q)
    (fun j q => dot_S1024x20_S20x768_S1024x768_1_0_0_1_n_n.rhsIdx_val_of_single rfl j q)
    (fun j q => by
      unfold DotDims.rhsIdx
      rw [dif_neg (show ¬(1 : Fin S20x768.rank) ∈ dot_S1024x20_S20x768_S1024x768_1_0_0_1_n_n.rhsBatch by decide),
        dif_pos (show (1 : Fin S20x768.rank) ∈ dot_S1024x20_S20x768_S1024x768_1_0_0_1_n_n.rhsNonContracting by decide)]
      rfl)
    p c

/-- The 1024 × 200 by 200 × 768 product at entry (p, c). -/
theorem genHid (lhs : FVec Ideal S1024x200 .bf16) (rhs : FVec Ideal S200x768 .bf16) (p : Fin 1024) (c : Fin 768) :
    matmul dot_S1024x200_S200x768_S1024x768_1_0_0_1_n_n none lhs rhs (constant S1024x768 .f32 0x00000000#32) (ix2 p c)
      = ∑ x : Fin 200, lhs (ix2 p x) * rhs (ix2 x c) :=
  Cert.LibRowOps.matmul_zero_apply (m := 1024) (k := 200) (n := 768) dot_S1024x200_S200x768_S1024x768_1_0_0_1_n_n none lhs rhs rfl rfl
    (fun j q => by
      unfold DotDims.lhsIdx
      rw [dif_neg (show ¬(0 : Fin S1024x200.rank) ∈ dot_S1024x200_S200x768_S1024x768_1_0_0_1_n_n.lhsBatch by decide),
        dif_pos (show (0 : Fin S1024x200.rank) ∈ dot_S1024x200_S200x768_S1024x768_1_0_0_1_n_n.lhsNonContracting by decide)]
      rfl)
    (fun j q => dot_S1024x200_S200x768_S1024x768_1_0_0_1_n_n.lhsIdx_val_of_single rfl j q)
    (fun j q => dot_S1024x200_S200x768_S1024x768_1_0_0_1_n_n.rhsIdx_val_of_single rfl j q)
    (fun j q => by
      unfold DotDims.rhsIdx
      rw [dif_neg (show ¬(1 : Fin S200x768.rank) ∈ dot_S1024x200_S200x768_S1024x768_1_0_0_1_n_n.rhsBatch by decide),
        dif_pos (show (1 : Fin S200x768.rank) ∈ dot_S1024x200_S200x768_S1024x768_1_0_0_1_n_n.rhsNonContracting by decide)]
      rfl)
    p c

/-- The 1024 × 200 by 200 × 64 product at entry (p, c). -/
theorem facOut (lhs : FVec Ideal S1024x200 .bf16) (rhs : FVec Ideal S200x64 .bf16) (p : Fin 1024) (c : Fin 64) :
    matmul dot_S1024x200_S200x64_S1024x64_1_0_0_1_n_n none lhs rhs (constant S1024x64 .f32 0x00000000#32) (ix2 p c)
      = ∑ x : Fin 200, lhs (ix2 p x) * rhs (ix2 x c) :=
  Cert.LibRowOps.matmul_zero_apply (m := 1024) (k := 200) (n := 64) dot_S1024x200_S200x64_S1024x64_1_0_0_1_n_n none lhs rhs rfl rfl
    (fun j q => by
      unfold DotDims.lhsIdx
      rw [dif_neg (show ¬(0 : Fin S1024x200.rank) ∈ dot_S1024x200_S200x64_S1024x64_1_0_0_1_n_n.lhsBatch by decide),
        dif_pos (show (0 : Fin S1024x200.rank) ∈ dot_S1024x200_S200x64_S1024x64_1_0_0_1_n_n.lhsNonContracting by decide)]
      rfl)
    (fun j q => dot_S1024x200_S200x64_S1024x64_1_0_0_1_n_n.lhsIdx_val_of_single rfl j q)
    (fun j q => dot_S1024x200_S200x64_S1024x64_1_0_0_1_n_n.rhsIdx_val_of_single rfl j q)
    (fun j q => by
      unfold DotDims.rhsIdx
      rw [dif_neg (show ¬(1 : Fin S200x64.rank) ∈ dot_S1024x200_S200x64_S1024x64_1_0_0_1_n_n.rhsBatch by decide),
        dif_pos (show (1 : Fin S200x64.rank) ∈ dot_S1024x200_S200x64_S1024x64_1_0_0_1_n_n.rhsNonContracting by decide)]
      rfl)
    p c

end Cert.KernelIdeal.CellDots

end
-- ==== Proof.CellIdx.lean ====
/-
  Layout operations on matrices, read at an entry named by its two coordinates.

  A slice of columns [off, off + m1) of an n × m matrix has at (p, e) the matrix's entry (p, off + e); when the
  slice starts at column 0 the entry is (p, e). A one-row matrix [1, n] copied down m rows has at (p, c) the row's
  entry (0, c). Two indices with equal coordinates read the same entry.
-/
import Idealize.ShloMosaic.Lib.Pipeline.Value
import Idealize.ShloMosaic.Lib.ValueIdx

noncomputable section

namespace Cert.CellIdx

open Idealize.ShloMosaic Idealize.ShloMosaic.ValueIdx

variable {α : Type}

/-- An entry of a matrix depends on the index only through its two coordinates. -/
theorem at2 {n m : ℕ} (a : (⟨2, ![n, m]⟩ : Shape).Idx → α) (i j : (⟨2, ![n, m]⟩ : Shape).Idx)
    (h0 : i 0 = j 0) (h1 : i 1 = j 1) : a i = a j :=
  congrArg a (funext fun d => by
    match d with
    | ⟨0, _⟩ => exact h0
    | ⟨1, _⟩ => exact h1)

/-- An entry of a vector depends on the index only through its coordinate. -/
theorem at1 {n : ℕ} (a : (⟨1, ![n]⟩ : Shape).Idx → α) (i j : (⟨1, ![n]⟩ : Shape).Idx) (h0 : i 0 = j 0) : a i = a j :=
  congrArg a (funext fun d => by
    match d with
    | ⟨0, _⟩ => exact h0)

/-- Columns `off … off + m1 − 1` of a matrix, at `(p, e)`: the matrix at `(p, off + e)`. -/
theorem cols_apply {n m m1 : ℕ} (off : ℕ) (x : (⟨2, ![n, m]⟩ : Shape).Idx → α)
    (h : (⟨2, ![n, m]⟩ : Shape).Slices ![0, off] ⟨2, ![n, m1]⟩) (p : Fin n) (e : Fin m1) (hb : off + e.val < m) :
    extractStridedSlice ⟨2, ![n, m1]⟩ ![0, off] x h (ix2 p e) = x (ix2 p ⟨off + e.val, hb⟩) :=
  extractStridedSlice_apply ![0, off] x h (ix2 p e) (ix2 p ⟨off + e.val, hb⟩) (fun a => by
    match a with
    | ⟨0, _⟩ => show p.val = 0 + p.val; omega
    | ⟨1, _⟩ => rfl)

/-- The first `m1` columns of a matrix, at `(p, e)`: the matrix at `(p, e)`. -/
theorem cols0_apply {n m m1 : ℕ} (x : (⟨2, ![n, m]⟩ : Shape).Idx → α)
    (h : (⟨2, ![n, m]⟩ : Shape).Slices ![0, 0] ⟨2, ![n, m1]⟩) (p : Fin n) (e : Fin m1) (hb : e.val < m) :
    extractStridedSlice ⟨2, ![n, m1]⟩ ![0, 0] x h (ix2 p e) = x (ix2 p ⟨e.val, hb⟩) :=
  extractStridedSlice_apply ![0, 0] x h (ix2 p e) (ix2 p ⟨e.val, hb⟩) (fun a => by
    match a with
    | ⟨0, _⟩ => show p.val = 0 + p.val; omega
    | ⟨1, _⟩ => show e.val = 0 + e.val; omega)

/-- A one-row matrix copied down the rows, at `(p, c)`: the row at `(0, c)`. -/
theorem rows_apply {m n : ℕ} (hn : n ≠ 1) (x : (⟨2, ![1, n]⟩ : Shape).Idx → α)
    (h : (⟨2, ![1, n]⟩ : Shape).Broadcasts ⟨2, ![m, n]⟩) (p : Fin m) (c : Fin n) :
    broadcastTo ⟨2, ![m, n]⟩ x h (ix2 p c) = x (ix2 (0 : Fin 1) c) :=
  broadcastTo_apply x h (ix2 p c) (ix2 (0 : Fin 1) c) (fun a => by
    match a with
    | ⟨0, _⟩ => show (0 : ℕ) = if (1 : ℕ) = 1 then 0 else _; rw [if_pos rfl]
    | ⟨1, _⟩ => show c.val = if n = 1 then 0 else c.val; rw [if_neg hn])

end Cert.CellIdx

end
-- ==== Proof.LibLogistic.lean ====
/-
  The logistic function written out as a quotient, on the extended reals.

  Array programs often spell the logistic function as `1 / (1 + exp (−y))`, a negation, an exponential, a sum and a
  quotient, with each `1` given as the binary32 word `0x3F800000`.  On the extended reals that expression IS the
  logistic function at every argument, the two infinities included (`−∞ ↦ 0`, `+∞ ↦ 1`): the word denotes the number
  one, and the quotient, the sum and the exponential are the exact ones.  No finiteness is asked of `y`.
-/
import Idealize.ShloMosaic.PureOps.Ideal

noncomputable section

namespace Cert.LibLogistic

open Idealize.ShloMosaic

/-- The binary32 word of `1.0` denotes the extended real `1`. -/
theorem one_word : Ideal.ofBits .f32 0x3F800000#32 = 1 := by
  simp [Ideal.ofBits, Ideal.ieee, -EReal.coe_mul]; norm_num

/-- `1 / (1 + exp (−y))` with both `1`s given by their binary32 word is the logistic function of `y`, for every
    extended real `y`. -/
theorem logistic_spelt (y : EReal) :
    Ideal.div (Ideal.ofBits .f32 0x3F800000#32) (Ideal.ofBits .f32 0x3F800000#32 + Ideal.exp (-y)) = Ideal.logistic y := by
  rw [one_word]; rfl

end Cert.LibLogistic

end
-- ==== Proof.CellScalar.lean ====
/-
  One update of one entry of a GRU state, on the extended reals.

  With r = σ(i_r + h_r), z = σ(i_z + h_z), n = tanh(i_n + r · h_n) the new entry is (1 − z) · n + z · h, then
  clipped to [−5, 5]. One program takes σ to be the logistic function; the other spells it 1 / (1 + exp(−y)) with
  both 1s the binary32 word of 1.0. The two spellings are one function on every extended real, so the two
  updates agree with no assumption on the entries.
-/
import Idealize.ShloMosaic.PureOps.Ideal
import proofs.«141967_j3573412790665_2_alg».proof.Proof.LibLogistic

noncomputable section

namespace Cert.CellScalar

open Idealize.ShloMosaic

/-- The binary32 word of 1.0, as an extended real. -/
abbrev w1 : EReal := Ideal.ofBits .f32 0x3F800000#32

/-- σ spelt out: 1 / (1 + exp(−y)). -/
abbrev sigSpelt (y : EReal) : EReal := Ideal.div w1 (w1 + Ideal.exp (-y))

/-- The update with the logistic function. -/
def step (ir hr iz hz inn hn h : EReal) : EReal :=
  (w1 - Ideal.logistic (iz + hz)) * Ideal.tanh (inn + Ideal.logistic (ir + hr) * hn) + Ideal.logistic (iz + hz) * h

/-- The update with σ spelt out. -/
def stepSpelt (ir hr iz hz inn hn h : EReal) : EReal :=
  (w1 - sigSpelt (iz + hz)) * Ideal.tanh (inn + sigSpelt (ir + hr) * hn) + sigSpelt (iz + hz) * h

theorem sigSpelt_eq (y : EReal) : sigSpelt y = Ideal.logistic y := Cert.LibLogistic.logistic_spelt y

/-- The two updates are one. -/
theorem stepSpelt_eq (ir hr iz hz inn hn h : EReal) : stepSpelt ir hr iz hz inn hn h = step ir hr iz hz inn hn h := by
  unfold stepSpelt step
  rw [sigSpelt_eq, sigSpelt_eq]

/-- Clipping to the interval between the words of −5.0 and 5.0. -/
def clip (v : EReal) : EReal :=
  min (Ideal.ofBits .f32 0x40A00000#32) (max (Ideal.ofBits .f32 0xC0A00000#32) v)

end Cert.CellScalar

end
-- ==== Proof.LibConcat2.lean ====
/-
  A concatenation of TWO arrays along the last axis, read at an index: a column below the first piece's width
  comes from the first piece at that column, a column at or above it from the second piece at the column less that
  width. Stated at rank 3 (pieces `[n0, n1, m1]` and `[n0, n1, m2]`) and at rank 2 (pieces `[n0, m1]` and
  `[n0, m2]`), with every index written by its coordinates.
-/
import Idealize.ShloMosaic.Lib.Pipeline.Value
import Idealize.ShloMosaic.Lib.ValueIdx

namespace Cert.LibConcat2

open Idealize.ShloMosaic Idealize.ShloMosaic.ValueIdx

variable {α : Type}

/-- Rank 3, a column of the first piece. -/
theorem last3_left {n0 n1 m1 m2 m : ℕ} (x : (⟨3, ![n0, n1, m1]⟩ : Shape).Idx → α) (y : (⟨3, ![n0, n1, m2]⟩ : Shape).Idx → α)
    (h : Shape.Concatenates [(⟨3, ![n0, n1, m1]⟩ : Shape), ⟨3, ![n0, n1, m2]⟩] ⟨3, ![n0, n1, m]⟩ 2)
    (b : Fin n0) (i : Fin n1) (e : Fin m) (he : e.val < m1) :
    concatenate ⟨3, ![n0, n1, m]⟩ 2 [⟨⟨3, ![n0, n1, m1]⟩, x⟩, ⟨⟨3, ![n0, n1, m2]⟩, y⟩] h (ix3 b i e)
      = x (ix3 b i ⟨e.val, he⟩) :=
  concatenate_apply_piece (t := ⟨3, ![n0, n1, m]⟩) (2 : Fin 3) [⟨⟨3, ![n0, n1, m1]⟩, x⟩, ⟨⟨3, ![n0, n1, m2]⟩, y⟩] h (ix3 b i e) 0 Nat.zero_lt_two _ x rfl rfl 0 rfl (ix3 b i ⟨e.val, he⟩)
    (fun c hc => by
      match c with
      | ⟨0, _⟩ => rfl
      | ⟨1, _⟩ => rfl
      | ⟨2, _⟩ => exact absurd rfl hc)
    (Nat.zero_add _)

/-- Rank 3, a column of the second piece. -/
theorem last3_right {n0 n1 m1 m2 m : ℕ} (x : (⟨3, ![n0, n1, m1]⟩ : Shape).Idx → α) (y : (⟨3, ![n0, n1, m2]⟩ : Shape).Idx → α)
    (h : Shape.Concatenates [(⟨3, ![n0, n1, m1]⟩ : Shape), ⟨3, ![n0, n1, m2]⟩] ⟨3, ![n0, n1, m]⟩ 2)
    (b : Fin n0) (i : Fin n1) (e : Fin m) (he : m1 ≤ e.val) (he' : e.val - m1 < m2) :
    concatenate ⟨3, ![n0, n1, m]⟩ 2 [⟨⟨3, ![n0, n1, m1]⟩, x⟩, ⟨⟨3, ![n0, n1, m2]⟩, y⟩] h (ix3 b i e)
      = y (ix3 b i ⟨e.val - m1, he'⟩) :=
  concatenate_apply_piece (t := ⟨3, ![n0, n1, m]⟩) (2 : Fin 3) [⟨⟨3, ![n0, n1, m1]⟩, x⟩, ⟨⟨3, ![n0, n1, m2]⟩, y⟩] h (ix3 b i e) 1 Nat.one_lt_two _ y rfl rfl m1 (by simp) (ix3 b i ⟨e.val - m1, he'⟩)
    (fun c hc => by
      match c with
      | ⟨0, _⟩ => rfl
      | ⟨1, _⟩ => rfl
      | ⟨2, _⟩ => exact absurd rfl hc)
    (by show m1 + (e.val - m1) = e.val; omega)

/-- Rank 2, a column of the first piece. -/
theorem last2_left {n0 m1 m2 m : ℕ} (x : (⟨2, ![n0, m1]⟩ : Shape).Idx → α) (y : (⟨2, ![n0, m2]⟩ : Shape).Idx → α)
    (h : Shape.Concatenates [(⟨2, ![n0, m1]⟩ : Shape), ⟨2, ![n0, m2]⟩] ⟨2, ![n0, m]⟩ 1)
    (i : Fin n0) (e : Fin m) (he : e.val < m1) :
    concatenate ⟨2, ![n0, m]⟩ 1 [⟨⟨2, ![n0, m1]⟩, x⟩, ⟨⟨2, ![n0, m2]⟩, y⟩] h (ix2 i e)
      = x (ix2 i ⟨e.val, he⟩) :=
  concatenate_apply_piece (t := ⟨2, ![n0, m]⟩) (1 : Fin 2) [⟨⟨2, ![n0, m1]⟩, x⟩, ⟨⟨2, ![n0, m2]⟩, y⟩] h (ix2 i e) 0 Nat.zero_lt_two _ x rfl rfl 0 rfl (ix2 i ⟨e.val, he⟩)
    (fun c hc => by
      match c with
      | ⟨0, _⟩ => rfl
      | ⟨1, _⟩ => exact absurd rfl hc)
    (Nat.zero_add _)

/-- Rank 2, a column of the second piece. -/
theorem last2_right {n0 m1 m2 m : ℕ} (x : (⟨2, ![n0, m1]⟩ : Shape).Idx → α) (y : (⟨2, ![n0, m2]⟩ : Shape).Idx → α)
    (h : Shape.Concatenates [(⟨2, ![n0, m1]⟩ : Shape), ⟨2, ![n0, m2]⟩] ⟨2, ![n0, m]⟩ 1)
    (i : Fin n0) (e : Fin m) (he : m1 ≤ e.val) (he' : e.val - m1 < m2) :
    concatenate ⟨2, ![n0, m]⟩ 1 [⟨⟨2, ![n0, m1]⟩, x⟩, ⟨⟨2, ![n0, m2]⟩, y⟩] h (ix2 i e)
      = y (ix2 i ⟨e.val - m1, he'⟩) :=
  concatenate_apply_piece (t := ⟨2, ![n0, m]⟩) (1 : Fin 2) [⟨⟨2, ![n0, m1]⟩, x⟩, ⟨⟨2, ![n0, m2]⟩, y⟩] h (ix2 i e) 1 Nat.one_lt_two _ y rfl rfl m1 (by simp) (ix2 i ⟨e.val - m1, he'⟩)
    (fun c hc => by
      match c with
      | ⟨0, _⟩ => rfl
      | ⟨1, _⟩ => exact absurd rfl hc)
    (by show m1 + (e.val - m1) = e.val; omega)

end Cert.LibConcat2
-- ==== Proof.CellCon.lean ====
/-
  The controller cell of the body, read at an entry, against the reference's controller stages.

  Row p of a block is row `row p` of the whole arrays. The controller's input row is x's first 256 columns beside
  h0's last 64; its two pre-activations are that row times the transposed input weights plus a bias, and the state
  row (h0's columns 200 … 327) times the transposed hidden weights plus a bias. A product over a block's row is the
  same sum over the contracted coordinate as the product over the whole array's row, the weights being the same
  numbers read transposed. The gates then combine entry by entry, and the result is clipped.
-/
import proofs.«141967_j3573412790665_2_alg».proof.Proof.Gen.KernelIdeal.Skeleton
import proofs.«141967_j3573412790665_2_alg».proof.Proof.Gen.ReferenceIdeal.Read
import proofs.«141967_j3573412790665_2_alg».proof.Proof.CellDots
import proofs.«141967_j3573412790665_2_alg».proof.Proof.CellIdx
import proofs.«141967_j3573412790665_2_alg».proof.Proof.CellScalar
import proofs.«141967_j3573412790665_2_alg».proof.Proof.LibConcat2

noncomputable section

namespace Cert.KernelIdeal.CellCon

open Idealize.ShloMosaic Idealize.ShloMosaic.ValueIdx Cert.KernelIdeal Cert.KernelIdeal.Gen Cert.ReferenceIdeal.Read
open Cert.CellIdx Cert.CellScalar

variable (X0 : FVec Ideal S1024x272 .f32) (X1 : FVec Ideal S1024x420 .f32)
  (W7 : FVec Ideal S320x384 .bf16) (W8 : FVec Ideal S128x384 .bf16) (B9 B10 : FVec Ideal S1x384 .f32)
  (a0 : FVec Ideal Cert.ReferenceIdeal.S65536x272 .f32) (a1 : FVec Ideal Cert.ReferenceIdeal.S65536x420 .f32) (a7 : FVec Ideal Cert.ReferenceIdeal.S384x320 .f32)
  (a8 : FVec Ideal Cert.ReferenceIdeal.S384x128 .f32) (a9 a10 : FVec Ideal Cert.ReferenceIdeal.S384 .f32) (row : Fin 1024 → Fin 65536)

/-! ## The body's controller values as functions of its loaded blocks -/

/-- The controller's input rows: x's first 256 columns beside h0's factor columns. -/
def conX : FVec Ideal S1024x320 .f32 :=
  concatenate S1024x320 1 [⟨S1024x256, extractStridedSlice S1024x256 ![0, 0] X0 slices_S1024x272_o0_0_S1024x256⟩,
    ⟨S1024x64, extractStridedSlice S1024x64 ![0, 356] X1 slices_S1024x420_o0_356_S1024x64⟩] concatenates_S1024x256_S1024x64_S1024x320_d1

/-- The controller's state rows. -/
def conH : FVec Ideal S1024x128 .f32 := extractStridedSlice S1024x128 ![0, 200] X1 slices_S1024x420_o0_200_S1024x128

/-- The input pre-activation: input rows times weights, plus the bias row. -/
def conGi : FVec Ideal S1024x384 .f32 :=
  addf (matmul dot_S1024x320_S320x384_S1024x384_1_0_0_1_n_n none (truncf .bf16 (conX X0 X1) bitsLt_bf16_f32) (shapeCast S320x384 W7 shapeCasts_S320x384_S320x384) (constant S1024x384 .f32 0x00000000#32))
    (broadcastTo S1024x384 (shapeCast S1x384 B9 shapeCasts_S1x384_S1x384) broadcasts_S1x384_S1024x384)

/-- The hidden pre-activation: state rows times weights, plus the bias row. -/
def conGh : FVec Ideal S1024x384 .f32 :=
  addf (matmul dot_S1024x128_S128x384_S1024x384_1_0_0_1_n_n none (truncf .bf16 (conH X1) bitsLt_bf16_f32) (shapeCast S128x384 W8 shapeCasts_S128x384_S128x384) (constant S1024x384 .f32 0x00000000#32))
    (broadcastTo S1024x384 (shapeCast S1x384 B10 shapeCasts_S1x384_S1x384) broadcasts_S1x384_S1024x384)

/-- The gated update on whole blocks: gates of width 128 cut from pre-activations of width 384. -/
def gru128 (gi gh : FVec Ideal S1024x384 .f32) (h : FVec Ideal S1024x128 .f32) : FVec Ideal S1024x128 .f32 :=
  addf (mulf (subf (broadcast S1024x128 (Scalar.ofBits .f32 0x3F800000#32))
        (logistic (addf (extractStridedSlice S1024x128 ![0, 128] gi slices_S1024x384_o0_128_S1024x128) (extractStridedSlice S1024x128 ![0, 128] gh slices_S1024x384_o0_128_S1024x128))))
      (tanh (addf (extractStridedSlice S1024x128 ![0, 256] gi slices_S1024x384_o0_256_S1024x128)
        (mulf (logistic (addf (extractStridedSlice S1024x128 ![0, 0] gi slices_S1024x384_o0_0_S1024x128) (extractStridedSlice S1024x128 ![0, 0] gh slices_S1024x384_o0_0_S1024x128)))
          (extractStridedSlice S1024x128 ![0, 256] gh slices_S1024x384_o0_256_S1024x128)))))
    (mulf (logistic (addf (extractStridedSlice S1024x128 ![0, 128] gi slices_S1024x384_o0_128_S1024x128) (extractStridedSlice S1024x128 ![0, 128] gh slices_S1024x384_o0_128_S1024x128))) h)

/-- The body's unclipped controller state is that update of the two pre-activations and the state rows. -/
theorem pay5_eq : k0_pay5 (F := Ideal) X1 X0 W7 B9 W8 B10 = gru128 (conGi X0 X1 W7 B9) (conGh X1 W8 B10) (conH X1) := rfl

/-! ## Entry by entry -/

/-- The update at `(p, e)` is the scalar step of the six gate entries and the state entry. -/
theorem gru128_apply (gi gh : FVec Ideal S1024x384 .f32) (h : FVec Ideal S1024x128 .f32) (p : Fin 1024) (e : Fin 128) :
    gru128 gi gh h (ix2 p e)
      = step (gi (ix2 p ⟨e.val, by have := e.isLt; omega⟩)) (gh (ix2 p ⟨e.val, by have := e.isLt; omega⟩))
          (gi (ix2 p ⟨128 + e.val, by have := e.isLt; omega⟩)) (gh (ix2 p ⟨128 + e.val, by have := e.isLt; omega⟩))
          (gi (ix2 p ⟨256 + e.val, by have := e.isLt; omega⟩)) (gh (ix2 p ⟨256 + e.val, by have := e.isLt; omega⟩)) (h (ix2 p e)) := by
  have e0i := cols0_apply (n := 1024) (m := 384) (m1 := 128) gi slices_S1024x384_o0_0_S1024x128 p e (by have := e.isLt; omega)
  have e0h := cols0_apply (n := 1024) (m := 384) (m1 := 128) gh slices_S1024x384_o0_0_S1024x128 p e (by have := e.isLt; omega)
  have e1i := cols_apply (n := 1024) (m := 384) (m1 := 128) 128 gi slices_S1024x384_o0_128_S1024x128 p e (by have := e.isLt; omega)
  have e1h := cols_apply (n := 1024) (m := 384) (m1 := 128) 128 gh slices_S1024x384_o0_128_S1024x128 p e (by have := e.isLt; omega)
  have e2i := cols_apply (n := 1024) (m := 384) (m1 := 128) 256 gi slices_S1024x384_o0_256_S1024x128 p e (by have := e.isLt; omega)
  have e2h := cols_apply (n := 1024) (m := 384) (m1 := 128) 256 gh slices_S1024x384_o0_256_S1024x128 p e (by have := e.isLt; omega)
  rw [← e0i, ← e0h, ← e1i, ← e1h, ← e2i, ← e2h]
  rfl

/-- The input rows at `(p, x)` are the reference's joined rows at `(row p, x)`. -/
theorem conX_eq (h0 : ∀ (p : Fin 1024) (q : Fin 272), X0 (ix2 p q) = a0 (ix2 (row p) q)) (h1 : ∀ (p : Fin 1024) (q : Fin 420), X1 (ix2 p q) = a1 (ix2 (row p) q)) (p : Fin 1024) (x : Fin 320) :
    conX X0 X1 (ix2 p x) = val_main_v5 (F := Ideal) a0 a1 (ix2 (row p) x) := by
  unfold conX val_main_v5
  by_cases hx : x.val < 256
  · refine (Cert.LibConcat2.last2_left (n0 := 1024) (m1 := 256) (m2 := 64) (m := 320) _ _ _ p x hx).trans ?_
    refine Eq.trans ?_ (Cert.LibConcat2.last2_left (n0 := 65536) (m1 := 256) (m2 := 64) (m := 320) _ _ _ (row p) x hx).symm
    refine (cols0_apply (n := 1024) (m := 272) (m1 := 256) X0 _ p ⟨x.val, hx⟩ (by show x.val < 272; omega)).trans ?_
    refine Eq.trans ?_ (val_main_v3_apply (F := Ideal) a0 _).symm
    exact (h0 p _).trans (at2 (n := 65536) (m := 272) a0 _ _ rfl rfl)
  · have hx1 : 256 ≤ x.val := by omega
    have hx2 : x.val - 256 < 64 := by have := x.isLt; omega
    refine (Cert.LibConcat2.last2_right (n0 := 1024) (m1 := 256) (m2 := 64) (m := 320) _ _ _ p x hx1 hx2).trans ?_
    refine Eq.trans ?_ (Cert.LibConcat2.last2_right (n0 := 65536) (m1 := 256) (m2 := 64) (m := 320) _ _ _ (row p) x hx1 hx2).symm
    refine (cols_apply (n := 1024) (m := 420) (m1 := 64) 356 X1 _ p ⟨x.val - 256, hx2⟩ (by show 356 + (x.val - 256) < 420; omega)).trans ?_
    refine Eq.trans ?_ (val_main_v2_apply (F := Ideal) a1 _).symm
    exact (h1 p _).trans (at2 (n := 65536) (m := 420) a1 _ _ rfl rfl)

/-- The state rows at `(p, e)` are h0's columns 200 … 327 at row `row p`. -/
theorem conH_eq (h1 : ∀ (p : Fin 1024) (q : Fin 420), X1 (ix2 p q) = a1 (ix2 (row p) q)) (p : Fin 1024) (e : Fin 128) :
    conH X1 (ix2 p e) = val_main_v1 (F := Ideal) a1 (ix2 (row p) e) := by
  unfold conH
  refine (cols_apply (n := 1024) (m := 420) (m1 := 128) 200 X1 _ p e (by have := e.isLt; omega)).trans ?_
  refine Eq.trans ?_ (val_main_v1_apply (F := Ideal) a1 _).symm
  exact (h1 p _).trans (at2 (n := 65536) (m := 420) a1 _ _ rfl rfl)

/-- The input pre-activation at `(p, n)` is the reference's at `(row p, n)`. -/
theorem conGi_eq (h0 : ∀ (p : Fin 1024) (q : Fin 272), X0 (ix2 p q) = a0 (ix2 (row p) q)) (h1 : ∀ (p : Fin 1024) (q : Fin 420), X1 (ix2 p q) = a1 (ix2 (row p) q)) (h7 : ∀ (x : Fin 320) (n : Fin 384), W7 (ix2 x n) = a7 (ix2 n x)) (h9 : ∀ n : Fin 384, B9 (ix2 (0 : Fin 1) n) = a9 (ix1 n)) (p : Fin 1024) (n : Fin 384) :
    conGi X0 X1 W7 B9 (ix2 p n) = val_main_v10 (F := Ideal) a0 a1 a7 a9 (ix2 (row p) n) := by
  have hm : matmul dot_S1024x320_S320x384_S1024x384_1_0_0_1_n_n none (truncf .bf16 (conX X0 X1) bitsLt_bf16_f32) (shapeCast S320x384 W7 shapeCasts_S320x384_S320x384) (constant S1024x384 .f32 0x00000000#32) (ix2 p n)
      = val_main_v7 (F := Ideal) a0 a1 a7 (ix2 (row p) n) := by
    rw [CellDots.conIn, val_main_v7_apply]
    refine Finset.sum_congr rfl fun x _ => ?_
    have hl : truncf .bf16 (conX X0 X1) bitsLt_bf16_f32 (ix2 p x) = val_main_v5 (F := Ideal) a0 a1 (lidx_main_v7 (ix2 (row p) n) x) :=
      (conX_eq X0 X1 a0 a1 row h0 h1 p x).trans (at2 (n := 65536) (m := 320) (val_main_v5 (F := Ideal) a0 a1) _ _ rfl rfl)
    have hr : shapeCast S320x384 W7 shapeCasts_S320x384_S320x384 (ix2 x n) = val_main_v6 (F := Ideal) a7 (ridx_main_v7 (ix2 (row p) n) x) := by
      rw [shapeCast_self, val_main_v6_apply, h7 x n]
      exact at2 (n := 384) (m := 320) a7 _ _ rfl rfl
    rw [hl, hr]
  have hb : broadcastTo S1024x384 (shapeCast S1x384 B9 shapeCasts_S1x384_S1x384) broadcasts_S1x384_S1024x384 (ix2 p n)
      = val_main_v9 (F := Ideal) a9 (ix2 (row p) n) := by
    rw [rows_apply (m := 1024) (n := 384) (by decide), shapeCast_self, h9 n, val_main_v9_apply, val_main_v8_apply]
    exact at1 (n := 384) a9 _ _ rfl
  exact congrArg₂ FloatOps.addf hm hb

/-- The hidden pre-activation at `(p, n)` is the reference's at `(row p, n)`. -/
theorem conGh_eq (h1 : ∀ (p : Fin 1024) (q : Fin 420), X1 (ix2 p q) = a1 (ix2 (row p) q)) (h8 : ∀ (x : Fin 128) (n : Fin 384), W8 (ix2 x n) = a8 (ix2 n x)) (h10 : ∀ n : Fin 384, B10 (ix2 (0 : Fin 1) n) = a10 (ix1 n)) (p : Fin 1024) (n : Fin 384) :
    conGh X1 W8 B10 (ix2 p n) = val_main_v15 (F := Ideal) a1 a8 a10 (ix2 (row p) n) := by
  have hm : matmul dot_S1024x128_S128x384_S1024x384_1_0_0_1_n_n none (truncf .bf16 (conH X1) bitsLt_bf16_f32) (shapeCast S128x384 W8 shapeCasts_S128x384_S128x384) (constant S1024x384 .f32 0x00000000#32) (ix2 p n)
      = val_main_v12 (F := Ideal) a1 a8 (ix2 (row p) n) := by
    rw [CellDots.conHid, val_main_v12_apply]
    refine Finset.sum_congr rfl fun x _ => ?_
    have hl : truncf .bf16 (conH X1) bitsLt_bf16_f32 (ix2 p x) = val_main_v1 (F := Ideal) a1 (lidx_main_v12 (ix2 (row p) n) x) :=
      (conH_eq X1 a1 row h1 p x).trans (at2 (n := 65536) (m := 128) (val_main_v1 (F := Ideal) a1) _ _ rfl rfl)
    have hr : shapeCast S128x384 W8 shapeCasts_S128x384_S128x384 (ix2 x n) = val_main_v11 (F := Ideal) a8 (ridx_main_v12 (ix2 (row p) n) x) := by
      rw [shapeCast_self, val_main_v11_apply, h8 x n]
      exact at2 (n := 384) (m := 128) a8 _ _ rfl rfl
    rw [hl, hr]
  have hb : broadcastTo S1024x384 (shapeCast S1x384 B10 shapeCasts_S1x384_S1x384) broadcasts_S1x384_S1024x384 (ix2 p n)
      = val_main_v14 (F := Ideal) a10 (ix2 (row p) n) := by
    rw [rows_apply (m := 1024) (n := 384) (by decide), shapeCast_self, h10 n, val_main_v14_apply, val_main_v13_apply]
    exact at1 (n := 384) a10 _ _ rfl
  exact congrArg₂ FloatOps.addf hm hb

/-- The reference's unclipped controller state at an index is the spelt-out step of its gate entries. -/
theorem ref_conRaw (i : Cert.ReferenceIdeal.S65536x128.Idx) :
    val_main_v43 (F := Ideal) a0 a1 a7 a8 a9 a10 i
      = stepSpelt (val_main_v10 (F := Ideal) a0 a1 a7 a9 (idx_main_v16 i)) (val_main_v15 (F := Ideal) a1 a8 a10 (idx_main_v19 i))
          (val_main_v10 (F := Ideal) a0 a1 a7 a9 (idx_main_v17 i)) (val_main_v15 (F := Ideal) a1 a8 a10 (idx_main_v20 i))
          (val_main_v10 (F := Ideal) a0 a1 a7 a9 (idx_main_v18 i)) (val_main_v15 (F := Ideal) a1 a8 a10 (idx_main_v21 i))
          (val_main_v1 (F := Ideal) a1 i) := by
  rw [← val_main_v16_apply, ← val_main_v19_apply, ← val_main_v17_apply, ← val_main_v20_apply, ← val_main_v18_apply, ← val_main_v21_apply]
  rfl

/-- The unclipped controller state: body at `(p, e)`, reference at `(row p, e)`. -/
theorem conRaw_eq (h0 : ∀ (p : Fin 1024) (q : Fin 272), X0 (ix2 p q) = a0 (ix2 (row p) q)) (h1 : ∀ (p : Fin 1024) (q : Fin 420), X1 (ix2 p q) = a1 (ix2 (row p) q)) (h7 : ∀ (x : Fin 320) (n : Fin 384), W7 (ix2 x n) = a7 (ix2 n x)) (h8 : ∀ (x : Fin 128) (n : Fin 384), W8 (ix2 x n) = a8 (ix2 n x)) (h9 : ∀ n : Fin 384, B9 (ix2 (0 : Fin 1) n) = a9 (ix1 n)) (h10 : ∀ n : Fin 384, B10 (ix2 (0 : Fin 1) n) = a10 (ix1 n)) (p : Fin 1024) (e : Fin 128) :
    k0_pay5 (F := Ideal) X1 X0 W7 B9 W8 B10 (ix2 p e) = val_main_v43 (F := Ideal) a0 a1 a7 a8 a9 a10 (ix2 (row p) e) := by
  have hi := conGi_eq X0 X1 W7 B9 a0 a1 a7 a9 row h0 h1 h7 h9 p
  have hh := conGh_eq X1 W8 B10 a1 a8 a10 row h1 h8 h10 p
  rw [pay5_eq, gru128_apply, ref_conRaw, stepSpelt_eq, conH_eq X1 a1 row h1 p e]
  have k16 : idx_main_v16 (ix2 (row p) e) = ix2 (row p) ⟨e.val, by have := e.isLt; omega⟩ := funext fun a => by
    match a with
    | ⟨0, _⟩ => rfl
    | ⟨1, _⟩ => rfl
  have k19 : idx_main_v19 (ix2 (row p) e) = ix2 (row p) ⟨e.val, by have := e.isLt; omega⟩ := funext fun a => by
    match a with
    | ⟨0, _⟩ => rfl
    | ⟨1, _⟩ => rfl
  have k17 : idx_main_v17 (ix2 (row p) e) = ix2 (row p) ⟨128 + e.val, by have := e.isLt; omega⟩ := funext fun a => by
    match a with
    | ⟨0, _⟩ => rfl
    | ⟨1, _⟩ => rfl
  have k20 : idx_main_v20 (ix2 (row p) e) = ix2 (row p) ⟨128 + e.val, by have := e.isLt; omega⟩ := funext fun a => by
    match a with
    | ⟨0, _⟩ => rfl
    | ⟨1, _⟩ => rfl
  have k18 : idx_main_v18 (ix2 (row p) e) = ix2 (row p) ⟨256 + e.val, by have := e.isLt; omega⟩ := funext fun a => by
    match a with
    | ⟨0, _⟩ => rfl
    | ⟨1, _⟩ => rfl
  have k21 : idx_main_v21 (ix2 (row p) e) = ix2 (row p) ⟨256 + e.val, by have := e.isLt; omega⟩ := funext fun a => by
    match a with
    | ⟨0, _⟩ => rfl
    | ⟨1, _⟩ => rfl
  rw [k16, k19, k17, k20, k18, k21]
  simp only [hi, hh]

/-- The clipped controller state: body at `(p, e)`, reference at `(row p, e)`. -/
theorem con_eq (h0 : ∀ (p : Fin 1024) (q : Fin 272), X0 (ix2 p q) = a0 (ix2 (row p) q)) (h1 : ∀ (p : Fin 1024) (q : Fin 420), X1 (ix2 p q) = a1 (ix2 (row p) q)) (h7 : ∀ (x : Fin 320) (n : Fin 384), W7 (ix2 x n) = a7 (ix2 n x)) (h8 : ∀ (x : Fin 128) (n : Fin 384), W8 (ix2 x n) = a8 (ix2 n x)) (h9 : ∀ n : Fin 384, B9 (ix2 (0 : Fin 1) n) = a9 (ix1 n)) (h10 : ∀ n : Fin 384, B10 (ix2 (0 : Fin 1) n) = a10 (ix1 n)) (p : Fin 1024) (e : Fin 128) :
    k0_pay6 (F := Ideal) (k0_pay5 (F := Ideal) X1 X0 W7 B9 W8 B10) (Scalar.ofBits .f32 0xC0A00000#32) (Scalar.ofBits .f32 0x40A00000#32) (ix2 p e)
      = val_main_v44 (F := Ideal) a0 a1 a7 a8 a9 a10 (ix2 (row p) e) := by
  show clip (k0_pay5 (F := Ideal) X1 X0 W7 B9 W8 B10 (ix2 p e)) = clip (val_main_v43 (F := Ideal) a0 a1 a7 a8 a9 a10 (ix2 (row p) e))
  rw [conRaw_eq X0 X1 W7 W8 B9 B10 a0 a1 a7 a8 a9 a10 row h0 h1 h7 h8 h9 h10 p e]

end Cert.KernelIdeal.CellCon

end
-- ==== Proof.CellCo.lean ====
/-
  The read-out of the controller state and the generator's input row, read at an entry.

  The clipped controller state times the transposed read-out weights, plus a bias, gives eight columns: the first
  four are a mean, the last four a log-variance; the standard deviation is exp of half the log-variance; the sample
  is mean + standard deviation · eps; the generator's input row is the sample beside x's last 16 columns.
-/
import proofs.«141967_j3573412790665_2_alg».proof.Proof.Gen.KernelIdeal.Skeleton
import proofs.«141967_j3573412790665_2_alg».proof.Proof.Gen.ReferenceIdeal.Read
import proofs.«141967_j3573412790665_2_alg».proof.Proof.CellDots
import proofs.«141967_j3573412790665_2_alg».proof.Proof.CellIdx
import proofs.«141967_j3573412790665_2_alg».proof.Proof.LibConcat2

noncomputable section

namespace Cert.KernelIdeal.CellCo

open Idealize.ShloMosaic Idealize.ShloMosaic.ValueIdx Cert.KernelIdeal Cert.KernelIdeal.Gen Cert.ReferenceIdeal.Read
open Cert.CellIdx

variable {a0 : FVec Ideal Cert.ReferenceIdeal.S65536x272 .f32} {a1 : FVec Ideal Cert.ReferenceIdeal.S65536x420 .f32} {a2 : FVec Ideal Cert.ReferenceIdeal.S65536x4 .f32}
  {a3 : FVec Ideal Cert.ReferenceIdeal.S600x20 .f32} {a4 : FVec Ideal Cert.ReferenceIdeal.S600x200 .f32} {a5 a6 : FVec Ideal Cert.ReferenceIdeal.S600 .f32}
  {a7 : FVec Ideal Cert.ReferenceIdeal.S384x320 .f32} {a8 : FVec Ideal Cert.ReferenceIdeal.S384x128 .f32} {a9 a10 : FVec Ideal Cert.ReferenceIdeal.S384 .f32}
  {a11 : FVec Ideal Cert.ReferenceIdeal.S8x128 .f32} {a12 : FVec Ideal Cert.ReferenceIdeal.S8 .f32} {a13 : FVec Ideal Cert.ReferenceIdeal.S64x200 .f32}
  {row : Fin 1024 → Fin 65536}

/-- The read-out: state rows times weights, plus the bias row. -/
def coLin (C : FVec Ideal S1024x128 .f32) (W11 : FVec Ideal S128x8 .bf16) (B12 : FVec Ideal S1x8 .f32) : FVec Ideal S1024x8 .f32 :=
  addf (matmul dot_S1024x128_S128x8_S1024x8_1_0_0_1_n_n none (truncf .bf16 C bitsLt_bf16_f32) (shapeCast S128x8 W11 shapeCasts_S128x8_S128x8) (constant S1024x8 .f32 0x00000000#32))
    (broadcastTo S1024x8 (shapeCast S1x8 B12 shapeCasts_S1x8_S1x8) broadcasts_S1x8_S1024x8)

theorem pay7_eq (v41 : FVec Ideal S1024x128 .f32) (lo hi : Ideal .f32) (W11 : FVec Ideal S128x8 .bf16) (B12 : FVec Ideal S1x8 .f32) :
    k0_pay7 (F := Ideal) v41 lo hi W11 B12 = coLin (k0_pay6 (F := Ideal) v41 lo hi) W11 B12 := rfl

/-- The read-out at `(p, n)` is the reference's at `(row p, n)`. -/
theorem coLin_eq (C : FVec Ideal S1024x128 .f32) (W11 : FVec Ideal S128x8 .bf16) (B12 : FVec Ideal S1x8 .f32)
    (hC : ∀ (p : Fin 1024) (e : Fin 128), C (ix2 p e) = val_main_v44 (F := Ideal) a0 a1 a7 a8 a9 a10 (ix2 (row p) e))
    (h11 : ∀ (x : Fin 128) (n : Fin 8), W11 (ix2 x n) = a11 (ix2 n x))
    (h12 : ∀ n : Fin 8, B12 (ix2 (0 : Fin 1) n) = a12 (ix1 n)) (p : Fin 1024) (n : Fin 8) :
    coLin C W11 B12 (ix2 p n) = val_main_v49 (F := Ideal) a0 a1 a7 a8 a9 a10 a11 a12 (ix2 (row p) n) := by
  have hm : matmul dot_S1024x128_S128x8_S1024x8_1_0_0_1_n_n none (truncf .bf16 C bitsLt_bf16_f32) (shapeCast S128x8 W11 shapeCasts_S128x8_S128x8) (constant S1024x8 .f32 0x00000000#32) (ix2 p n)
      = val_main_v46 (F := Ideal) a0 a1 a7 a8 a9 a10 a11 (ix2 (row p) n) := by
    rw [CellDots.coOut, val_main_v46_apply]
    refine Finset.sum_congr rfl fun x _ => ?_
    have hl : truncf .bf16 C bitsLt_bf16_f32 (ix2 p x) = val_main_v44 (F := Ideal) a0 a1 a7 a8 a9 a10 (lidx_main_v46 (ix2 (row p) n) x) :=
      (hC p x).trans (at2 (n := 65536) (m := 128) (val_main_v44 (F := Ideal) a0 a1 a7 a8 a9 a10) _ _ rfl rfl)
    have hr : shapeCast S128x8 W11 shapeCasts_S128x8_S128x8 (ix2 x n) = val_main_v45 (F := Ideal) a11 (ridx_main_v46 (ix2 (row p) n) x) := by
      rw [shapeCast_self, val_main_v45_apply, h11 x n]
      exact at2 (n := 8) (m := 128) a11 _ _ rfl rfl
    rw [hl, hr]
  have hb : broadcastTo S1024x8 (shapeCast S1x8 B12 shapeCasts_S1x8_S1x8) broadcasts_S1x8_S1024x8 (ix2 p n)
      = val_main_v48 (F := Ideal) a12 (ix2 (row p) n) := by
    rw [rows_apply (m := 1024) (n := 8) (by decide), shapeCast_self, h12 n, val_main_v48_apply, val_main_v47_apply]
    exact at1 (n := 8) a12 _ _ rfl
  exact congrArg₂ FloatOps.addf hm hb

/-- The mean: the read-out's first four columns. -/
theorem mean_eq (L : FVec Ideal S1024x8 .f32)
    (hL : ∀ (p : Fin 1024) (n : Fin 8), L (ix2 p n) = val_main_v49 (F := Ideal) a0 a1 a7 a8 a9 a10 a11 a12 (ix2 (row p) n)) (p : Fin 1024) (e : Fin 4) :
    extractStridedSlice S1024x4 ![0, 0] L slices_S1024x8_o0_0_S1024x4 (ix2 p e) = val_main_v50 (F := Ideal) a0 a1 a7 a8 a9 a10 a11 a12 (ix2 (row p) e) := by
  refine (cols0_apply (n := 1024) (m := 8) (m1 := 4) L _ p e (by have := e.isLt; omega)).trans ?_
  refine Eq.trans ?_ (val_main_v50_apply (F := Ideal) a0 a1 a7 a8 a9 a10 a11 a12 _).symm
  exact (hL p _).trans (at2 (n := 65536) (m := 8) (val_main_v49 (F := Ideal) a0 a1 a7 a8 a9 a10 a11 a12) _ _ rfl rfl)

/-- The standard deviation: exp of half the read-out's last four columns. -/
theorem std_eq (L : FVec Ideal S1024x8 .f32)
    (hL : ∀ (p : Fin 1024) (n : Fin 8), L (ix2 p n) = val_main_v49 (F := Ideal) a0 a1 a7 a8 a9 a10 a11 a12 (ix2 (row p) n)) (p : Fin 1024) (e : Fin 4) :
    exp (mulf (broadcast S1024x4 (Scalar.ofBits .f32 0x3F000000#32)) (extractStridedSlice S1024x4 ![0, 4] L slices_S1024x8_o0_4_S1024x4)) (ix2 p e)
      = val_main_v54 (F := Ideal) a0 a1 a7 a8 a9 a10 a11 a12 (ix2 (row p) e) := by
  have hs : extractStridedSlice S1024x4 ![0, 4] L slices_S1024x8_o0_4_S1024x4 (ix2 p e) = val_main_v51 (F := Ideal) a0 a1 a7 a8 a9 a10 a11 a12 (ix2 (row p) e) := by
    refine (cols_apply (n := 1024) (m := 8) (m1 := 4) 4 L _ p e (by have := e.isLt; omega)).trans ?_
    refine Eq.trans ?_ (val_main_v51_apply (F := Ideal) a0 a1 a7 a8 a9 a10 a11 a12 _).symm
    exact (hL p _).trans (at2 (n := 65536) (m := 8) (val_main_v49 (F := Ideal) a0 a1 a7 a8 a9 a10 a11 a12) _ _ rfl rfl)
  show Ideal.exp (Ideal.ofBits .f32 0x3F000000#32 * extractStridedSlice S1024x4 ![0, 4] L slices_S1024x8_o0_4_S1024x4 (ix2 p e))
    = Ideal.exp (Ideal.ofBits .f32 0x3F000000#32 * val_main_v51 (F := Ideal) a0 a1 a7 a8 a9 a10 a11 a12 (ix2 (row p) e))
  rw [hs]

/-- x's last 16 columns. -/
theorem ext_eq (X0 : FVec Ideal S1024x272 .f32) (h0 : ∀ (p : Fin 1024) (q : Fin 272), X0 (ix2 p q) = a0 (ix2 (row p) q)) (p : Fin 1024) (e : Fin 16) :
    k0_pay4 (F := Ideal) X0 (ix2 p e) = val_main_v4 (F := Ideal) a0 (ix2 (row p) e) := by
  show extractStridedSlice S1024x16 ![0, 256] X0 slices_S1024x272_o0_256_S1024x16 (ix2 p e) = _
  refine (cols_apply (n := 1024) (m := 272) (m1 := 16) 256 X0 _ p e (by have := e.isLt; omega)).trans ?_
  refine Eq.trans ?_ (val_main_v4_apply (F := Ideal) a0 _).symm
  exact (h0 p _).trans (at2 (n := 65536) (m := 272) a0 _ _ rfl rfl)

/-- The generator's input row: the sample beside x's last 16 columns. -/
theorem gin_eq (M S X2 : FVec Ideal S1024x4 .f32) (E : FVec Ideal S1024x16 .f32)
    (hM : ∀ (p : Fin 1024) (e : Fin 4), M (ix2 p e) = val_main_v50 (F := Ideal) a0 a1 a7 a8 a9 a10 a11 a12 (ix2 (row p) e))
    (hS : ∀ (p : Fin 1024) (e : Fin 4), S (ix2 p e) = val_main_v54 (F := Ideal) a0 a1 a7 a8 a9 a10 a11 a12 (ix2 (row p) e))
    (h2 : ∀ (p : Fin 1024) (q : Fin 4), X2 (ix2 p q) = a2 (ix2 (row p) q))
    (hE : ∀ (p : Fin 1024) (e : Fin 16), E (ix2 p e) = val_main_v4 (F := Ideal) a0 (ix2 (row p) e)) (p : Fin 1024) (j : Fin 20) :
    concatenate S1024x20 1 [⟨S1024x4, addf M (mulf S X2)⟩, ⟨S1024x16, E⟩] concatenates_S1024x4_S1024x16_S1024x20_d1 (ix2 p j)
      = val_main_v57 (F := Ideal) a0 a1 a2 a7 a8 a9 a10 a11 a12 (ix2 (row p) j) := by
  unfold val_main_v57
  by_cases hj : j.val < 4
  · refine (Cert.LibConcat2.last2_left (n0 := 1024) (m1 := 4) (m2 := 16) (m := 20) _ _ _ p j hj).trans ?_
    refine Eq.trans ?_ (Cert.LibConcat2.last2_left (n0 := 65536) (m1 := 4) (m2 := 16) (m := 20) _ _ _ (row p) j hj).symm
    show M (ix2 p ⟨j.val, hj⟩) + S (ix2 p ⟨j.val, hj⟩) * X2 (ix2 p ⟨j.val, hj⟩)
      = val_main_v50 (F := Ideal) a0 a1 a7 a8 a9 a10 a11 a12 (ix2 (row p) ⟨j.val, hj⟩) + val_main_v54 (F := Ideal) a0 a1 a7 a8 a9 a10 a11 a12 (ix2 (row p) ⟨j.val, hj⟩) * a2 (ix2 (row p) ⟨j.val, hj⟩)
    rw [hM, hS, h2]
  · have hj1 : 4 ≤ j.val := by omega
    have hj2 : j.val - 4 < 16 := by have := j.isLt; omega
    refine (Cert.LibConcat2.last2_right (n0 := 1024) (m1 := 4) (m2 := 16) (m := 20) _ _ _ p j hj1 hj2).trans ?_
    refine Eq.trans ?_ (Cert.LibConcat2.last2_right (n0 := 65536) (m1 := 4) (m2 := 16) (m := 20) _ _ _ (row p) j hj1 hj2).symm
    exact hE p _

end Cert.KernelIdeal.CellCo

end
-- ==== Proof.CellGen.lean ====
/-
  The generator cell and the factor read-out of the body, read at an entry.

  The generator's pre-activations are the input row times the re-laid input weights plus a bias, and the state row
  (h0's first 200 columns) times the re-laid hidden weights plus a bias. In the re-laid matrices gate g sits at
  columns 256·g … 256·g + 199 where the reference, which never re-lays, has it at 200·g … 200·g + 199: column by
  column the two products are the same sum. The gates combine entry by entry and the result is clipped; the new
  factors are the clipped state row times the normalised, transposed factor matrix.
-/
import proofs.«141967_j3573412790665_2_alg».proof.Proof.Gen.KernelIdeal.Skeleton
import proofs.«141967_j3573412790665_2_alg».proof.Proof.Gen.ReferenceIdeal.Read
import proofs.«141967_j3573412790665_2_alg».proof.Proof.CellDots
import proofs.«141967_j3573412790665_2_alg».proof.Proof.CellIdx
import proofs.«141967_j3573412790665_2_alg».proof.Proof.CellScalar

noncomputable section

namespace Cert.KernelIdeal.CellGen

open Idealize.ShloMosaic Idealize.ShloMosaic.ValueIdx Cert.KernelIdeal Cert.KernelIdeal.Gen Cert.ReferenceIdeal.Read
open Cert.CellIdx Cert.CellScalar

variable {a0 : FVec Ideal Cert.ReferenceIdeal.S65536x272 .f32} {a1 : FVec Ideal Cert.ReferenceIdeal.S65536x420 .f32} {a2 : FVec Ideal Cert.ReferenceIdeal.S65536x4 .f32}
  {a3 : FVec Ideal Cert.ReferenceIdeal.S600x20 .f32} {a4 : FVec Ideal Cert.ReferenceIdeal.S600x200 .f32} {a5 a6 : FVec Ideal Cert.ReferenceIdeal.S600 .f32}
  {a7 : FVec Ideal Cert.ReferenceIdeal.S384x320 .f32} {a8 : FVec Ideal Cert.ReferenceIdeal.S384x128 .f32} {a9 a10 : FVec Ideal Cert.ReferenceIdeal.S384 .f32}
  {a11 : FVec Ideal Cert.ReferenceIdeal.S8x128 .f32} {a12 : FVec Ideal Cert.ReferenceIdeal.S8 .f32} {a13 : FVec Ideal Cert.ReferenceIdeal.S64x200 .f32}
  {row : Fin 1024 → Fin 65536}

/-- The input pre-activation: input rows times the re-laid weights, plus the re-laid bias row. -/
def genGi (GIN : FVec Ideal S1024x20 .f32) (W3 : FVec Ideal S20x768 .bf16) (B5 : FVec Ideal S1x768 .f32) : FVec Ideal S1024x768 .f32 :=
  addf (matmul dot_S1024x20_S20x768_S1024x768_1_0_0_1_n_n none (truncf .bf16 GIN bitsLt_bf16_f32) (shapeCast S20x768 W3 shapeCasts_S20x768_S20x768) (constant S1024x768 .f32 0x00000000#32))
    (broadcastTo S1024x768 (shapeCast S1x768 B5 shapeCasts_S1x768_S1x768) broadcasts_S1x768_S1024x768)

/-- The hidden pre-activation: state rows times the re-laid weights, plus the re-laid bias row. -/
def genGh (H : FVec Ideal S1024x200 .f32) (W4 : FVec Ideal S200x768 .bf16) (B6 : FVec Ideal S1x768 .f32) : FVec Ideal S1024x768 .f32 :=
  addf (matmul dot_S1024x200_S200x768_S1024x768_1_0_0_1_n_n none (truncf .bf16 H bitsLt_bf16_f32) (shapeCast S200x768 W4 shapeCasts_S200x768_S200x768) (constant S1024x768 .f32 0x00000000#32))
    (broadcastTo S1024x768 (shapeCast S1x768 B6 shapeCasts_S1x768_S1x768) broadcasts_S1x768_S1024x768)

/-- One column of the input pre-activation: column `c` of the re-laid product is column `c'` of the reference's
    whenever column `c` of the re-laid weights and bias is row `c'` of the arguments. -/
theorem genGi_eq (GIN : FVec Ideal S1024x20 .f32) (W3 : FVec Ideal S20x768 .bf16) (B5 : FVec Ideal S1x768 .f32)
    (hG : ∀ (p : Fin 1024) (x : Fin 20), GIN (ix2 p x) = val_main_v57 (F := Ideal) a0 a1 a2 a7 a8 a9 a10 a11 a12 (ix2 (row p) x))
    (c : Fin 768) (c' : Fin 600) (hw : ∀ x : Fin 20, W3 (ix2 x c) = a3 (ix2 c' x)) (hb : B5 (ix2 (0 : Fin 1) c) = a5 (ix1 c')) (p : Fin 1024) :
    genGi GIN W3 B5 (ix2 p c) = val_main_v62 (F := Ideal) a0 a1 a2 a3 a5 a7 a8 a9 a10 a11 a12 (ix2 (row p) c') := by
  have hm : matmul dot_S1024x20_S20x768_S1024x768_1_0_0_1_n_n none (truncf .bf16 GIN bitsLt_bf16_f32) (shapeCast S20x768 W3 shapeCasts_S20x768_S20x768) (constant S1024x768 .f32 0x00000000#32) (ix2 p c)
      = val_main_v59 (F := Ideal) a0 a1 a2 a3 a7 a8 a9 a10 a11 a12 (ix2 (row p) c') := by
    rw [CellDots.genIn, val_main_v59_apply]
    refine Finset.sum_congr rfl fun x _ => ?_
    have hl : truncf .bf16 GIN bitsLt_bf16_f32 (ix2 p x) = val_main_v57 (F := Ideal) a0 a1 a2 a7 a8 a9 a10 a11 a12 (lidx_main_v59 (ix2 (row p) c') x) :=
      (hG p x).trans (at2 (n := 65536) (m := 20) (val_main_v57 (F := Ideal) a0 a1 a2 a7 a8 a9 a10 a11 a12) _ _ rfl rfl)
    have hr : shapeCast S20x768 W3 shapeCasts_S20x768_S20x768 (ix2 x c) = val_main_v58 (F := Ideal) a3 (ridx_main_v59 (ix2 (row p) c') x) := by
      rw [shapeCast_self, val_main_v58_apply, hw x]
      exact at2 (n := 600) (m := 20) a3 _ _ rfl rfl
    rw [hl, hr]
  have hbb : broadcastTo S1024x768 (shapeCast S1x768 B5 shapeCasts_S1x768_S1x768) broadcasts_S1x768_S1024x768 (ix2 p c)
      = val_main_v61 (F := Ideal) a5 (ix2 (row p) c') := by
    rw [rows_apply (m := 1024) (n := 768) (by decide), shapeCast_self, hb, val_main_v61_apply, val_main_v60_apply]
    exact at1 (n := 600) a5 _ _ rfl
  exact congrArg₂ FloatOps.addf hm hbb

/-- One column of the hidden pre-activation, likewise. -/
theorem genGh_eq (H : FVec Ideal S1024x200 .f32) (W4 : FVec Ideal S200x768 .bf16) (B6 : FVec Ideal S1x768 .f32)
    (hH : ∀ (p : Fin 1024) (x : Fin 200), H (ix2 p x) = val_main_v0 (F := Ideal) a1 (ix2 (row p) x))
    (c : Fin 768) (c' : Fin 600) (hw : ∀ x : Fin 200, W4 (ix2 x c) = a4 (ix2 c' x)) (hb : B6 (ix2 (0 : Fin 1) c) = a6 (ix1 c')) (p : Fin 1024) :
    genGh H W4 B6 (ix2 p c) = val_main_v67 (F := Ideal) a1 a4 a6 (ix2 (row p) c') := by
  have hm : matmul dot_S1024x200_S200x768_S1024x768_1_0_0_1_n_n none (truncf .bf16 H bitsLt_bf16_f32) (shapeCast S200x768 W4 shapeCasts_S200x768_S200x768) (constant S1024x768 .f32 0x00000000#32) (ix2 p c)
      = val_main_v64 (F := Ideal) a1 a4 (ix2 (row p) c') := by
    rw [CellDots.genHid, val_main_v64_apply]
    refine Finset.sum_congr rfl fun x _ => ?_
    have hl : truncf .bf16 H bitsLt_bf16_f32 (ix2 p x) = val_main_v0 (F := Ideal) a1 (lidx_main_v64 (ix2 (row p) c') x) :=
      (hH p x).trans (at2 (n := 65536) (m := 200) (val_main_v0 (F := Ideal) a1) _ _ rfl rfl)
    have hr : shapeCast S200x768 W4 shapeCasts_S200x768_S200x768 (ix2 x c) = val_main_v63 (F := Ideal) a4 (ridx_main_v64 (ix2 (row p) c') x) := by
      rw [shapeCast_self, val_main_v63_apply, hw x]
      exact at2 (n := 600) (m := 200) a4 _ _ rfl rfl
    rw [hl, hr]
  have hbb : broadcastTo S1024x768 (shapeCast S1x768 B6 shapeCasts_S1x768_S1x768) broadcasts_S1x768_S1024x768 (ix2 p c)
      = val_main_v66 (F := Ideal) a6 (ix2 (row p) c') := by
    rw [rows_apply (m := 1024) (n := 768) (by decide), shapeCast_self, hb, val_main_v66_apply, val_main_v65_apply]
    exact at1 (n := 600) a6 _ _ rfl
  exact congrArg₂ FloatOps.addf hm hbb

/-- The state rows: h0's first 200 columns. -/
theorem hid_eq (X1 : FVec Ideal S1024x420 .f32) (h1 : ∀ (p : Fin 1024) (q : Fin 420), X1 (ix2 p q) = a1 (ix2 (row p) q)) (p : Fin 1024) (e : Fin 200) :
    k0_pay3 (F := Ideal) X1 (ix2 p e) = val_main_v0 (F := Ideal) a1 (ix2 (row p) e) := by
  show extractStridedSlice S1024x200 ![0, 0] X1 slices_S1024x420_o0_0_S1024x200 (ix2 p e) = _
  refine (cols0_apply (n := 1024) (m := 420) (m1 := 200) X1 _ p e (by have := e.isLt; omega)).trans ?_
  refine Eq.trans ?_ (val_main_v0_apply (F := Ideal) a1 _).symm
  exact (h1 p _).trans (at2 (n := 65536) (m := 420) a1 _ _ rfl rfl)

/-- A gate of a re-laid pre-activation against the reference's gate: columns off … off + 199 of the one, off' … of the other. -/
theorem gateI_eq (G : FVec Ideal S1024x768 .f32) (p : Fin 1024) (e : Fin 200)
    (h0 : G (ix2 p ⟨e.val, by have := e.isLt; omega⟩) = val_main_v62 (F := Ideal) a0 a1 a2 a3 a5 a7 a8 a9 a10 a11 a12 (ix2 (row p) ⟨e.val, by have := e.isLt; omega⟩))
    (h1 : G (ix2 p ⟨256 + e.val, by have := e.isLt; omega⟩) = val_main_v62 (F := Ideal) a0 a1 a2 a3 a5 a7 a8 a9 a10 a11 a12 (ix2 (row p) ⟨200 + e.val, by have := e.isLt; omega⟩))
    (h2 : G (ix2 p ⟨512 + e.val, by have := e.isLt; omega⟩) = val_main_v62 (F := Ideal) a0 a1 a2 a3 a5 a7 a8 a9 a10 a11 a12 (ix2 (row p) ⟨400 + e.val, by have := e.isLt; omega⟩)) :
    extractStridedSlice S1024x200 ![0, 0] G slices_S1024x768_o0_0_S1024x200 (ix2 p e) = val_main_v68 (F := Ideal) a0 a1 a2 a3 a5 a7 a8 a9 a10 a11 a12 (ix2 (row p) e)
    ∧ extractStridedSlice S1024x200 ![0, 256] G slices_S1024x768_o0_256_S1024x200 (ix2 p e) = val_main_v69 (F := Ideal) a0 a1 a2 a3 a5 a7 a8 a9 a10 a11 a12 (ix2 (row p) e)
    ∧ extractStridedSlice S1024x200 ![0, 512] G slices_S1024x768_o0_512_S1024x200 (ix2 p e) = val_main_v70 (F := Ideal) a0 a1 a2 a3 a5 a7 a8 a9 a10 a11 a12 (ix2 (row p) e) := by
  refine ⟨?_, ?_, ?_⟩
  · refine (cols0_apply (n := 1024) (m := 768) (m1 := 200) G _ p e (by have := e.isLt; omega)).trans (h0.trans ?_)
    refine Eq.trans ?_ (val_main_v68_apply (F := Ideal) a0 a1 a2 a3 a5 a7 a8 a9 a10 a11 a12 _).symm
    exact at2 (n := 65536) (m := 600) (val_main_v62 (F := Ideal) a0 a1 a2 a3 a5 a7 a8 a9 a10 a11 a12) _ _ rfl rfl
  · refine (cols_apply (n := 1024) (m := 768) (m1 := 200) 256 G _ p e (by have := e.isLt; omega)).trans (h1.trans ?_)
    refine Eq.trans ?_ (val_main_v69_apply (F := Ideal) a0 a1 a2 a3 a5 a7 a8 a9 a10 a11 a12 _).symm
    exact at2 (n := 65536) (m := 600) (val_main_v62 (F := Ideal) a0 a1 a2 a3 a5 a7 a8 a9 a10 a11 a12) _ _ rfl rfl
  · refine (cols_apply (n := 1024) (m := 768) (m1 := 200) 512 G _ p e (by have := e.isLt; omega)).trans (h2.trans ?_)
    refine Eq.trans ?_ (val_main_v70_apply (F := Ideal) a0 a1 a2 a3 a5 a7 a8 a9 a10 a11 a12 _).symm
    exact at2 (n := 65536) (m := 600) (val_main_v62 (F := Ideal) a0 a1 a2 a3 a5 a7 a8 a9 a10 a11 a12) _ _ rfl rfl

theorem gateH_eq (G : FVec Ideal S1024x768 .f32) (p : Fin 1024) (e : Fin 200)
    (h0 : G (ix2 p ⟨e.val, by have := e.isLt; omega⟩) = val_main_v67 (F := Ideal) a1 a4 a6 (ix2 (row p) ⟨e.val, by have := e.isLt; omega⟩))
    (h1 : G (ix2 p ⟨256 + e.val, by have := e.isLt; omega⟩) = val_main_v67 (F := Ideal) a1 a4 a6 (ix2 (row p) ⟨200 + e.val, by have := e.isLt; omega⟩))
    (h2 : G (ix2 p ⟨512 + e.val, by have := e.isLt; omega⟩) = val_main_v67 (F := Ideal) a1 a4 a6 (ix2 (row p) ⟨400 + e.val, by have := e.isLt; omega⟩)) :
    extractStridedSlice S1024x200 ![0, 0] G slices_S1024x768_o0_0_S1024x200 (ix2 p e) = val_main_v71 (F := Ideal) a1 a4 a6 (ix2 (row p) e)
    ∧ extractStridedSlice S1024x200 ![0, 256] G slices_S1024x768_o0_256_S1024x200 (ix2 p e) = val_main_v72 (F := Ideal) a1 a4 a6 (ix2 (row p) e)
    ∧ G (ix2 p ⟨512 + e.val, by have := e.isLt; omega⟩) = val_main_v73 (F := Ideal) a1 a4 a6 (ix2 (row p) e) := by
  refine ⟨?_, ?_, ?_⟩
  · refine (cols0_apply (n := 1024) (m := 768) (m1 := 200) G _ p e (by have := e.isLt; omega)).trans (h0.trans ?_)
    refine Eq.trans ?_ (val_main_v71_apply (F := Ideal) a1 a4 a6 _).symm
    exact at2 (n := 65536) (m := 600) (val_main_v67 (F := Ideal) a1 a4 a6) _ _ rfl rfl
  · refine (cols_apply (n := 1024) (m := 768) (m1 := 200) 256 G _ p e (by have := e.isLt; omega)).trans (h1.trans ?_)
    refine Eq.trans ?_ (val_main_v72_apply (F := Ideal) a1 a4 a6 _).symm
    exact at2 (n := 65536) (m := 600) (val_main_v67 (F := Ideal) a1 a4 a6) _ _ rfl rfl
  · refine h2.trans ?_
    refine Eq.trans ?_ (val_main_v73_apply (F := Ideal) a1 a4 a6 _).symm
    exact at2 (n := 65536) (m := 600) (val_main_v67 (F := Ideal) a1 a4 a6) _ _ rfl rfl

/-- The body's clipped generator state at `(p, e)`: the clipped scalar step of its gate entries. -/
theorem pay1_apply (v1 : FVec Ideal S1024x200 .f32) (v78 : FVec Ideal S1024x768 .f32) (v79 v80 v81 v82 v83 : FVec Ideal S1024x200 .f32)
    (p : Fin 1024) (e : Fin 200) :
    k0_pay1 (F := Ideal) v1 v78 v79 v80 v81 v82 v83 (ix2 p e)
      = clip (step (v79 (ix2 p e)) (v82 (ix2 p e)) (v80 (ix2 p e)) (v83 (ix2 p e)) (v81 (ix2 p e))
          (v78 (ix2 p ⟨512 + e.val, by have := e.isLt; omega⟩)) (v1 (ix2 p e))) := by
  have e2 := cols_apply (n := 1024) (m := 768) (m1 := 200) 512 v78 slices_S1024x768_o0_512_S1024x200 p e (by have := e.isLt; omega)
  rw [← e2]
  rfl

/-- The reference's reset gate at an index: σ spelt out of the two first-gate entries. -/
theorem ref_r (i : Cert.ReferenceIdeal.S65536x200.Idx) :
    val_main_v80 (F := Ideal) a0 a1 a2 a3 a4 a5 a6 a7 a8 a9 a10 a11 a12 i = sigSpelt ((val_main_v68 (F := Ideal) a0 a1 a2 a3 a5 a7 a8 a9 a10 a11 a12 i : EReal) + (val_main_v71 (F := Ideal) a1 a4 a6 i : EReal)) := by
  rw [val_main_v80_apply, val_main_v79_apply, val_main_cst_8_apply, val_main_v78_apply, val_main_v77_apply, val_main_cst_7_apply,
    val_main_v76_apply, val_main_v75_apply, val_main_v74_apply]
  simp only [Ideal.hostDivf_def, Ideal.addf_def, Ideal.mulf_def, Ideal.hostUnary_exp_def, Ideal.hostUnary_tanh_def, Ideal.hostNegf_def, Ideal.negf_def, Ideal.ofBits_def]

/-- The reference's update gate at an index. -/
theorem ref_z (i : Cert.ReferenceIdeal.S65536x200.Idx) :
    val_main_v87 (F := Ideal) a0 a1 a2 a3 a4 a5 a6 a7 a8 a9 a10 a11 a12 i = sigSpelt ((val_main_v69 (F := Ideal) a0 a1 a2 a3 a5 a7 a8 a9 a10 a11 a12 i : EReal) + (val_main_v72 (F := Ideal) a1 a4 a6 i : EReal)) := by
  rw [val_main_v87_apply, val_main_v86_apply, val_main_cst_10_apply, val_main_v85_apply, val_main_v84_apply, val_main_cst_9_apply,
    val_main_v83_apply, val_main_v82_apply, val_main_v81_apply]
  simp only [Ideal.hostDivf_def, Ideal.addf_def, Ideal.mulf_def, Ideal.hostUnary_exp_def, Ideal.hostUnary_tanh_def, Ideal.hostNegf_def, Ideal.negf_def, Ideal.ofBits_def]

/-- The reference's candidate at an index. -/
theorem ref_n (i : Cert.ReferenceIdeal.S65536x200.Idx) :
    val_main_v90 (F := Ideal) a0 a1 a2 a3 a4 a5 a6 a7 a8 a9 a10 a11 a12 i
      = Ideal.tanh ((val_main_v70 (F := Ideal) a0 a1 a2 a3 a5 a7 a8 a9 a10 a11 a12 i : EReal) + (val_main_v80 (F := Ideal) a0 a1 a2 a3 a4 a5 a6 a7 a8 a9 a10 a11 a12 i : EReal) * (val_main_v73 (F := Ideal) a1 a4 a6 i : EReal)) := by
  rw [val_main_v90_apply, val_main_v89_apply, val_main_v88_apply]
  simp only [Ideal.hostDivf_def, Ideal.addf_def, Ideal.mulf_def, Ideal.hostUnary_exp_def, Ideal.hostUnary_tanh_def, Ideal.hostNegf_def, Ideal.negf_def, Ideal.ofBits_def]

/-- The reference's unclipped generator state at an index, from the gates and the candidate. -/
theorem ref_raw (i : Cert.ReferenceIdeal.S65536x200.Idx) :
    val_main_v95 (F := Ideal) a0 a1 a2 a3 a4 a5 a6 a7 a8 a9 a10 a11 a12 i
      = (w1 - (val_main_v87 (F := Ideal) a0 a1 a2 a3 a4 a5 a6 a7 a8 a9 a10 a11 a12 i : EReal)) * (val_main_v90 (F := Ideal) a0 a1 a2 a3 a4 a5 a6 a7 a8 a9 a10 a11 a12 i : EReal) + (val_main_v87 (F := Ideal) a0 a1 a2 a3 a4 a5 a6 a7 a8 a9 a10 a11 a12 i : EReal) * (val_main_v0 (F := Ideal) a1 i : EReal) := rfl

/-- The reference's clipped generator state is the clip of the unclipped one. -/
theorem ref_clip (i : Cert.ReferenceIdeal.S65536x200.Idx) :
    val_main_v96 (F := Ideal) a0 a1 a2 a3 a4 a5 a6 a7 a8 a9 a10 a11 a12 i = clip (val_main_v95 (F := Ideal) a0 a1 a2 a3 a4 a5 a6 a7 a8 a9 a10 a11 a12 i) := rfl

/-- The reference's clipped generator state at an index: the clipped spelt-out step of its gate entries. -/
theorem ref_gen (i : Cert.ReferenceIdeal.S65536x200.Idx) :
    val_main_v96 (F := Ideal) a0 a1 a2 a3 a4 a5 a6 a7 a8 a9 a10 a11 a12 i
      = clip (stepSpelt (val_main_v68 (F := Ideal) a0 a1 a2 a3 a5 a7 a8 a9 a10 a11 a12 i) (val_main_v71 (F := Ideal) a1 a4 a6 i) (val_main_v69 (F := Ideal) a0 a1 a2 a3 a5 a7 a8 a9 a10 a11 a12 i)
          (val_main_v72 (F := Ideal) a1 a4 a6 i) (val_main_v70 (F := Ideal) a0 a1 a2 a3 a5 a7 a8 a9 a10 a11 a12 i) (val_main_v73 (F := Ideal) a1 a4 a6 i) (val_main_v0 (F := Ideal) a1 i)) := by
  rw [ref_clip, ref_raw, ref_n, ref_z, ref_r]
  rfl

/-- The clipped generator state: body at `(p, e)`, reference at `(row p, e)`, from the gate entries. -/
theorem gen_eq (v1 : FVec Ideal S1024x200 .f32) (v78 : FVec Ideal S1024x768 .f32) (v79 v80 v81 v82 v83 : FVec Ideal S1024x200 .f32)
    (p : Fin 1024) (e : Fin 200)
    (h79 : v79 (ix2 p e) = val_main_v68 (F := Ideal) a0 a1 a2 a3 a5 a7 a8 a9 a10 a11 a12 (ix2 (row p) e))
    (h80 : v80 (ix2 p e) = val_main_v69 (F := Ideal) a0 a1 a2 a3 a5 a7 a8 a9 a10 a11 a12 (ix2 (row p) e))
    (h81 : v81 (ix2 p e) = val_main_v70 (F := Ideal) a0 a1 a2 a3 a5 a7 a8 a9 a10 a11 a12 (ix2 (row p) e))
    (h82 : v82 (ix2 p e) = val_main_v71 (F := Ideal) a1 a4 a6 (ix2 (row p) e))
    (h83 : v83 (ix2 p e) = val_main_v72 (F := Ideal) a1 a4 a6 (ix2 (row p) e))
    (h78 : v78 (ix2 p ⟨512 + e.val, by have := e.isLt; omega⟩) = val_main_v73 (F := Ideal) a1 a4 a6 (ix2 (row p) e))
    (h1 : v1 (ix2 p e) = val_main_v0 (F := Ideal) a1 (ix2 (row p) e)) :
    k0_pay1 (F := Ideal) v1 v78 v79 v80 v81 v82 v83 (ix2 p e) = val_main_v96 (F := Ideal) a0 a1 a2 a3 a4 a5 a6 a7 a8 a9 a10 a11 a12 (ix2 (row p) e) := by
  rw [pay1_apply, ref_gen, stepSpelt_eq, h79, h80, h81, h82, h83, h78, h1]

/-- The new factors: the clipped generator state rows times the normalised, transposed factor matrix. -/
theorem fac_eq (GS : FVec Ideal S1024x200 .f32) (W13 : FVec Ideal S200x64 .bf16)
    (hGS : ∀ (p : Fin 1024) (e : Fin 200), GS (ix2 p e) = val_main_v96 (F := Ideal) a0 a1 a2 a3 a4 a5 a6 a7 a8 a9 a10 a11 a12 (ix2 (row p) e))
    (h13 : ∀ (x : Fin 200) (n : Fin 64), W13 (ix2 x n) = val_main_v102 (F := Ideal) a13 (ix2 x n)) (p : Fin 1024) (n : Fin 64) :
    matmul dot_S1024x200_S200x64_S1024x64_1_0_0_1_n_n none (truncf .bf16 GS bitsLt_bf16_f32) (shapeCast S200x64 W13 shapeCasts_S200x64_S200x64) (constant S1024x64 .f32 0x00000000#32) (ix2 p n)
      = val_main_v103 (F := Ideal) a0 a1 a2 a3 a4 a5 a6 a7 a8 a9 a10 a11 a12 a13 (ix2 (row p) n) := by
  rw [CellDots.facOut, val_main_v103_apply]
  refine Finset.sum_congr rfl fun x _ => ?_
  have hl : truncf .bf16 GS bitsLt_bf16_f32 (ix2 p x) = val_main_v96 (F := Ideal) a0 a1 a2 a3 a4 a5 a6 a7 a8 a9 a10 a11 a12 (lidx_main_v103 (ix2 (row p) n) x) :=
    (hGS p x).trans (at2 (n := 65536) (m := 200) (val_main_v96 (F := Ideal) a0 a1 a2 a3 a4 a5 a6 a7 a8 a9 a10 a11 a12) _ _ rfl rfl)
  have hr : shapeCast S200x64 W13 shapeCasts_S200x64_S200x64 (ix2 x n) = val_main_v102 (F := Ideal) a13 (ridx_main_v103 (ix2 (row p) n) x) := by
    rw [shapeCast_self, h13 x n]
    exact at2 (n := 200) (m := 64) (val_main_v102 (F := Ideal) a13) _ _ rfl rfl
  rw [hl, hr]

end Cert.KernelIdeal.CellGen

end
-- ==== Proof.CellBridge.lean ====
/-
  The body's output block is the reference's result restricted to the block's rows.

  Assume each of the body's fourteen input blocks reads off the arguments as it should: x, h0, eps row by row; the
  weight matrices transposed, the generator's with gate g at columns 256·g …; the biases as single rows; the factor
  weights the normalised transposed matrix. Then each of the six stored pieces is, entry by entry, the reference's
  stage of the same name at the block's rows — the generator state, the controller state, the mean, the standard
  deviation, the generator's input row, the new factors — and the reference's result is those six stages side by
  side in the same column bands. So the block, at (p, j), is the result at (row p, j).
-/
import proofs.«141967_j3573412790665_2_alg».proof.Proof.CellFrameI
import proofs.«141967_j3573412790665_2_alg».proof.Proof.CellCon
import proofs.«141967_j3573412790665_2_alg».proof.Proof.CellCo
import proofs.«141967_j3573412790665_2_alg».proof.Proof.CellGen

set_option maxRecDepth 16384

noncomputable section

namespace Cert.KernelIdeal.CellBridge

open Idealize.ShloMosaic Idealize.ShloMosaic.ValueIdx Cert.KernelIdeal Cert.KernelIdeal.Gen Cert.ReferenceIdeal.Read
open Cert.KernelIdeal.Cell Cert.KernelIdeal.CellCon Cert.KernelIdeal.CellCo Cert.KernelIdeal.CellGen Cert.CellIdx

variable (X0 : FVec Ideal S1024x272 .f32) (X1 : FVec Ideal S1024x420 .f32) (X2 : FVec Ideal S1024x4 .f32) (X3 : FVec Ideal S20x768 .bf16)
  (X4 : FVec Ideal S200x768 .bf16) (X5 X6 : FVec Ideal S1x768 .f32) (X7 : FVec Ideal S320x384 .bf16) (X8 : FVec Ideal S128x384 .bf16)
  (X9 X10 : FVec Ideal S1x384 .f32) (X11 : FVec Ideal S128x8 .bf16) (X12 : FVec Ideal S1x8 .f32) (X13 : FVec Ideal S200x64 .bf16)
  (a0 : FVec Ideal Cert.ReferenceIdeal.S65536x272 .f32) (a1 : FVec Ideal Cert.ReferenceIdeal.S65536x420 .f32) (a2 : FVec Ideal Cert.ReferenceIdeal.S65536x4 .f32)
  (a3 : FVec Ideal Cert.ReferenceIdeal.S600x20 .f32) (a4 : FVec Ideal Cert.ReferenceIdeal.S600x200 .f32) (a5 a6 : FVec Ideal Cert.ReferenceIdeal.S600 .f32)
  (a7 : FVec Ideal Cert.ReferenceIdeal.S384x320 .f32) (a8 : FVec Ideal Cert.ReferenceIdeal.S384x128 .f32) (a9 a10 : FVec Ideal Cert.ReferenceIdeal.S384 .f32)
  (a11 : FVec Ideal Cert.ReferenceIdeal.S8x128 .f32) (a12 : FVec Ideal Cert.ReferenceIdeal.S8 .f32) (a13 : FVec Ideal Cert.ReferenceIdeal.S64x200 .f32)
  (row : Fin 1024 → Fin 65536)

/-- How the body's input blocks read off the arguments. -/
structure Reads : Prop where
  h0 : ∀ (p : Fin 1024) (q : Fin 272), X0 (ix2 p q) = a0 (ix2 (row p) q)
  h1 : ∀ (p : Fin 1024) (q : Fin 420), X1 (ix2 p q) = a1 (ix2 (row p) q)
  h2 : ∀ (p : Fin 1024) (q : Fin 4), X2 (ix2 p q) = a2 (ix2 (row p) q)
  w3 : ∀ (x : Fin 20) (e : Fin 200), X3 (ix2 x ⟨e.val, by have := e.isLt; omega⟩) = a3 (ix2 ⟨e.val, by have := e.isLt; omega⟩ x) ∧ X3 (ix2 x ⟨256 + e.val, by have := e.isLt; omega⟩) = a3 (ix2 ⟨200 + e.val, by have := e.isLt; omega⟩ x) ∧ X3 (ix2 x ⟨512 + e.val, by have := e.isLt; omega⟩) = a3 (ix2 ⟨400 + e.val, by have := e.isLt; omega⟩ x)
  w4 : ∀ (x : Fin 200) (e : Fin 200), X4 (ix2 x ⟨e.val, by have := e.isLt; omega⟩) = a4 (ix2 ⟨e.val, by have := e.isLt; omega⟩ x) ∧ X4 (ix2 x ⟨256 + e.val, by have := e.isLt; omega⟩) = a4 (ix2 ⟨200 + e.val, by have := e.isLt; omega⟩ x) ∧ X4 (ix2 x ⟨512 + e.val, by have := e.isLt; omega⟩) = a4 (ix2 ⟨400 + e.val, by have := e.isLt; omega⟩ x)
  b5 : ∀ e : Fin 200, X5 (ix2 (0 : Fin 1) ⟨e.val, by have := e.isLt; omega⟩) = a5 (ix1 ⟨e.val, by have := e.isLt; omega⟩) ∧ X5 (ix2 (0 : Fin 1) ⟨256 + e.val, by have := e.isLt; omega⟩) = a5 (ix1 ⟨200 + e.val, by have := e.isLt; omega⟩) ∧ X5 (ix2 (0 : Fin 1) ⟨512 + e.val, by have := e.isLt; omega⟩) = a5 (ix1 ⟨400 + e.val, by have := e.isLt; omega⟩)
  b6 : ∀ e : Fin 200, X6 (ix2 (0 : Fin 1) ⟨e.val, by have := e.isLt; omega⟩) = a6 (ix1 ⟨e.val, by have := e.isLt; omega⟩) ∧ X6 (ix2 (0 : Fin 1) ⟨256 + e.val, by have := e.isLt; omega⟩) = a6 (ix1 ⟨200 + e.val, by have := e.isLt; omega⟩) ∧ X6 (ix2 (0 : Fin 1) ⟨512 + e.val, by have := e.isLt; omega⟩) = a6 (ix1 ⟨400 + e.val, by have := e.isLt; omega⟩)
  h7 : ∀ (x : Fin 320) (n : Fin 384), X7 (ix2 x n) = a7 (ix2 n x)
  h8 : ∀ (x : Fin 128) (n : Fin 384), X8 (ix2 x n) = a8 (ix2 n x)
  h9 : ∀ n : Fin 384, X9 (ix2 (0 : Fin 1) n) = a9 (ix1 n)
  h10 : ∀ n : Fin 384, X10 (ix2 (0 : Fin 1) n) = a10 (ix1 n)
  h11 : ∀ (x : Fin 128) (n : Fin 8), X11 (ix2 x n) = a11 (ix2 n x)
  h12 : ∀ n : Fin 8, X12 (ix2 (0 : Fin 1) n) = a12 (ix1 n)
  h13 : ∀ (x : Fin 200) (n : Fin 64), X13 (ix2 x n) = val_main_v102 (F := Ideal) a13 (ix2 x n)

/-! ## The reference's result, band by band -/

/-- Columns 0 … 199 of the reference's result are its stage v96. -/
theorem ref_band0 (r : Fin 65536) (e : Fin 200) :
    val_main_v104 (F := Ideal) a0 a1 a2 a3 a4 a5 a6 a7 a8 a9 a10 a11 a12 a13 (ix2 r ⟨e.val, by have := e.isLt; omega⟩) = val_main_v96 (F := Ideal) a0 a1 a2 a3 a4 a5 a6 a7 a8 a9 a10 a11 a12 (ix2 r e) := by
  unfold val_main_v104
  exact concatenate_apply_piece (t := Cert.ReferenceIdeal.S65536x420) (1 : Fin 2)
    [⟨Cert.ReferenceIdeal.S65536x200, val_main_v96 (F := Ideal) a0 a1 a2 a3 a4 a5 a6 a7 a8 a9 a10 a11 a12⟩, ⟨Cert.ReferenceIdeal.S65536x128, val_main_v44 (F := Ideal) a0 a1 a7 a8 a9 a10⟩, ⟨Cert.ReferenceIdeal.S65536x4, val_main_v50 (F := Ideal) a0 a1 a7 a8 a9 a10 a11 a12⟩,
      ⟨Cert.ReferenceIdeal.S65536x4, val_main_v54 (F := Ideal) a0 a1 a7 a8 a9 a10 a11 a12⟩, ⟨Cert.ReferenceIdeal.S65536x20, val_main_v57 (F := Ideal) a0 a1 a2 a7 a8 a9 a10 a11 a12⟩, ⟨Cert.ReferenceIdeal.S65536x64, val_main_v103 (F := Ideal) a0 a1 a2 a3 a4 a5 a6 a7 a8 a9 a10 a11 a12 a13⟩] _
    (ix2 r ⟨e.val, by have := e.isLt; omega⟩) 0 (show (0 : ℕ) < 6 by norm_num) Cert.ReferenceIdeal.S65536x200 _ rfl rfl 0 (by simp) (ix2 r e)
    (fun c hc => by
      match c with
      | ⟨0, _⟩ => rfl
      | ⟨1, _⟩ => exact absurd rfl hc) (Nat.zero_add _)

/-- Columns 200 … 327 of the reference's result are its stage v44. -/
theorem ref_band1 (r : Fin 65536) (e : Fin 128) :
    val_main_v104 (F := Ideal) a0 a1 a2 a3 a4 a5 a6 a7 a8 a9 a10 a11 a12 a13 (ix2 r ⟨200 + e.val, by have := e.isLt; omega⟩) = val_main_v44 (F := Ideal) a0 a1 a7 a8 a9 a10 (ix2 r e) := by
  unfold val_main_v104
  exact concatenate_apply_piece (t := Cert.ReferenceIdeal.S65536x420) (1 : Fin 2)
    [⟨Cert.ReferenceIdeal.S65536x200, val_main_v96 (F := Ideal) a0 a1 a2 a3 a4 a5 a6 a7 a8 a9 a10 a11 a12⟩, ⟨Cert.ReferenceIdeal.S65536x128, val_main_v44 (F := Ideal) a0 a1 a7 a8 a9 a10⟩, ⟨Cert.ReferenceIdeal.S65536x4, val_main_v50 (F := Ideal) a0 a1 a7 a8 a9 a10 a11 a12⟩,
      ⟨Cert.ReferenceIdeal.S65536x4, val_main_v54 (F := Ideal) a0 a1 a7 a8 a9 a10 a11 a12⟩, ⟨Cert.ReferenceIdeal.S65536x20, val_main_v57 (F := Ideal) a0 a1 a2 a7 a8 a9 a10 a11 a12⟩, ⟨Cert.ReferenceIdeal.S65536x64, val_main_v103 (F := Ideal) a0 a1 a2 a3 a4 a5 a6 a7 a8 a9 a10 a11 a12 a13⟩] _
    (ix2 r ⟨200 + e.val, by have := e.isLt; omega⟩) 1 (show (1 : ℕ) < 6 by norm_num) Cert.ReferenceIdeal.S65536x128 _ rfl rfl 200 (by simp) (ix2 r e)
    (fun c hc => by
      match c with
      | ⟨0, _⟩ => rfl
      | ⟨1, _⟩ => exact absurd rfl hc) rfl

/-- Columns 328 … 331 of the reference's result are its stage v50. -/
theorem ref_band2 (r : Fin 65536) (e : Fin 4) :
    val_main_v104 (F := Ideal) a0 a1 a2 a3 a4 a5 a6 a7 a8 a9 a10 a11 a12 a13 (ix2 r ⟨328 + e.val, by have := e.isLt; omega⟩) = val_main_v50 (F := Ideal) a0 a1 a7 a8 a9 a10 a11 a12 (ix2 r e) := by
  unfold val_main_v104
  exact concatenate_apply_piece (t := Cert.ReferenceIdeal.S65536x420) (1 : Fin 2)
    [⟨Cert.ReferenceIdeal.S65536x200, val_main_v96 (F := Ideal) a0 a1 a2 a3 a4 a5 a6 a7 a8 a9 a10 a11 a12⟩, ⟨Cert.ReferenceIdeal.S65536x128, val_main_v44 (F := Ideal) a0 a1 a7 a8 a9 a10⟩, ⟨Cert.ReferenceIdeal.S65536x4, val_main_v50 (F := Ideal) a0 a1 a7 a8 a9 a10 a11 a12⟩,
      ⟨Cert.ReferenceIdeal.S65536x4, val_main_v54 (F := Ideal) a0 a1 a7 a8 a9 a10 a11 a12⟩, ⟨Cert.ReferenceIdeal.S65536x20, val_main_v57 (F := Ideal) a0 a1 a2 a7 a8 a9 a10 a11 a12⟩, ⟨Cert.ReferenceIdeal.S65536x64, val_main_v103 (F := Ideal) a0 a1 a2 a3 a4 a5 a6 a7 a8 a9 a10 a11 a12 a13⟩] _
    (ix2 r ⟨328 + e.val, by have := e.isLt; omega⟩) 2 (show (2 : ℕ) < 6 by norm_num) Cert.ReferenceIdeal.S65536x4 _ rfl rfl 328 (by simp) (ix2 r e)
    (fun c hc => by
      match c with
      | ⟨0, _⟩ => rfl
      | ⟨1, _⟩ => exact absurd rfl hc) rfl

/-- Columns 332 … 335 of the reference's result are its stage v54. -/
theorem ref_band3 (r : Fin 65536) (e : Fin 4) :
    val_main_v104 (F := Ideal) a0 a1 a2 a3 a4 a5 a6 a7 a8 a9 a10 a11 a12 a13 (ix2 r ⟨332 + e.val, by have := e.isLt; omega⟩) = val_main_v54 (F := Ideal) a0 a1 a7 a8 a9 a10 a11 a12 (ix2 r e) := by
  unfold val_main_v104
  exact concatenate_apply_piece (t := Cert.ReferenceIdeal.S65536x420) (1 : Fin 2)
    [⟨Cert.ReferenceIdeal.S65536x200, val_main_v96 (F := Ideal) a0 a1 a2 a3 a4 a5 a6 a7 a8 a9 a10 a11 a12⟩, ⟨Cert.ReferenceIdeal.S65536x128, val_main_v44 (F := Ideal) a0 a1 a7 a8 a9 a10⟩, ⟨Cert.ReferenceIdeal.S65536x4, val_main_v50 (F := Ideal) a0 a1 a7 a8 a9 a10 a11 a12⟩,
      ⟨Cert.ReferenceIdeal.S65536x4, val_main_v54 (F := Ideal) a0 a1 a7 a8 a9 a10 a11 a12⟩, ⟨Cert.ReferenceIdeal.S65536x20, val_main_v57 (F := Ideal) a0 a1 a2 a7 a8 a9 a10 a11 a12⟩, ⟨Cert.ReferenceIdeal.S65536x64, val_main_v103 (F := Ideal) a0 a1 a2 a3 a4 a5 a6 a7 a8 a9 a10 a11 a12 a13⟩] _
    (ix2 r ⟨332 + e.val, by have := e.isLt; omega⟩) 3 (show (3 : ℕ) < 6 by norm_num) Cert.ReferenceIdeal.S65536x4 _ rfl rfl 332 (by simp) (ix2 r e)
    (fun c hc => by
      match c with
      | ⟨0, _⟩ => rfl
      | ⟨1, _⟩ => exact absurd rfl hc) rfl

/-- Columns 336 … 355 of the reference's result are its stage v57. -/
theorem ref_band4 (r : Fin 65536) (e : Fin 20) :
    val_main_v104 (F := Ideal) a0 a1 a2 a3 a4 a5 a6 a7 a8 a9 a10 a11 a12 a13 (ix2 r ⟨336 + e.val, by have := e.isLt; omega⟩) = val_main_v57 (F := Ideal) a0 a1 a2 a7 a8 a9 a10 a11 a12 (ix2 r e) := by
  unfold val_main_v104
  exact concatenate_apply_piece (t := Cert.ReferenceIdeal.S65536x420) (1 : Fin 2)
    [⟨Cert.ReferenceIdeal.S65536x200, val_main_v96 (F := Ideal) a0 a1 a2 a3 a4 a5 a6 a7 a8 a9 a10 a11 a12⟩, ⟨Cert.ReferenceIdeal.S65536x128, val_main_v44 (F := Ideal) a0 a1 a7 a8 a9 a10⟩, ⟨Cert.ReferenceIdeal.S65536x4, val_main_v50 (F := Ideal) a0 a1 a7 a8 a9 a10 a11 a12⟩,
      ⟨Cert.ReferenceIdeal.S65536x4, val_main_v54 (F := Ideal) a0 a1 a7 a8 a9 a10 a11 a12⟩, ⟨Cert.ReferenceIdeal.S65536x20, val_main_v57 (F := Ideal) a0 a1 a2 a7 a8 a9 a10 a11 a12⟩, ⟨Cert.ReferenceIdeal.S65536x64, val_main_v103 (F := Ideal) a0 a1 a2 a3 a4 a5 a6 a7 a8 a9 a10 a11 a12 a13⟩] _
    (ix2 r ⟨336 + e.val, by have := e.isLt; omega⟩) 4 (show (4 : ℕ) < 6 by norm_num) Cert.ReferenceIdeal.S65536x20 _ rfl rfl 336 (by simp) (ix2 r e)
    (fun c hc => by
      match c with
      | ⟨0, _⟩ => rfl
      | ⟨1, _⟩ => exact absurd rfl hc) rfl

/-- Columns 356 … 419 of the reference's result are its stage v103. -/
theorem ref_band5 (r : Fin 65536) (e : Fin 64) :
    val_main_v104 (F := Ideal) a0 a1 a2 a3 a4 a5 a6 a7 a8 a9 a10 a11 a12 a13 (ix2 r ⟨356 + e.val, by have := e.isLt; omega⟩) = val_main_v103 (F := Ideal) a0 a1 a2 a3 a4 a5 a6 a7 a8 a9 a10 a11 a12 a13 (ix2 r e) := by
  unfold val_main_v104
  exact concatenate_apply_piece (t := Cert.ReferenceIdeal.S65536x420) (1 : Fin 2)
    [⟨Cert.ReferenceIdeal.S65536x200, val_main_v96 (F := Ideal) a0 a1 a2 a3 a4 a5 a6 a7 a8 a9 a10 a11 a12⟩, ⟨Cert.ReferenceIdeal.S65536x128, val_main_v44 (F := Ideal) a0 a1 a7 a8 a9 a10⟩, ⟨Cert.ReferenceIdeal.S65536x4, val_main_v50 (F := Ideal) a0 a1 a7 a8 a9 a10 a11 a12⟩,
      ⟨Cert.ReferenceIdeal.S65536x4, val_main_v54 (F := Ideal) a0 a1 a7 a8 a9 a10 a11 a12⟩, ⟨Cert.ReferenceIdeal.S65536x20, val_main_v57 (F := Ideal) a0 a1 a2 a7 a8 a9 a10 a11 a12⟩, ⟨Cert.ReferenceIdeal.S65536x64, val_main_v103 (F := Ideal) a0 a1 a2 a3 a4 a5 a6 a7 a8 a9 a10 a11 a12 a13⟩] _
    (ix2 r ⟨356 + e.val, by have := e.isLt; omega⟩) 5 (show (5 : ℕ) < 6 by norm_num) Cert.ReferenceIdeal.S65536x64 _ rfl rfl 356 (by simp) (ix2 r e)
    (fun c hc => by
      match c with
      | ⟨0, _⟩ => rfl
      | ⟨1, _⟩ => exact absurd rfl hc) rfl

/-! ## Where a band's entry sits in the block -/

theorem band0_emb (p : Fin 1024) (e : Fin 200) : (band0).emb (ix2 p e) = ix2 p ⟨e.val, by have := e.isLt; omega⟩ :=
  funext fun a => Fin.ext (by
    match a with
    | ⟨0, _⟩ => show 0 + 1 * p.val = p.val; omega
    | ⟨1, _⟩ => show 0 + 1 * e.val = e.val; omega)
theorem band200_emb (p : Fin 1024) (e : Fin 128) : (band200).emb (ix2 p e) = ix2 p ⟨200 + e.val, by have := e.isLt; omega⟩ :=
  funext fun a => Fin.ext (by
    match a with
    | ⟨0, _⟩ => show 0 + 1 * p.val = p.val; omega
    | ⟨1, _⟩ => show 200 + 1 * e.val = 200 + e.val; omega)
theorem band328_emb (p : Fin 1024) (e : Fin 4) : (band328).emb (ix2 p e) = ix2 p ⟨328 + e.val, by have := e.isLt; omega⟩ :=
  funext fun a => Fin.ext (by
    match a with
    | ⟨0, _⟩ => show 0 + 1 * p.val = p.val; omega
    | ⟨1, _⟩ => show 328 + 1 * e.val = 328 + e.val; omega)
theorem band332_emb (p : Fin 1024) (e : Fin 4) : (band332).emb (ix2 p e) = ix2 p ⟨332 + e.val, by have := e.isLt; omega⟩ :=
  funext fun a => Fin.ext (by
    match a with
    | ⟨0, _⟩ => show 0 + 1 * p.val = p.val; omega
    | ⟨1, _⟩ => show 332 + 1 * e.val = 332 + e.val; omega)
theorem band336_emb (p : Fin 1024) (e : Fin 20) : (band336).emb (ix2 p e) = ix2 p ⟨336 + e.val, by have := e.isLt; omega⟩ :=
  funext fun a => Fin.ext (by
    match a with
    | ⟨0, _⟩ => show 0 + 1 * p.val = p.val; omega
    | ⟨1, _⟩ => show 336 + 1 * e.val = 336 + e.val; omega)
theorem band356_emb (p : Fin 1024) (e : Fin 64) : (band356).emb (ix2 p e) = ix2 p ⟨356 + e.val, by have := e.isLt; omega⟩ :=
  funext fun a => Fin.ext (by
    match a with
    | ⟨0, _⟩ => show 0 + 1 * p.val = p.val; omega
    | ⟨1, _⟩ => show 356 + 1 * e.val = 356 + e.val; omega)

theorem hz : (![0, 0] : Fin 2 → Nat) = fun _ => 0 := funext fun a => by fin_cases a <;> rfl

/-! ## The block -/

local notation "𝐯1" => k0_pay3 (F := Ideal) X1
local notation "𝐯6" => k0_pay4 (F := Ideal) X0
local notation "𝐯41" => k0_pay5 (F := Ideal) X1 X0 X7 X9 X8 X10
/-- The clip bounds, as the body names them. -/
abbrev loI : Ideal FTy.f32 := Scalar.ofBits FTy.f32 0xC0A00000#32
abbrev hiI : Ideal FTy.f32 := Scalar.ofBits FTy.f32 0x40A00000#32
local notation "𝐥𝐨" => loI
local notation "𝐡𝐢" => hiI
local notation "𝐯45" => k0_pay6 (F := Ideal) 𝐯41 𝐥𝐨 𝐡𝐢
local notation "𝐯54" => k0_pay8 (F := Ideal) 𝐯41 𝐥𝐨 𝐡𝐢 X11 X12
local notation "𝐯58" => k0_pay9 (F := Ideal) 𝐯41 𝐥𝐨 𝐡𝐢 X11 X12
local notation "𝐯62" => k0_pay10 (F := Ideal) 𝐯6 𝐯41 𝐥𝐨 𝐡𝐢 X11 X12 X2
local notation "𝐯78" => k0_pay12 (F := Ideal) 𝐯1 X4 X6
local notation "𝐯79" => k0_pay13 (F := Ideal) 𝐯6 𝐯41 𝐥𝐨 𝐡𝐢 X11 X12 X2 X3 X5
local notation "𝐯80" => k0_pay14 (F := Ideal) 𝐯6 𝐯41 𝐥𝐨 𝐡𝐢 X11 X12 X2 X3 X5
local notation "𝐯81" => k0_pay15 (F := Ideal) 𝐯6 𝐯41 𝐥𝐨 𝐡𝐢 X11 X12 X2 X3 X5
local notation "𝐯82" => k0_pay16 (F := Ideal) 𝐯1 X4 X6
local notation "𝐯83" => k0_pay17 (F := Ideal) 𝐯1 X4 X6
local notation "𝐯100" => k0_pay1 (F := Ideal) 𝐯1 𝐯78 𝐯79 𝐯80 𝐯81 𝐯82 𝐯83
local notation "𝐯104" => k0_pay2 (F := Ideal) 𝐯1 𝐯78 𝐯79 𝐯80 𝐯81 𝐯82 𝐯83 X13

/-- The six stored pieces, each against the reference's stage. -/
theorem stages (hr : Reads X0 X1 X2 X3 X4 X5 X6 X7 X8 X9 X10 X11 X12 X13 a0 a1 a2 a3 a4 a5 a6 a7 a8 a9 a10 a11 a12 a13 row) :
    (∀ (p : Fin 1024) (e : Fin 200), 𝐯100 (ix2 p e) = val_main_v96 (F := Ideal) a0 a1 a2 a3 a4 a5 a6 a7 a8 a9 a10 a11 a12 (ix2 (row p) e))
    ∧ (∀ (p : Fin 1024) (e : Fin 128), 𝐯45 (ix2 p e) = val_main_v44 (F := Ideal) a0 a1 a7 a8 a9 a10 (ix2 (row p) e))
    ∧ (∀ (p : Fin 1024) (e : Fin 4), 𝐯54 (ix2 p e) = val_main_v50 (F := Ideal) a0 a1 a7 a8 a9 a10 a11 a12 (ix2 (row p) e))
    ∧ (∀ (p : Fin 1024) (e : Fin 4), 𝐯58 (ix2 p e) = val_main_v54 (F := Ideal) a0 a1 a7 a8 a9 a10 a11 a12 (ix2 (row p) e))
    ∧ (∀ (p : Fin 1024) (e : Fin 20), 𝐯62 (ix2 p e) = val_main_v57 (F := Ideal) a0 a1 a2 a7 a8 a9 a10 a11 a12 (ix2 (row p) e))
    ∧ (∀ (p : Fin 1024) (e : Fin 64), 𝐯104 (ix2 p e) = val_main_v103 (F := Ideal) a0 a1 a2 a3 a4 a5 a6 a7 a8 a9 a10 a11 a12 a13 (ix2 (row p) e)) := by
  have hcon : ∀ (p : Fin 1024) (e : Fin 128), 𝐯45 (ix2 p e) = val_main_v44 (F := Ideal) a0 a1 a7 a8 a9 a10 (ix2 (row p) e) :=
    con_eq X0 X1 X7 X8 X9 X10 a0 a1 a7 a8 a9 a10 row hr.h0 hr.h1 hr.h7 hr.h8 hr.h9 hr.h10
  have hlin : ∀ (p : Fin 1024) (n : Fin 8), coLin 𝐯45 X11 X12 (ix2 p n) = val_main_v49 (F := Ideal) a0 a1 a7 a8 a9 a10 a11 a12 (ix2 (row p) n) :=
    coLin_eq 𝐯45 X11 X12 hcon hr.h11 hr.h12
  have hmean : ∀ (p : Fin 1024) (e : Fin 4), 𝐯54 (ix2 p e) = val_main_v50 (F := Ideal) a0 a1 a7 a8 a9 a10 a11 a12 (ix2 (row p) e) :=
    mean_eq (coLin 𝐯45 X11 X12) hlin
  have hstd : ∀ (p : Fin 1024) (e : Fin 4), 𝐯58 (ix2 p e) = val_main_v54 (F := Ideal) a0 a1 a7 a8 a9 a10 a11 a12 (ix2 (row p) e) :=
    std_eq (coLin 𝐯45 X11 X12) hlin
  have hext : ∀ (p : Fin 1024) (e : Fin 16), 𝐯6 (ix2 p e) = val_main_v4 (F := Ideal) a0 (ix2 (row p) e) := ext_eq X0 hr.h0
  have hgin : ∀ (p : Fin 1024) (j : Fin 20), 𝐯62 (ix2 p j) = val_main_v57 (F := Ideal) a0 a1 a2 a7 a8 a9 a10 a11 a12 (ix2 (row p) j) :=
    gin_eq 𝐯54 𝐯58 X2 𝐯6 hmean hstd hr.h2 hext
  have hhid : ∀ (p : Fin 1024) (e : Fin 200), 𝐯1 (ix2 p e) = val_main_v0 (F := Ideal) a1 (ix2 (row p) e) := hid_eq X1 hr.h1
  have hgi := fun (p : Fin 1024) (e : Fin 200) => gateI_eq (genGi 𝐯62 X3 X5) p e
    (genGi_eq 𝐯62 X3 X5 hgin ⟨e.val, by have := e.isLt; omega⟩ ⟨e.val, by have := e.isLt; omega⟩ (fun x => (hr.w3 x e).1) (hr.b5 e).1 p)
    (genGi_eq 𝐯62 X3 X5 hgin ⟨256 + e.val, by have := e.isLt; omega⟩ ⟨200 + e.val, by have := e.isLt; omega⟩ (fun x => (hr.w3 x e).2.1) (hr.b5 e).2.1 p)
    (genGi_eq 𝐯62 X3 X5 hgin ⟨512 + e.val, by have := e.isLt; omega⟩ ⟨400 + e.val, by have := e.isLt; omega⟩ (fun x => (hr.w3 x e).2.2) (hr.b5 e).2.2 p)
  have hgh := fun (p : Fin 1024) (e : Fin 200) => gateH_eq (genGh 𝐯1 X4 X6) p e
    (genGh_eq 𝐯1 X4 X6 hhid ⟨e.val, by have := e.isLt; omega⟩ ⟨e.val, by have := e.isLt; omega⟩ (fun x => (hr.w4 x e).1) (hr.b6 e).1 p)
    (genGh_eq 𝐯1 X4 X6 hhid ⟨256 + e.val, by have := e.isLt; omega⟩ ⟨200 + e.val, by have := e.isLt; omega⟩ (fun x => (hr.w4 x e).2.1) (hr.b6 e).2.1 p)
    (genGh_eq 𝐯1 X4 X6 hhid ⟨512 + e.val, by have := e.isLt; omega⟩ ⟨400 + e.val, by have := e.isLt; omega⟩ (fun x => (hr.w4 x e).2.2) (hr.b6 e).2.2 p)
  have hgen : ∀ (p : Fin 1024) (e : Fin 200), 𝐯100 (ix2 p e) = val_main_v96 (F := Ideal) a0 a1 a2 a3 a4 a5 a6 a7 a8 a9 a10 a11 a12 (ix2 (row p) e) := fun p e =>
    gen_eq 𝐯1 𝐯78 𝐯79 𝐯80 𝐯81 𝐯82 𝐯83 p e (hgi p e).1 (hgi p e).2.1 (hgi p e).2.2 (hgh p e).1 (hgh p e).2.1 (hgh p e).2.2 (hhid p e)
  have hfac : ∀ (p : Fin 1024) (n : Fin 64), 𝐯104 (ix2 p n) = val_main_v103 (F := Ideal) a0 a1 a2 a3 a4 a5 a6 a7 a8 a9 a10 a11 a12 a13 (ix2 (row p) n) :=
    fac_eq 𝐯100 X13 hgen hr.h13
  exact ⟨hgen, hcon, hmean, hstd, hgin, hfac⟩

/-- The block at `(p, j)` is the reference's result at `(row p, j)`. -/
theorem cell_eq (hr : Reads X0 X1 X2 X3 X4 X5 X6 X7 X8 X9 X10 X11 X12 X13 a0 a1 a2 a3 a4 a5 a6 a7 a8 a9 a10 a11 a12 a13 row) (p : Fin 1024) (j : Fin 420) :
    cellBlock X0 X1 X2 X3 X4 X5 X6 X7 X8 X9 X10 X11 X12 X13 (ix2 p j) = val_main_v104 (F := Ideal) a0 a1 a2 a3 a4 a5 a6 a7 a8 a9 a10 a11 a12 a13 (ix2 (row p) j) := by
  obtain ⟨s0, s1, s2, s3, s4, s5⟩ := stages X0 X1 X2 X3 X4 X5 X6 X7 X8 X9 X10 X11 X12 X13 a0 a1 a2 a3 a4 a5 a6 a7 a8 a9 a10 a11 a12 a13 row hr
  unfold cellBlock
  simp only [conRaw, View.ld_unit_zero (S := S1024x272) hz, View.ld_unit_zero (S := S1024x420) hz, View.ld_unit_zero (S := S1024x4) hz,
    View.ld_unit_zero (S := S20x768) hz, View.ld_unit_zero (S := S200x768) hz, View.ld_unit_zero (S := S1x768) hz,
    View.ld_unit_zero (S := S320x384) hz, View.ld_unit_zero (S := S128x384) hz, View.ld_unit_zero (S := S1x384) hz,
    View.ld_unit_zero (S := S128x8) hz, View.ld_unit_zero (S := S1x8) hz, View.ld_unit_zero (S := S200x64) hz]
  refine (View.canon_apply_of_pieces (fun y : S1024x420.Idx => val_main_v104 (F := Ideal) a0 a1 a2 a3 a4 a5 a6 a7 a8 a9 a10 a11 a12 a13 (ix2 (row (y 0)) (y 1))) _ ?_ (ix2 p j)
    (bands_cover _ _ _ _ _ _ (ix2 p j))).trans rfl
  intro q hq
  simp only [List.mem_cons, List.mem_nil_iff, or_false] at hq
  rcases hq with rfl | rfl | rfl | rfl | rfl | rfl
  · intro x
    obtain ⟨p', e, rfl⟩ : ∃ (p' : Fin 1024) (e : Fin 64), x = ix2 p' e := ⟨x 0, x 1, eq_ix2 x⟩
    show _ = val_main_v104 (F := Ideal) a0 a1 a2 a3 a4 a5 a6 a7 a8 a9 a10 a11 a12 a13 (ix2 (row (((band356).emb (ix2 p' e)) 0)) (((band356).emb (ix2 p' e)) 1))
    rw [band356_emb]
    exact (s5 p' e).trans (ref_band5 a0 a1 a2 a3 a4 a5 a6 a7 a8 a9 a10 a11 a12 a13 (row p') e).symm
  · intro x
    obtain ⟨p', e, rfl⟩ : ∃ (p' : Fin 1024) (e : Fin 20), x = ix2 p' e := ⟨x 0, x 1, eq_ix2 x⟩
    show _ = val_main_v104 (F := Ideal) a0 a1 a2 a3 a4 a5 a6 a7 a8 a9 a10 a11 a12 a13 (ix2 (row (((band336).emb (ix2 p' e)) 0)) (((band336).emb (ix2 p' e)) 1))
    rw [band336_emb]
    exact (s4 p' e).trans (ref_band4 a0 a1 a2 a3 a4 a5 a6 a7 a8 a9 a10 a11 a12 a13 (row p') e).symm
  · intro x
    obtain ⟨p', e, rfl⟩ : ∃ (p' : Fin 1024) (e : Fin 4), x = ix2 p' e := ⟨x 0, x 1, eq_ix2 x⟩
    show _ = val_main_v104 (F := Ideal) a0 a1 a2 a3 a4 a5 a6 a7 a8 a9 a10 a11 a12 a13 (ix2 (row (((band332).emb (ix2 p' e)) 0)) (((band332).emb (ix2 p' e)) 1))
    rw [band332_emb]
    exact (s3 p' e).trans (ref_band3 a0 a1 a2 a3 a4 a5 a6 a7 a8 a9 a10 a11 a12 a13 (row p') e).symm
  · intro x
    obtain ⟨p', e, rfl⟩ : ∃ (p' : Fin 1024) (e : Fin 4), x = ix2 p' e := ⟨x 0, x 1, eq_ix2 x⟩
    show _ = val_main_v104 (F := Ideal) a0 a1 a2 a3 a4 a5 a6 a7 a8 a9 a10 a11 a12 a13 (ix2 (row (((band328).emb (ix2 p' e)) 0)) (((band328).emb (ix2 p' e)) 1))
    rw [band328_emb]
    exact (s2 p' e).trans (ref_band2 a0 a1 a2 a3 a4 a5 a6 a7 a8 a9 a10 a11 a12 a13 (row p') e).symm
  · intro x
    obtain ⟨p', e, rfl⟩ : ∃ (p' : Fin 1024) (e : Fin 128), x = ix2 p' e := ⟨x 0, x 1, eq_ix2 x⟩
    show _ = val_main_v104 (F := Ideal) a0 a1 a2 a3 a4 a5 a6 a7 a8 a9 a10 a11 a12 a13 (ix2 (row (((band200).emb (ix2 p' e)) 0)) (((band200).emb (ix2 p' e)) 1))
    rw [band200_emb]
    exact (s1 p' e).trans (ref_band1 a0 a1 a2 a3 a4 a5 a6 a7 a8 a9 a10 a11 a12 a13 (row p') e).symm
  · intro x
    obtain ⟨p', e, rfl⟩ : ∃ (p' : Fin 1024) (e : Fin 200), x = ix2 p' e := ⟨x 0, x 1, eq_ix2 x⟩
    show _ = val_main_v104 (F := Ideal) a0 a1 a2 a3 a4 a5 a6 a7 a8 a9 a10 a11 a12 a13 (ix2 (row (((band0).emb (ix2 p' e)) 0)) (((band0).emb (ix2 p' e)) 1))
    rw [band0_emb]
    exact (s0 p' e).trans (ref_band0 a0 a1 a2 a3 a4 a5 a6 a7 a8 a9 a10 a11 a12 a13 (row p') e).symm

end Cert.KernelIdeal.CellBridge

end
-- ==== Proof.CellWeights.lean ====
/-
  The eleven prepared weight arrays as terms of the arguments, and their entries at the exact instance.

  A weight matrix is handed to the body transposed, so its entry (x, n) is the argument's entry (n, x). The
  generator's two matrices are also re-laid: gate g (of three) occupies columns 256·g … 256·g + 199 of the prepared
  matrix and rows 200·g … 200·g + 199 of the argument, the 56 columns after each gate holding the pad value; the
  generator's biases are re-laid the same way, as one row. The body reads only the gate columns. The factor matrix
  is prepared exactly as the reference prepares it (rows divided by the larger of their norm and 1e-12, transposed).
  The change to the 16-bit format is the identity at the exact instance.
-/
import proofs.«141967_j3573412790665_2_alg».proof.Proof.Gen.KernelIdeal.Skeleton
import proofs.«141967_j3573412790665_2_alg».proof.Proof.Gen.ReferenceIdeal.Read
import proofs.«141967_j3573412790665_2_alg».proof.Proof.CellIdx
import Idealize.ShloMosaic.Lib.KernelVsHost

noncomputable section

namespace Cert.KernelIdeal.CellWeights

open Idealize.ShloMosaic Idealize.ShloMosaic.ValueIdx Cert.KernelIdeal Cert.KernelIdeal.Gen Cert.CellIdx

variable {F : FTy → Type} [FloatOps F]

/-- The pad value: the integer 0 changed to a float. -/
def padv : FVec F S_ .f32 := sitofp .f32 (constantI S_ 32 0#32)

/-- Gate 0 of the transposed matrix, padded to 256 columns. -/
def genInG0 (A : FVec F S600x20 .f32) : FVec F S20x256 .f32 :=
  pad S20x256 ![0, 0] ![0, 56] ![0, 0] (extractStridedSlice S20x200 ![0, 0] (transpose S20x600 [1, 0] A transposes_S600x20_S20x600_1_0) slices_S20x600_S20x200_0_0) padv pads_S20x200_S20x256_000_0560 h_S_
/-- Gate 1 of the transposed matrix, padded to 256 columns. -/
def genInG1 (A : FVec F S600x20 .f32) : FVec F S20x256 .f32 :=
  pad S20x256 ![0, 0] ![0, 56] ![0, 0] (extractStridedSlice S20x200 ![0, 200] (transpose S20x600 [1, 0] A transposes_S600x20_S20x600_1_0) slices_S20x600_S20x200_0_200) padv pads_S20x200_S20x256_000_0560 h_S_
/-- Gate 2 of the transposed matrix, padded to 256 columns. -/
def genInG2 (A : FVec F S600x20 .f32) : FVec F S20x256 .f32 :=
  pad S20x256 ![0, 0] ![0, 56] ![0, 0] (extractStridedSlice S20x200 ![0, 400] (transpose S20x600 [1, 0] A transposes_S600x20_S20x600_1_0) slices_S20x600_S20x200_0_400) padv pads_S20x200_S20x256_000_0560 h_S_

/-- The three padded gates joined: 768 columns. -/
def genInW (A : FVec F S600x20 .f32) : FVec F S20x768 .bf16 :=
  truncf .bf16 (concatenate S20x768 1 [⟨S20x256, genInG0 A⟩, ⟨S20x256, genInG1 A⟩, ⟨S20x256, genInG2 A⟩]
    concatenates_S20x256_S20x256_S20x256_S20x768_d1) bitsLt_bf16_f32

/-- Gate 0 of the transposed matrix, padded to 256 columns. -/
def genHidG0 (A : FVec F S600x200 .f32) : FVec F S200x256 .f32 :=
  pad S200x256 ![0, 0] ![0, 56] ![0, 0] (extractStridedSlice S200x200 ![0, 0] (transpose S200x600 [1, 0] A transposes_S600x200_S200x600_1_0) slices_S200x600_S200x200_0_0) padv pads_S200x200_S200x256_000_0560 h_S_
/-- Gate 1 of the transposed matrix, padded to 256 columns. -/
def genHidG1 (A : FVec F S600x200 .f32) : FVec F S200x256 .f32 :=
  pad S200x256 ![0, 0] ![0, 56] ![0, 0] (extractStridedSlice S200x200 ![0, 200] (transpose S200x600 [1, 0] A transposes_S600x200_S200x600_1_0) slices_S200x600_S200x200_0_200) padv pads_S200x200_S200x256_000_0560 h_S_
/-- Gate 2 of the transposed matrix, padded to 256 columns. -/
def genHidG2 (A : FVec F S600x200 .f32) : FVec F S200x256 .f32 :=
  pad S200x256 ![0, 0] ![0, 56] ![0, 0] (extractStridedSlice S200x200 ![0, 400] (transpose S200x600 [1, 0] A transposes_S600x200_S200x600_1_0) slices_S200x600_S200x200_0_400) padv pads_S200x200_S200x256_000_0560 h_S_

/-- The three padded gates joined: 768 columns. -/
def genHidW (A : FVec F S600x200 .f32) : FVec F S200x768 .bf16 :=
  truncf .bf16 (concatenate S200x768 1 [⟨S200x256, genHidG0 A⟩, ⟨S200x256, genHidG1 A⟩, ⟨S200x256, genHidG2 A⟩]
    concatenates_S200x256_S200x256_S200x256_S200x768_d1) bitsLt_bf16_f32

/-- Gate 0 of a bias, padded to 256 entries. -/
def genBG0 (A : FVec F S600 .f32) : FVec F S256 .f32 :=
  pad S256 ![0] ![56] ![0] (extractStridedSlice S200 ![0] A slices_S600_S200_0) padv pads_S200_S256_0560 h_S_
/-- Gate 1 of a bias, padded to 256 entries. -/
def genBG1 (A : FVec F S600 .f32) : FVec F S256 .f32 :=
  pad S256 ![0] ![56] ![0] (extractStridedSlice S200 ![200] A slices_S600_S200_200) padv pads_S200_S256_0560 h_S_
/-- Gate 2 of a bias, padded to 256 entries. -/
def genBG2 (A : FVec F S600 .f32) : FVec F S256 .f32 :=
  pad S256 ![0] ![56] ![0] (extractStridedSlice S200 ![400] A slices_S600_S200_400) padv pads_S200_S256_0560 h_S_

/-- The three padded gates joined, as one row. -/
def genB (A : FVec F S600 .f32) : FVec F S1x768 .f32 :=
  broadcastInDim S1x768 ![1] bcast_S768_S1x768_1 (concatenate S768 0 [⟨S256, genBG0 A⟩, ⟨S256, genBG1 A⟩, ⟨S256, genBG2 A⟩]
    concatenates_S256_S256_S256_S768_d0)

def conInW (A : FVec F S384x320 .f32) : FVec F S320x384 .bf16 :=
  truncf .bf16 (transpose S320x384 [1, 0] A transposes_S384x320_S320x384_1_0) bitsLt_bf16_f32
def conHidW (A : FVec F S384x128 .f32) : FVec F S128x384 .bf16 :=
  truncf .bf16 (transpose S128x384 [1, 0] A transposes_S384x128_S128x384_1_0) bitsLt_bf16_f32
def conB (A : FVec F S384 .f32) : FVec F S1x384 .f32 := broadcastInDim S1x384 ![1] bcast_S384_S1x384_1 A
def coW (A : FVec F S8x128 .f32) : FVec F S128x8 .bf16 :=
  truncf .bf16 (transpose S128x8 [1, 0] A transposes_S8x128_S128x8_1_0) bitsLt_bf16_f32
def coB (A : FVec F S8 .f32) : FVec F S1x8 .f32 := broadcastInDim S1x8 ![1] bcast_S8_S1x8_1 A

/-- The factor read-out's weights: each row of the matrix divided by the larger of its norm and 1e-12, transposed. -/
def facW (A : FVec F S64x200 .f32) : FVec F S200x64 .bf16 :=
  truncf .bf16 (transpose S200x64 [1, 0]
    (Host.divf A (broadcastInDim S64x200 ![0, 1] bcast_S64x1_S64x200_0_1
      (maximumf (Host.sqrt (broadcastInDim S64x1 ![0] bcast_S64_S64x1_0
          (Host.reduceAdd (mulf A A) (constant S_ .f32 0x00000000#32) reducesTo_S64x200_S64_d1 h_S_)))
        (broadcastInDim S64x1 ![] bcast_S_S64x1 (constant S_ .f32 0x2B8CBCCC#32)))))
    transposes_S64x200_S200x64_1_0) bitsLt_bf16_f32

/-! ## Entries, at the exact instance -/

theorem conInW_apply (A : FVec Ideal S384x320 .f32) (x : Fin 320) (n : Fin 384) : conInW A (ix2 x n) = A (ix2 n x) :=
  transpose_apply [1, 0] A transposes_S384x320_S320x384_1_0 (ix2 x n) (ix2 n x) (fun b => match b with
    | ⟨0, _⟩ => rfl
    | ⟨1, _⟩ => rfl)

theorem conHidW_apply (A : FVec Ideal S384x128 .f32) (x : Fin 128) (n : Fin 384) : conHidW A (ix2 x n) = A (ix2 n x) :=
  transpose_apply [1, 0] A transposes_S384x128_S128x384_1_0 (ix2 x n) (ix2 n x) (fun b => match b with
    | ⟨0, _⟩ => rfl
    | ⟨1, _⟩ => rfl)

theorem coW_apply (A : FVec Ideal S8x128 .f32) (x : Fin 128) (n : Fin 8) : coW A (ix2 x n) = A (ix2 n x) :=
  transpose_apply [1, 0] A transposes_S8x128_S128x8_1_0 (ix2 x n) (ix2 n x) (fun b => match b with
    | ⟨0, _⟩ => rfl
    | ⟨1, _⟩ => rfl)

theorem conB_apply (A : FVec Ideal S384 .f32) (n : Fin 384) : conB A (ix2 (0 : Fin 1) n) = A (ix1 n) :=
  broadcastInDim_apply _ bcast_S384_S1x384_1 A (ix2 (0 : Fin 1) n) (ix1 n) (fun a => match a with
    | ⟨0, _⟩ => by show n.val = if (384 : Nat) = 1 then 0 else n.val; rw [if_neg (by decide)])

theorem coB_apply (A : FVec Ideal S8 .f32) (n : Fin 8) : coB A (ix2 (0 : Fin 1) n) = A (ix1 n) :=
  broadcastInDim_apply _ bcast_S8_S1x8_1 A (ix2 (0 : Fin 1) n) (ix1 n) (fun a => match a with
    | ⟨0, _⟩ => by show n.val = if (8 : Nat) = 1 then 0 else n.val; rw [if_neg (by decide)])

/-- Gate 0 of the re-laid matrix: column 0 + e of row x is the argument's entry (0 + e, x). -/
theorem genInW_gate0 (A : FVec Ideal S600x20 .f32) (x : Fin 20) (e : Fin 200) :
    genInW A (ix2 x ⟨e.val, by have := e.isLt; omega⟩) = A (ix2 ⟨e.val, by have := e.isLt; omega⟩ x) := by
  unfold genInW
  refine (concatenate_apply_piece (t := S20x768) (1 : Fin 2) [⟨S20x256, genInG0 A⟩, ⟨S20x256, genInG1 A⟩, ⟨S20x256, genInG2 A⟩]
    concatenates_S20x256_S20x256_S20x256_S20x768_d1 (ix2 x ⟨e.val, by have := e.isLt; omega⟩) 0 (show (0 : ℕ) < 3 by norm_num) S20x256 (genInG0 A) rfl rfl 0 (by simp)
    (ix2 x ⟨e.val, by have := e.isLt; omega⟩) (fun c hc => by
      match c with
      | ⟨0, _⟩ => rfl
      | ⟨1, _⟩ => exact absurd rfl hc) (Nat.zero_add _)).trans ?_
  unfold genInG0
  refine (pad_apply_of_inside ![0, 0] ![0, 56] ![0, 0] _ (padv (F := Ideal)) pads_S20x200_S20x256_000_0560 h_S_ (ix2 x ⟨e.val, by have := e.isLt; omega⟩) (ix2 x e) (fun a => by
    match a with
    | ⟨0, _⟩ => show x.val = 0 + x.val * (0 + 1); omega
    | ⟨1, _⟩ => show e.val = 0 + e.val * (0 + 1); omega)).trans ?_
  refine (cols0_apply (n := 20) (m := 600) (m1 := 200) _ slices_S20x600_S20x200_0_0 x e (by have := e.isLt; omega)).trans ?_
  exact transpose_apply [1, 0] A transposes_S600x20_S20x600_1_0 _ (ix2 ⟨e.val, by have := e.isLt; omega⟩ x) (fun b => match b with
    | ⟨0, _⟩ => rfl
    | ⟨1, _⟩ => rfl)

/-- Gate 1 of the re-laid matrix: column 256 + e of row x is the argument's entry (200 + e, x). -/
theorem genInW_gate1 (A : FVec Ideal S600x20 .f32) (x : Fin 20) (e : Fin 200) :
    genInW A (ix2 x ⟨256 + e.val, by have := e.isLt; omega⟩) = A (ix2 ⟨200 + e.val, by have := e.isLt; omega⟩ x) := by
  unfold genInW
  refine (concatenate_apply_piece (t := S20x768) (1 : Fin 2) [⟨S20x256, genInG0 A⟩, ⟨S20x256, genInG1 A⟩, ⟨S20x256, genInG2 A⟩]
    concatenates_S20x256_S20x256_S20x256_S20x768_d1 (ix2 x ⟨256 + e.val, by have := e.isLt; omega⟩) 1 (show (1 : ℕ) < 3 by norm_num) S20x256 (genInG1 A) rfl rfl 256 (by simp)
    (ix2 x ⟨e.val, by have := e.isLt; omega⟩) (fun c hc => by
      match c with
      | ⟨0, _⟩ => rfl
      | ⟨1, _⟩ => exact absurd rfl hc) rfl).trans ?_
  unfold genInG1
  refine (pad_apply_of_inside ![0, 0] ![0, 56] ![0, 0] _ (padv (F := Ideal)) pads_S20x200_S20x256_000_0560 h_S_ (ix2 x ⟨e.val, by have := e.isLt; omega⟩) (ix2 x e) (fun a => by
    match a with
    | ⟨0, _⟩ => show x.val = 0 + x.val * (0 + 1); omega
    | ⟨1, _⟩ => show e.val = 0 + e.val * (0 + 1); omega)).trans ?_
  refine (cols_apply (n := 20) (m := 600) (m1 := 200) 200 _ slices_S20x600_S20x200_0_200 x e (by have := e.isLt; omega)).trans ?_
  exact transpose_apply [1, 0] A transposes_S600x20_S20x600_1_0 _ (ix2 ⟨200 + e.val, by have := e.isLt; omega⟩ x) (fun b => match b with
    | ⟨0, _⟩ => rfl
    | ⟨1, _⟩ => rfl)

/-- Gate 2 of the re-laid matrix: column 512 + e of row x is the argument's entry (400 + e, x). -/
theorem genInW_gate2 (A : FVec Ideal S600x20 .f32) (x : Fin 20) (e : Fin 200) :
    genInW A (ix2 x ⟨512 + e.val, by have := e.isLt; omega⟩) = A (ix2 ⟨400 + e.val, by have := e.isLt; omega⟩ x) := by
  unfold genInW
  refine (concatenate_apply_piece (t := S20x768) (1 : Fin 2) [⟨S20x256, genInG0 A⟩, ⟨S20x256, genInG1 A⟩, ⟨S20x256, genInG2 A⟩]
    concatenates_S20x256_S20x256_S20x256_S20x768_d1 (ix2 x ⟨512 + e.val, by have := e.isLt; omega⟩) 2 (show (2 : ℕ) < 3 by norm_num) S20x256 (genInG2 A) rfl rfl 512 (by simp)
    (ix2 x ⟨e.val, by have := e.isLt; omega⟩) (fun c hc => by
      match c with
      | ⟨0, _⟩ => rfl
      | ⟨1, _⟩ => exact absurd rfl hc) rfl).trans ?_
  unfold genInG2
  refine (pad_apply_of_inside ![0, 0] ![0, 56] ![0, 0] _ (padv (F := Ideal)) pads_S20x200_S20x256_000_0560 h_S_ (ix2 x ⟨e.val, by have := e.isLt; omega⟩) (ix2 x e) (fun a => by
    match a with
    | ⟨0, _⟩ => show x.val = 0 + x.val * (0 + 1); omega
    | ⟨1, _⟩ => show e.val = 0 + e.val * (0 + 1); omega)).trans ?_
  refine (cols_apply (n := 20) (m := 600) (m1 := 200) 400 _ slices_S20x600_S20x200_0_400 x e (by have := e.isLt; omega)).trans ?_
  exact transpose_apply [1, 0] A transposes_S600x20_S20x600_1_0 _ (ix2 ⟨400 + e.val, by have := e.isLt; omega⟩ x) (fun b => match b with
    | ⟨0, _⟩ => rfl
    | ⟨1, _⟩ => rfl)

/-- Gate 0 of the re-laid matrix: column 0 + e of row x is the argument's entry (0 + e, x). -/
theorem genHidW_gate0 (A : FVec Ideal S600x200 .f32) (x : Fin 200) (e : Fin 200) :
    genHidW A (ix2 x ⟨e.val, by have := e.isLt; omega⟩) = A (ix2 ⟨e.val, by have := e.isLt; omega⟩ x) := by
  unfold genHidW
  refine (concatenate_apply_piece (t := S200x768) (1 : Fin 2) [⟨S200x256, genHidG0 A⟩, ⟨S200x256, genHidG1 A⟩, ⟨S200x256, genHidG2 A⟩]
    concatenates_S200x256_S200x256_S200x256_S200x768_d1 (ix2 x ⟨e.val, by have := e.isLt; omega⟩) 0 (show (0 : ℕ) < 3 by norm_num) S200x256 (genHidG0 A) rfl rfl 0 (by simp)
    (ix2 x ⟨e.val, by have := e.isLt; omega⟩) (fun c hc => by
      match c with
      | ⟨0, _⟩ => rfl
      | ⟨1, _⟩ => exact absurd rfl hc) (Nat.zero_add _)).trans ?_
  unfold genHidG0
  refine (pad_apply_of_inside ![0, 0] ![0, 56] ![0, 0] _ (padv (F := Ideal)) pads_S200x200_S200x256_000_0560 h_S_ (ix2 x ⟨e.val, by have := e.isLt; omega⟩) (ix2 x e) (fun a => by
    match a with
    | ⟨0, _⟩ => show x.val = 0 + x.val * (0 + 1); omega
    | ⟨1, _⟩ => show e.val = 0 + e.val * (0 + 1); omega)).trans ?_
  refine (cols0_apply (n := 200) (m := 600) (m1 := 200) _ slices_S200x600_S200x200_0_0 x e (by have := e.isLt; omega)).trans ?_
  exact transpose_apply [1, 0] A transposes_S600x200_S200x600_1_0 _ (ix2 ⟨e.val, by have := e.isLt; omega⟩ x) (fun b => match b with
    | ⟨0, _⟩ => rfl
    | ⟨1, _⟩ => rfl)

/-- Gate 1 of the re-laid matrix: column 256 + e of row x is the argument's entry (200 + e, x). -/
theorem genHidW_gate1 (A : FVec Ideal S600x200 .f32) (x : Fin 200) (e : Fin 200) :
    genHidW A (ix2 x ⟨256 + e.val, by have := e.isLt; omega⟩) = A (ix2 ⟨200 + e.val, by have := e.isLt; omega⟩ x) := by
  unfold genHidW
  refine (concatenate_apply_piece (t := S200x768) (1 : Fin 2) [⟨S200x256, genHidG0 A⟩, ⟨S200x256, genHidG1 A⟩, ⟨S200x256, genHidG2 A⟩]
    concatenates_S200x256_S200x256_S200x256_S200x768_d1 (ix2 x ⟨256 + e.val, by have := e.isLt; omega⟩) 1 (show (1 : ℕ) < 3 by norm_num) S200x256 (genHidG1 A) rfl rfl 256 (by simp)
    (ix2 x ⟨e.val, by have := e.isLt; omega⟩) (fun c hc => by
      match c with
      | ⟨0, _⟩ => rfl
      | ⟨1, _⟩ => exact absurd rfl hc) rfl).trans ?_
  unfold genHidG1
  refine (pad_apply_of_inside ![0, 0] ![0, 56] ![0, 0] _ (padv (F := Ideal)) pads_S200x200_S200x256_000_0560 h_S_ (ix2 x ⟨e.val, by have := e.isLt; omega⟩) (ix2 x e) (fun a => by
    match a with
    | ⟨0, _⟩ => show x.val = 0 + x.val * (0 + 1); omega
    | ⟨1, _⟩ => show e.val = 0 + e.val * (0 + 1); omega)).trans ?_
  refine (cols_apply (n := 200) (m := 600) (m1 := 200) 200 _ slices_S200x600_S200x200_0_200 x e (by have := e.isLt; omega)).trans ?_
  exact transpose_apply [1, 0] A transposes_S600x200_S200x600_1_0 _ (ix2 ⟨200 + e.val, by have := e.isLt; omega⟩ x) (fun b => match b with
    | ⟨0, _⟩ => rfl
    | ⟨1, _⟩ => rfl)

/-- Gate 2 of the re-laid matrix: column 512 + e of row x is the argument's entry (400 + e, x). -/
theorem genHidW_gate2 (A : FVec Ideal S600x200 .f32) (x : Fin 200) (e : Fin 200) :
    genHidW A (ix2 x ⟨512 + e.val, by have := e.isLt; omega⟩) = A (ix2 ⟨400 + e.val, by have := e.isLt; omega⟩ x) := by
  unfold genHidW
  refine (concatenate_apply_piece (t := S200x768) (1 : Fin 2) [⟨S200x256, genHidG0 A⟩, ⟨S200x256, genHidG1 A⟩, ⟨S200x256, genHidG2 A⟩]
    concatenates_S200x256_S200x256_S200x256_S200x768_d1 (ix2 x ⟨512 + e.val, by have := e.isLt; omega⟩) 2 (show (2 : ℕ) < 3 by norm_num) S200x256 (genHidG2 A) rfl rfl 512 (by simp)
    (ix2 x ⟨e.val, by have := e.isLt; omega⟩) (fun c hc => by
      match c with
      | ⟨0, _⟩ => rfl
      | ⟨1, _⟩ => exact absurd rfl hc) rfl).trans ?_
  unfold genHidG2
  refine (pad_apply_of_inside ![0, 0] ![0, 56] ![0, 0] _ (padv (F := Ideal)) pads_S200x200_S200x256_000_0560 h_S_ (ix2 x ⟨e.val, by have := e.isLt; omega⟩) (ix2 x e) (fun a => by
    match a with
    | ⟨0, _⟩ => show x.val = 0 + x.val * (0 + 1); omega
    | ⟨1, _⟩ => show e.val = 0 + e.val * (0 + 1); omega)).trans ?_
  refine (cols_apply (n := 200) (m := 600) (m1 := 200) 400 _ slices_S200x600_S200x200_0_400 x e (by have := e.isLt; omega)).trans ?_
  exact transpose_apply [1, 0] A transposes_S600x200_S200x600_1_0 _ (ix2 ⟨400 + e.val, by have := e.isLt; omega⟩ x) (fun b => match b with
    | ⟨0, _⟩ => rfl
    | ⟨1, _⟩ => rfl)

/-- Gate 0 of a re-laid bias: entry 0 + e of the row is the argument's entry 0 + e. -/
theorem genB_gate0 (A : FVec Ideal S600 .f32) (e : Fin 200) :
    genB A (ix2 (0 : Fin 1) ⟨e.val, by have := e.isLt; omega⟩) = A (ix1 ⟨e.val, by have := e.isLt; omega⟩) := by
  unfold genB
  refine (broadcastInDim_apply _ bcast_S768_S1x768_1 _ (ix2 (0 : Fin 1) ⟨e.val, by have := e.isLt; omega⟩) (ix1 ⟨e.val, by have := e.isLt; omega⟩) (fun a => match a with
    | ⟨0, _⟩ => by show e.val = if (768 : Nat) = 1 then 0 else e.val; rw [if_neg (by decide)])).trans ?_
  refine (concatenate_apply_piece (t := S768) (0 : Fin 1) [⟨S256, genBG0 A⟩, ⟨S256, genBG1 A⟩, ⟨S256, genBG2 A⟩] concatenates_S256_S256_S256_S768_d0
    (ix1 ⟨e.val, by have := e.isLt; omega⟩) 0 (show (0 : ℕ) < 3 by norm_num) S256 (genBG0 A) rfl rfl 0 (by simp)
    (ix1 ⟨e.val, by have := e.isLt; omega⟩) (fun c hc => by
      match c with
      | ⟨0, _⟩ => exact absurd rfl hc) (Nat.zero_add _)).trans ?_
  unfold genBG0
  refine (pad_apply_of_inside ![0] ![56] ![0] _ (padv (F := Ideal)) pads_S200_S256_0560 h_S_ (ix1 ⟨e.val, by have := e.isLt; omega⟩) (ix1 e) (fun a => by
    match a with
    | ⟨0, _⟩ => show e.val = 0 + e.val * (0 + 1); omega)).trans ?_
  exact extractStridedSlice_apply ![0] A slices_S600_S200_0 (ix1 e) (ix1 ⟨e.val, by have := e.isLt; omega⟩) (fun a => by
    match a with
    | ⟨0, _⟩ => show e.val = 0 + e.val; omega)

/-- Gate 1 of a re-laid bias: entry 256 + e of the row is the argument's entry 200 + e. -/
theorem genB_gate1 (A : FVec Ideal S600 .f32) (e : Fin 200) :
    genB A (ix2 (0 : Fin 1) ⟨256 + e.val, by have := e.isLt; omega⟩) = A (ix1 ⟨200 + e.val, by have := e.isLt; omega⟩) := by
  unfold genB
  refine (broadcastInDim_apply _ bcast_S768_S1x768_1 _ (ix2 (0 : Fin 1) ⟨256 + e.val, by have := e.isLt; omega⟩) (ix1 ⟨256 + e.val, by have := e.isLt; omega⟩) (fun a => match a with
    | ⟨0, _⟩ => by show 256 + e.val = if (768 : Nat) = 1 then 0 else 256 + e.val; rw [if_neg (by decide)])).trans ?_
  refine (concatenate_apply_piece (t := S768) (0 : Fin 1) [⟨S256, genBG0 A⟩, ⟨S256, genBG1 A⟩, ⟨S256, genBG2 A⟩] concatenates_S256_S256_S256_S768_d0
    (ix1 ⟨256 + e.val, by have := e.isLt; omega⟩) 1 (show (1 : ℕ) < 3 by norm_num) S256 (genBG1 A) rfl rfl 256 (by simp)
    (ix1 ⟨e.val, by have := e.isLt; omega⟩) (fun c hc => by
      match c with
      | ⟨0, _⟩ => exact absurd rfl hc) rfl).trans ?_
  unfold genBG1
  refine (pad_apply_of_inside ![0] ![56] ![0] _ (padv (F := Ideal)) pads_S200_S256_0560 h_S_ (ix1 ⟨e.val, by have := e.isLt; omega⟩) (ix1 e) (fun a => by
    match a with
    | ⟨0, _⟩ => show e.val = 0 + e.val * (0 + 1); omega)).trans ?_
  exact extractStridedSlice_apply ![200] A slices_S600_S200_200 (ix1 e) (ix1 ⟨200 + e.val, by have := e.isLt; omega⟩) (fun a => by
    match a with
    | ⟨0, _⟩ => rfl)

/-- Gate 2 of a re-laid bias: entry 512 + e of the row is the argument's entry 400 + e. -/
theorem genB_gate2 (A : FVec Ideal S600 .f32) (e : Fin 200) :
    genB A (ix2 (0 : Fin 1) ⟨512 + e.val, by have := e.isLt; omega⟩) = A (ix1 ⟨400 + e.val, by have := e.isLt; omega⟩) := by
  unfold genB
  refine (broadcastInDim_apply _ bcast_S768_S1x768_1 _ (ix2 (0 : Fin 1) ⟨512 + e.val, by have := e.isLt; omega⟩) (ix1 ⟨512 + e.val, by have := e.isLt; omega⟩) (fun a => match a with
    | ⟨0, _⟩ => by show 512 + e.val = if (768 : Nat) = 1 then 0 else 512 + e.val; rw [if_neg (by decide)])).trans ?_
  refine (concatenate_apply_piece (t := S768) (0 : Fin 1) [⟨S256, genBG0 A⟩, ⟨S256, genBG1 A⟩, ⟨S256, genBG2 A⟩] concatenates_S256_S256_S256_S768_d0
    (ix1 ⟨512 + e.val, by have := e.isLt; omega⟩) 2 (show (2 : ℕ) < 3 by norm_num) S256 (genBG2 A) rfl rfl 512 (by simp)
    (ix1 ⟨e.val, by have := e.isLt; omega⟩) (fun c hc => by
      match c with
      | ⟨0, _⟩ => exact absurd rfl hc) rfl).trans ?_
  unfold genBG2
  refine (pad_apply_of_inside ![0] ![56] ![0] _ (padv (F := Ideal)) pads_S200_S256_0560 h_S_ (ix1 ⟨e.val, by have := e.isLt; omega⟩) (ix1 e) (fun a => by
    match a with
    | ⟨0, _⟩ => show e.val = 0 + e.val * (0 + 1); omega)).trans ?_
  exact extractStridedSlice_apply ![400] A slices_S600_S200_400 (ix1 e) (ix1 ⟨400 + e.val, by have := e.isLt; omega⟩) (fun a => by
    match a with
    | ⟨0, _⟩ => rfl)

/-- The factor weights are the reference's normalised, transposed matrix. -/
theorem facW_apply (A : FVec Ideal S64x200 .f32) (x : Fin 200) (n : Fin 64) :
    facW A (ix2 x n) = Cert.ReferenceIdeal.Read.val_main_v102 (F := Ideal) A (ix2 x n) := rfl

end Cert.KernelIdeal.CellWeights

end
-- ==== Proof.CellFoundA.lean ====
/-
  The prepared weight arrays the launch finds, read off the prologue: each is its term of one argument.
-/
import proofs.«141967_j3573412790665_2_alg».proof.Proof.CellFrameI
import proofs.«141967_j3573412790665_2_alg».proof.Proof.CellWeights

set_option maxRecDepth 16384

noncomputable section

namespace Cert.KernelIdeal.CellFoundA

open Idealize.ShloMosaic Idealize.ShloMosaic.TcCoe Idealize.SL.Sem Idealize.ShloMosaic.StableHlo
open Cert.KernelIdeal Cert.KernelIdeal.Gen Cert.KernelIdeal.Cell Cert.KernelIdeal.CellWeights

variable {F : FTy → Type} [FloatOps F]
variable (m : (ℓ : Loc nD τ sig) → Buf (Elt F) ℓ)

theorem found_v8 (c : Dev nD) : V m c main_v8 = genInW (m ((c : Thread nD τ).loc main_arg3)) := by
  show StableHlo.after (List.flatten (prologue (F := F))) (fun b => m (c, b)) (Proc.devRef .tc _) = _
  simp only [prologue, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append]
  after_results_simp <;> rfl

theorem found_v17 (c : Dev nD) : V m c main_v17 = genHidW (m ((c : Thread nD τ).loc main_arg4)) := by
  show StableHlo.after (List.flatten (prologue (F := F))) (fun b => m (c, b)) (Proc.devRef .tc _) = _
  simp only [prologue, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append]
  after_results_simp <;> rfl

theorem found_v25 (c : Dev nD) : V m c main_v25 = genB (m ((c : Thread nD τ).loc main_arg5)) := by
  show StableHlo.after (List.flatten (prologue (F := F))) (fun b => m (c, b)) (Proc.devRef .tc _) = _
  simp only [prologue, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append]
  after_results_simp <;> rfl

theorem found_v33 (c : Dev nD) : V m c main_v33 = genB (m ((c : Thread nD τ).loc main_arg6)) := by
  show StableHlo.after (List.flatten (prologue (F := F))) (fun b => m (c, b)) (Proc.devRef .tc _) = _
  simp only [prologue, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append]
  after_results_simp <;> rfl

end Cert.KernelIdeal.CellFoundA

end
-- ==== Proof.CellFoundB.lean ====
/-
  The prepared weight arrays the launch finds, read off the prologue: each is its term of one argument.
-/
import proofs.«141967_j3573412790665_2_alg».proof.Proof.CellFrameI
import proofs.«141967_j3573412790665_2_alg».proof.Proof.CellWeights

set_option maxRecDepth 16384

noncomputable section

namespace Cert.KernelIdeal.CellFoundB

open Idealize.ShloMosaic Idealize.ShloMosaic.TcCoe Idealize.SL.Sem Idealize.ShloMosaic.StableHlo
open Cert.KernelIdeal Cert.KernelIdeal.Gen Cert.KernelIdeal.Cell Cert.KernelIdeal.CellWeights

variable {F : FTy → Type} [FloatOps F]
variable (m : (ℓ : Loc nD τ sig) → Buf (Elt F) ℓ)

theorem found_v35 (c : Dev nD) : V m c main_v35 = conInW (m ((c : Thread nD τ).loc main_arg7)) := by
  show StableHlo.after (List.flatten (prologue (F := F))) (fun b => m (c, b)) (Proc.devRef .tc _) = _
  simp only [prologue, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append]
  after_results_simp <;> rfl

theorem found_v37 (c : Dev nD) : V m c main_v37 = conHidW (m ((c : Thread nD τ).loc main_arg8)) := by
  show StableHlo.after (List.flatten (prologue (F := F))) (fun b => m (c, b)) (Proc.devRef .tc _) = _
  simp only [prologue, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append]
  after_results_simp <;> rfl

theorem found_v38 (c : Dev nD) : V m c main_v38 = conB (m ((c : Thread nD τ).loc main_arg9)) := by
  show StableHlo.after (List.flatten (prologue (F := F))) (fun b => m (c, b)) (Proc.devRef .tc _) = _
  simp only [prologue, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append]
  after_results_simp <;> rfl

theorem found_v39 (c : Dev nD) : V m c main_v39 = conB (m ((c : Thread nD τ).loc main_arg10)) := by
  show StableHlo.after (List.flatten (prologue (F := F))) (fun b => m (c, b)) (Proc.devRef .tc _) = _
  simp only [prologue, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append]
  after_results_simp <;> rfl

theorem found_v41 (c : Dev nD) : V m c main_v41 = coW (m ((c : Thread nD τ).loc main_arg11)) := by
  show StableHlo.after (List.flatten (prologue (F := F))) (fun b => m (c, b)) (Proc.devRef .tc _) = _
  simp only [prologue, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append]
  after_results_simp <;> rfl

theorem found_v42 (c : Dev nD) : V m c main_v42 = coB (m ((c : Thread nD τ).loc main_arg12)) := by
  show StableHlo.after (List.flatten (prologue (F := F))) (fun b => m (c, b)) (Proc.devRef .tc _) = _
  simp only [prologue, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append]
  after_results_simp <;> rfl

theorem found_v52 (c : Dev nD) : V m c main_v52 = facW (m ((c : Thread nD τ).loc main_arg13)) := by
  show StableHlo.after (List.flatten (prologue (F := F))) (fun b => m (c, b)) (Proc.devRef .tc _) = _
  simp only [prologue, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append]
  after_results_simp <;> rfl

end Cert.KernelIdeal.CellFoundB

end
-- ==== Proof.CellClaims.lean ====
/-
  The five claims.

  The two kernel frames are the frame theorem of the frame module at the word-level and at the exact instance; the
  reference's frame is its run with the result dropped; the ideal pass rewrote nothing, so preservation is trivial.
  For the algebraic claim: at every grid point the body's input blocks read off the arguments as the bridge asks
  (rows of x, h0, eps; the prepared weights, which the launch finds as their terms of the arguments), so every
  output block is the reference's result restricted to its rows, the blocks tile the result, and the kernel's
  result array is the reference's composed term of the same arguments.
-/
import proofs.«141967_j3573412790665_2_alg».proof.Defs
import proofs.«141967_j3573412790665_2_alg».proof.Proof.Gen.Pre_finite_inputs
import proofs.«141967_j3573412790665_2_alg».proof.Proof.CellFrameK
import proofs.«141967_j3573412790665_2_alg».proof.Proof.CellArray
import proofs.«141967_j3573412790665_2_alg».proof.Proof.CellBridge
import proofs.«141967_j3573412790665_2_alg».proof.Proof.CellFoundA
import proofs.«141967_j3573412790665_2_alg».proof.Proof.CellFoundB
import proofs.«141967_j3573412790665_2_alg».proof.Proof.Gen.ReferenceIdeal.Run

set_option maxRecDepth 16384

noncomputable section

namespace Cert.Proof.CellClaims

open Idealize.ShloMosaic Idealize.ShloMosaic.TcCoe Idealize.ShloMosaic.ValueIdx Idealize.SL.Sem
open Cert.KernelIdeal Cert.KernelIdeal.Gen Cert.KernelIdeal.Cell Cert.KernelIdeal.CellArray Cert.KernelIdeal.CellWeights
open Cert.KernelIdeal.CellFoundA Cert.KernelIdeal.CellFoundB

variable (m : (ℓ : Loc nD τ sig) → Buf (Elt Ideal) ℓ) (ρ : Dev nD → PrngReg)

/-- At every grid point the body's input blocks read off the arguments as the bridge asks. -/
theorem reads (c : Dev nD) (t : Fin cfg0.N) :
    Cert.KernelIdeal.CellBridge.Reads (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
      (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (row t) where
  h0 := fun p q => (blk0_apply m c t p q).trans (congrFun (V_arg0 m c) _)
  h1 := fun p q => (blk1_apply m c t p q).trans (congrFun (V_arg1 m c) _)
  h2 := fun p q => (blk2_apply m c t p q).trans (congrFun (V_arg2 m c) _)
  w3 := fun x e => ⟨(blk3_apply m c t x _).trans ((congrFun (found_v8 m c) _).trans (genInW_gate0 _ x e)),
    (blk3_apply m c t x _).trans ((congrFun (found_v8 m c) _).trans (genInW_gate1 _ x e)),
    (blk3_apply m c t x _).trans ((congrFun (found_v8 m c) _).trans (genInW_gate2 _ x e))⟩
  w4 := fun x e => ⟨(blk4_apply m c t x _).trans ((congrFun (found_v17 m c) _).trans (genHidW_gate0 _ x e)),
    (blk4_apply m c t x _).trans ((congrFun (found_v17 m c) _).trans (genHidW_gate1 _ x e)),
    (blk4_apply m c t x _).trans ((congrFun (found_v17 m c) _).trans (genHidW_gate2 _ x e))⟩
  b5 := fun e => ⟨(blk5_apply m c t _ _).trans ((congrFun (found_v25 m c) _).trans (genB_gate0 _ e)),
    (blk5_apply m c t _ _).trans ((congrFun (found_v25 m c) _).trans (genB_gate1 _ e)),
    (blk5_apply m c t _ _).trans ((congrFun (found_v25 m c) _).trans (genB_gate2 _ e))⟩
  b6 := fun e => ⟨(blk6_apply m c t _ _).trans ((congrFun (found_v33 m c) _).trans (genB_gate0 _ e)),
    (blk6_apply m c t _ _).trans ((congrFun (found_v33 m c) _).trans (genB_gate1 _ e)),
    (blk6_apply m c t _ _).trans ((congrFun (found_v33 m c) _).trans (genB_gate2 _ e))⟩
  h7 := fun x n => (blk7_apply m c t x n).trans ((congrFun (found_v35 m c) _).trans (conInW_apply _ x n))
  h8 := fun x n => (blk8_apply m c t x n).trans ((congrFun (found_v37 m c) _).trans (conHidW_apply _ x n))
  h9 := fun n => (blk9_apply m c t _ n).trans ((congrFun (found_v38 m c) _).trans (conB_apply _ n))
  h10 := fun n => (blk10_apply m c t _ n).trans ((congrFun (found_v39 m c) _).trans (conB_apply _ n))
  h11 := fun x n => (blk11_apply m c t x n).trans ((congrFun (found_v41 m c) _).trans (coW_apply _ x n))
  h12 := fun n => (blk12_apply m c t _ n).trans ((congrFun (found_v42 m c) _).trans (coB_apply _ n))
  h13 := fun x n => (blk13_apply m c t x n).trans ((congrFun (found_v52 m c) _).trans (facW_apply _ x n))

/-- The idealized kernel's run, its result named: the reference's composed term of the kernel's own arguments. -/
theorem kernel_run : θ_run defs (onTc (τ := τ) (main (F := Ideal))) ⟨m, fun _ => 0, ρ⟩ fun r => ∀ c : Dev nD,
      r.2.mem ((c.tc : Thread nD τ).loc main_v53)
        = Cert.ReferenceIdeal.Read.val_main_v104 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun r h c => ⟨(h c).1.trans (result_eq m c _ (fun t p j =>
      Cert.KernelIdeal.CellBridge.cell_eq _ _ _ _ _ _ _ _ _ _ _ _ _ _ _ _ _ _ _ _ _ _ _ _ _ _ _ _ _ (reads m c t) p j)), (h c).2⟩)
    (run_named m ρ)

end Cert.Proof.CellClaims

namespace Cert.Proof

open Idealize.ShloMosaic Idealize.SL.Sem

theorem frame_k : Cert.frame_Kernel := fun m ρ _ => Cert.Kernel.Cell.frame m ρ
theorem frame_ki : Cert.frame_KernelIdeal := fun m ρ _ => Cert.KernelIdeal.Cell.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the reference's composed term of arguments that agree. -/
theorem algebraic : Cert.algebraic_KernelIdeal_ReferenceIdeal := by
  intro m ρ m' ρ' _ hagree
  refine ⟨_, Cert.Proof.CellClaims.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13⟩ := hagree c
  rw [Cert.ReferenceIdeal.Read.val_main_v104_eq, e0, e1, e2, e3, e4, e5, e6, e7, e8, e9, e10, e11, e12, e13]

end Cert.Proof

end
-- ==== Proof.lean ====
/-
  The certificate of the decoder-cell kernel against its reference.

  The kernel tiles the batch in 64 blocks of 1024 rows; per block it runs a controller GRU cell, reads a sample off
  the new controller state, runs a generator GRU cell on it, and reads the new factors off the new generator state,
  with weights the program prepares once beforehand (transposed, the generator's re-laid on 256-column gates, the
  factor matrix row-normalised). The reference does the same on all 65536 rows at once with the weights as given.
  At the exact instance the two results are equal entry by entry for every input: each stage acts row by row, a
  matrix product over a block's row is the product over the array's row, the padding columns are never read, and
  the two spellings of the logistic function are one function. The modules under Proof/ carry this out; here the
  five claims are put together.
-/
import proofs.«141967_j3573412790665_2_alg».proof.Defs
import proofs.«141967_j3573412790665_2_alg».proof.Proof.Gen.Kernel
import proofs.«141967_j3573412790665_2_alg».proof.Proof.Gen.KernelIdeal
import proofs.«141967_j3573412790665_2_alg».proof.Proof.Gen.ReferenceIdeal
import proofs.«141967_j3573412790665_2_alg».proof.Proof.Gen.Pre_finite_inputs
import proofs.«141967_j3573412790665_2_alg».proof.Proof.CellClaims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
